-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S64x1 : Shape := ⟨2, ![64, 1]⟩
abbrev S1 : Shape := ⟨1, ![1]⟩
abbrev S_ : Shape := ⟨0, ![]⟩
abbrev S1x3200000 : Shape := ⟨2, ![1, 3200000]⟩
abbrev S3200000 : Shape := ⟨1, ![3200000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part3 {F : FTy → Type} [FloatOps F] (main_arg4 : IVec S2x3200000 32) (main_v48 : IVec S_ 1) (main_v50 : IVec S3200000 32) (main_c_18 : IVec S_ 32) : IVec S_ 1 :=
  let main_v51 : IVec S3200000 32 := broadcastInDim S3200000 ![] bcast_S_S3200000 main_c_18
  let main_v52 : IVec S3200000 1 := cmpi .sge main_v50 main_v51
  let main_c_19 : IVec S_ 1 := constantI S_ 1 1#1
  let main_v53 : IVec S_ 1 := (fun x v => Host.reduce IntOp.andi x v reducesTo_S3200000_S_d0 h_S_) main_v52 main_c_19
  let main_v54 : IVec S_ 1 := andi main_v48 main_v53
  let main_v55 : IVec S1x3200000 32 := (extractStridedSlice S1x3200000 ![1, 0] · slices_S2x3200000_S1x3200000_1_0) main_arg4
  let main_v56 : IVec S3200000 32 := shapeCast S3200000 main_v55 shapeCasts_S1x3200000_S3200000
  let main_c_20 : IVec S_ 32 := constantI S_ 32 0#32
  let main_v57 : IVec S3200000 32 := broadcastInDim S3200000 ![] bcast_S_S3200000 main_c_20
  let main_v58 : IVec S3200000 1 := cmpi .sge main_v56 main_v57
  let main_c_21 : IVec S_ 1 := constantI S_ 1 1#1
  let main_v59 : IVec S_ 1 := (fun x v => Host.reduce IntOp.andi x v reducesTo_S3200000_S_d0 h_S_) main_v58 main_c_21
  let main_v60 : IVec S_ 1 := andi main_v54 main_v59
  main_v60

def fn_part2 {F : FTy → Type} [FloatOps F] (main_arg1 : IVec S2x3200000 32) (main_arg4 : IVec S2x3200000 32) (main_arg11 : FVec F S64 .f32) (main_arg12 : FVec F S64x1 .f32) (main_arg13 : FVec F S1 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg12
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg13
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : IVec S1x3200000 32 := (extractStridedSlice S1x3200000 ![1, 0] · slices_S2x3200000_S1x3200000_1_0) main_arg1
  let main_v50 : IVec S3200000 32 := shapeCast S3200000 main_v49 shapeCasts_S1x3200000_S3200000
  let main_c_18 : IVec S_ 32 := constantI S_ 32 0#32
  fn_part3 (F := F) main_arg4 main_v48 main_v50 main_c_18

def fn_part1 {F : FTy → Type} [FloatOps F] (main_arg1 : IVec S2x3200000 32) (main_arg4 : IVec S2x3200000 32) (main_arg8 : FVec F S64x64 .f32) (main_arg9 : FVec F S64 .f32) (main_arg10 : FVec F S192x64 .f32) (main_arg11 : FVec F S64 .f32) (main_arg12 : FVec F S64x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg10
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg1 main_arg4 main_arg11 main_arg12 main_arg13 main_v33

def fn {F : FTy → Type} [FloatOps F] (main_arg0 : FVec F S100000x128 .f32) (main_arg1 : IVec S2x3200000 32) (main_arg2 : IVec S100000 32) (main_arg3 : FVec F S100000x128 .f32) (main_arg4 : IVec S2x3200000 32) (main_arg5 : IVec S100000 32) (main_arg6 : FVec F S128x64 .f32) (main_arg7 : FVec F S64 .f32) (main_arg8 : FVec F S64x64 .f32) (main_arg9 : FVec F S64 .f32) (main_arg10 : FVec F S192x64 .f32) (main_arg11 : FVec F S64 .f32) (main_arg12 : FVec F S64x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x64 .f32 := Host.absf main_arg6
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg4 main_arg8 main_arg9 main_arg10 main_arg11 main_arg12 main_arg13 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S3200000x64 : Shape := ⟨2, ![3200000, 64]⟩
abbrev S1x64 : Shape := ⟨2, ![1, 64]⟩
abbrev S1024x64 : Shape := ⟨2, ![1024, 64]⟩
abbrev S1024 : Shape := ⟨1, ![1024]⟩
abbrev S1024x1 : Shape := ⟨2, ![1024, 1]⟩
abbrev S1x1 : Shape := ⟨2, ![1, 1]⟩

abbrev nBuf : Space → Nat
  | .hbm => 143
  | .vmem => 63
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S100000x128, .f32⟩
  | 4 => ⟨S2x3200000, .i32⟩
  | 5 => ⟨S100000, .i32⟩
  | 6 => ⟨S128x64, .f32⟩
  | 7 => ⟨S64, .f32⟩
  | 8 => ⟨S64x64, .f32⟩
  | 9 => ⟨S64, .f32⟩
  | 10 => ⟨S192x64, .f32⟩
  | 11 => ⟨S64, .f32⟩
  | 12 => ⟨S64x1, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S100000x1, .f32⟩
  | 29 => ⟨S100000x64, .bf16⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000x64, .bf16⟩
  | 39 => ⟨S3200000x64, .f32⟩
  | 40 => ⟨S_, .f32⟩
  | 41 => ⟨S100000x64, .f32⟩
  | 42 => ⟨S3200000x1, .i32⟩
  | 43 => ⟨S100000x64, .f32⟩
  | 44 => ⟨S100000x1, .f32⟩
  | 45 => ⟨S1x64, .f32⟩
  | 46 => ⟨S100000x64, .bf16⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x64, .bf16⟩
  | 56 => ⟨S3200000x64, .f32⟩
  | 57 => ⟨S_, .f32⟩
  | 58 => ⟨S100000x64, .f32⟩
  | 59 => ⟨S3200000x1, .i32⟩
  | 60 => ⟨S100000x64, .f32⟩
  | 61 => ⟨S100000x1, .f32⟩
  | 62 => ⟨S1x64, .f32⟩
  | 63 => ⟨S100000x64, .f32⟩
  | 64 => ⟨S_, .f32⟩
  | 65 => ⟨S1024x64, .f32⟩
  | 66 => ⟨S100000x1, .i32⟩
  | 67 => ⟨S1024x64, .f32⟩
  | 68 => ⟨S_, .f32⟩
  | 69 => ⟨S100000, .f32⟩
  | 70 => ⟨S_, .f32⟩
  | 71 => ⟨S1024, .f32⟩
  | 72 => ⟨S100000x1, .i32⟩
  | 73 => ⟨S1024, .f32⟩
  | 74 => ⟨S1x3200000, .i32⟩
  | 75 => ⟨S3200000, .i32⟩
  | 76 => ⟨S1x3200000, .i32⟩
  | 77 => ⟨S3200000, .i32⟩
  | 78 => ⟨S_, .f32⟩
  | 79 => ⟨S3200000, .f32⟩
  | 80 => ⟨S_, .f32⟩
  | 81 => ⟨S100000, .f32⟩
  | 82 => ⟨S3200000x1, .i32⟩
  | 83 => ⟨S100000, .f32⟩
  | 84 => ⟨S_, .f32⟩
  | 85 => ⟨S100000, .f32⟩
  | 86 => ⟨S100000, .f32⟩
  | 87 => ⟨S100000, .f32⟩
  | 88 => ⟨S100000x1, .f32⟩
  | 89 => ⟨S100000x64, .bf16⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000x64, .bf16⟩
  | 99 => ⟨S3200000x64, .f32⟩
  | 100 => ⟨S_, .f32⟩
  | 101 => ⟨S100000x64, .f32⟩
  | 102 => ⟨S3200000x1, .i32⟩
  | 103 => ⟨S100000x64, .f32⟩
  | 104 => ⟨S100000x1, .f32⟩
  | 105 => ⟨S1x64, .f32⟩
  | 106 => ⟨S100000x64, .bf16⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x64, .bf16⟩
  | 116 => ⟨S3200000x64, .f32⟩
  | 117 => ⟨S_, .f32⟩
  | 118 => ⟨S100000x64, .f32⟩
  | 119 => ⟨S3200000x1, .i32⟩
  | 120 => ⟨S100000x64, .f32⟩
  | 121 => ⟨S100000x1, .f32⟩
  | 122 => ⟨S1x64, .f32⟩
  | 123 => ⟨S100000x64, .f32⟩
  | 124 => ⟨S_, .f32⟩
  | 125 => ⟨S1024x64, .f32⟩
  | 126 => ⟨S100000x1, .i32⟩
  | 127 => ⟨S1024x64, .f32⟩
  | _ => ⟨S100000x128, .f32⟩

abbrev hbmTy0_1 (i : Nat) : BufTy := match i % 128 with
  | 0 => ⟨S_, .f32⟩
  | 1 => ⟨S100000, .f32⟩
  | 2 => ⟨S_, .f32⟩
  | 3 => ⟨S1024, .f32⟩
  | 4 => ⟨S100000x1, .i32⟩
  | 5 => ⟨S1024, .f32⟩
  | 6 => ⟨S64x64, .f32⟩
  | 7 => ⟨S64x64, .f32⟩
  | 8 => ⟨S64x64, .f32⟩
  | 9 => ⟨S1024x1, .f32⟩
  | 10 => ⟨S1024x1, .f32⟩
  | 11 => ⟨S1x64, .f32⟩
  | 12 => ⟨S1x1, .f32⟩
  | 13 => ⟨S1024x1, .f32⟩
  | 14 => ⟨S1024, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .bf16⟩
  | .local _ .vmem, ⟨6, _⟩ => ⟨S10000x64, .bf16⟩
  | .local _ .vmem, ⟨7, _⟩ => ⟨S10000x64, .f32⟩
  | .local _ .vmem, ⟨8, _⟩ => ⟨S10000x64, .f32⟩
  | .local _ .vmem, ⟨9, _⟩ => ⟨S10000x64, .bf16⟩
  | .local _ .vmem, ⟨10, _⟩ => ⟨S10000x64, .bf16⟩
  | .local _ .vmem, ⟨11, _⟩ => ⟨S10000x1, .f32⟩
  | .local _ .vmem, ⟨12, _⟩ => ⟨S10000x1, .f32⟩
  | .local _ .vmem, ⟨13, _⟩ => ⟨S1x64, .f32⟩
  | .local _ .vmem, ⟨14, _⟩ => ⟨S64x64, .f32⟩
  | .local _ .vmem, ⟨15, _⟩ => ⟨S10000x64, .bf16⟩
  | .local _ .vmem, ⟨16, _⟩ => ⟨S10000x64, .bf16⟩
  | .local _ .vmem, ⟨17, _⟩ => ⟨S10000x64, .f32⟩
  | .local _ .vmem, ⟨18, _⟩ => ⟨S10000x64, .f32⟩
  | .local _ .vmem, ⟨19, _⟩ => ⟨S10000x64, .bf16⟩
  | .local _ .vmem, ⟨20, _⟩ => ⟨S10000x64, .bf16⟩
  | .local _ .vmem, ⟨21, _⟩ => ⟨S10000x1, .f32⟩
  | .local _ .vmem, ⟨22, _⟩ => ⟨S10000x1, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x128, .f32⟩
  | .local _ .vmem, ⟨27, _⟩ => ⟨S10000x128, .f32⟩
  | .local _ .vmem, ⟨28, _⟩ => ⟨S128x64, .f32⟩
  | .local _ .vmem, ⟨29, _⟩ => ⟨S10000x1, .f32⟩
  | .local _ .vmem, ⟨30, _⟩ => ⟨S10000x1, .f32⟩
  | .local _ .vmem, ⟨31, _⟩ => ⟨S10000x64, .bf16⟩
  | .local _ .vmem, ⟨32, _⟩ => ⟨S10000x64, .bf16⟩
  | .local _ .vmem, ⟨33, _⟩ => ⟨S10000x64, .f32⟩
  | .local _ .vmem, ⟨34, _⟩ => ⟨S10000x64, .f32⟩
  | .local _ .vmem, ⟨35, _⟩ => ⟨S10000x64, .bf16⟩
  | .local _ .vmem, ⟨36, _⟩ => ⟨S10000x64, .bf16⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S64x64, .f32⟩
  | .local _ .vmem, ⟨41, _⟩ => ⟨S10000x64, .bf16⟩
  | .local _ .vmem, ⟨42, _⟩ => ⟨S10000x64, .bf16⟩
  | .local _ .vmem, ⟨43, _⟩ => ⟨S10000x64, .f32⟩
  | .local _ .vmem, ⟨44, _⟩ => ⟨S10000x64, .f32⟩
  | .local _ .vmem, ⟨45, _⟩ => ⟨S10000x64, .bf16⟩
  | .local _ .vmem, ⟨46, _⟩ => ⟨S10000x64, .bf16⟩
  | .local _ .vmem, ⟨47, _⟩ => ⟨S10000x1, .f32⟩
  | .local _ .vmem, ⟨48, _⟩ => ⟨S10000x1, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | .local _ .vmem, ⟨52, _⟩ => ⟨S1024x64, .f32⟩
  | .local _ .vmem, ⟨53, _⟩ => ⟨S1024x1, .f32⟩
  | .local _ .vmem, ⟨54, _⟩ => ⟨S1024x64, .f32⟩
  | .local _ .vmem, ⟨55, _⟩ => ⟨S1024x1, .f32⟩
  | .local _ .vmem, ⟨56, _⟩ => ⟨S64x64, .f32⟩
  | .local _ .vmem, ⟨57, _⟩ => ⟨S64x64, .f32⟩
  | .local _ .vmem, ⟨58, _⟩ => ⟨S64x64, .f32⟩
  | .local _ .vmem, ⟨59, _⟩ => ⟨S1x64, .f32⟩
  | .local _ .vmem, ⟨60, _⟩ => ⟨S64x1, .f32⟩
  | .local _ .vmem, ⟨61, _⟩ => ⟨S1x1, .f32⟩
  | .local _ .vmem, ⟨62, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_c_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_20 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg6_0 : Ref sig .tc := ⟨.vmem, 58, rfl⟩
abbrev cc6_stg7_0 : Ref sig .tc := ⟨.vmem, 59, rfl⟩
abbrev cc6_stg8_0 : Ref sig .tc := ⟨.vmem, 60, rfl⟩
abbrev cc6_stg9_0 : Ref sig .tc := ⟨.vmem, 61, rfl⟩
abbrev cc6_stg10_0 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc5_sem3_0 : DmaSem sig := 49
abbrev cc5_sem4_0 : DmaSem sig := 50
abbrev cc5_sem4_1 : DmaSem sig := 51
abbrev cc6_sem0_0 : DmaSem sig := 52
abbrev cc6_sem1_0 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem6_0 : DmaSem sig := 58
abbrev cc6_sem7_0 : DmaSem sig := 59
abbrev cc6_sem8_0 : DmaSem sig := 60
abbrev cc6_sem9_0 : DmaSem sig := 61
abbrev cc6_sem10_0 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1024x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S1024x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1024x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1024x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S64x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1024x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S1024_S1024x1 : S1024.ShapeCasts S1024x1
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  shapeCasts_S64x64_S64x64 : S64x64.ShapeCasts S64x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1024x1_S1024 : S1024x1.ShapeCasts S1024
  scatter_S100000_S3200000x1_S3200000_n_0_0_1_wf : ScatterDims.WF S100000 S3200000x1 S3200000 [] [0] [0] 1
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .bf16 = 32 ∨ (Rect.block (s := S100000x64) S10000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .bf16 = 32 ∨ (Rect.block (s := S100000x64) S10000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .bf16 = 32 ∨ (Rect.block (s := S100000x64) S10000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .bf16 = 32 ∨ (Rect.block (s := S100000x64) S10000x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .bf16 = 32 ∨ (Rect.block (s := S100000x64) S10000x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .bf16 = 32 ∨ (Rect.block (s := S100000x64) S10000x64.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .bf16 = 32 ∨ (Rect.block (s := S100000x64) S10000x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1024x64.size a ≤ S1024x64.size a
  hwx6_0 : ∀ i : grid6.Coords, EltTy.bits .f32 = 32 ∨ (Rect.block (s := S1024x64) S1024x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x1.size a ≤ S1024x1.size a
  hwx6_1 : ∀ i : grid6.Coords, EltTy.bits .f32 = 32 ∨ (Rect.block (s := S1024x1) S1024x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024x64.size a ≤ S1024x64.size a
  hwx6_2 : ∀ i : grid6.Coords, EltTy.bits .f32 = 32 ∨ (Rect.block (s := S1024x64) S1024x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1024x1.size a ≤ S1024x1.size a
  hwx6_3 : ∀ i : grid6.Coords, EltTy.bits .f32 = 32 ∨ (Rect.block (s := S1024x1) S1024x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x64.size a ≤ S64x64.size a
  hwx6_6 : ∀ i : grid6.Coords, EltTy.bits .f32 = 32 ∨ (Rect.block (s := S64x64) S64x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S64x1.size a ≤ S64x1.size a
  hwx6_8 : ∀ i : grid6.Coords, EltTy.bits .f32 = 32 ∨ (Rect.block (s := S64x1) S64x1.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x1.size a ≤ S1x1.size a
  hwx6_9 : ∀ i : grid6.Coords, EltTy.bits .f32 = 32 ∨ (Rect.block (s := S1x1) S1x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1024x1.size a ≤ S1024x1.size a
  hwx6_10 : ∀ i : grid6.Coords, EltTy.bits .f32 = 32 ∨ (Rect.block (s := S1024x1) S1024x1.size (cc6_transform_10 i) (hinb6_10 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg3) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v72) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v85) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v86) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v43) S1024x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v99) S1024x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S1024x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S1024x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v96) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v97) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v98) S64x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v101) S1x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg12) S64x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v102) S1x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v103) S1024x1.size cc6_transform_10 reads6_10 true true 1 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S1024x64 : Shape := ⟨2, ![1024, 64]⟩
abbrev S1024 : Shape := ⟨1, ![1024]⟩
abbrev S1024x1 : Shape := ⟨2, ![1024, 1]⟩
abbrev S1024x192 : Shape := ⟨2, ![1024, 192]⟩
abbrev S1x1 : Shape := ⟨2, ![1, 1]⟩

abbrev nBuf : Space → Nat
  | .hbm => 333
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S100000x128, .f32⟩
  | 4 => ⟨S2x3200000, .i32⟩
  | 5 => ⟨S100000, .i32⟩
  | 6 => ⟨S128x64, .f32⟩
  | 7 => ⟨S64, .f32⟩
  | 8 => ⟨S64x64, .f32⟩
  | 9 => ⟨S64, .f32⟩
  | 10 => ⟨S192x64, .f32⟩
  | 11 => ⟨S64, .f32⟩
  | 12 => ⟨S64x1, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S100000x64, .f32⟩
  | 19 => ⟨S_, .f32⟩
  | 20 => ⟨S100000, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S_, .f32⟩
  | 30 => ⟨S3200000, .f32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S3200000x1, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x64, .f32⟩
  | 65 => ⟨S3200000x64, .f32⟩
  | 66 => ⟨S3200000x64, .f32⟩
  | 67 => ⟨S_, .f32⟩
  | 68 => ⟨S100000x64, .f32⟩
  | 69 => ⟨S3200000x1, .i32⟩
  | 70 => ⟨S100000x64, .f32⟩
  | 71 => ⟨S100000, .f32⟩
  | 72 => ⟨S100000x1, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S100000, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S_, .f32⟩
  | 94 => ⟨S3200000, .f32⟩
  | 95 => ⟨S100000, .f32⟩
  | 96 => ⟨S_, .f32⟩
  | 97 => ⟨S100000, .f32⟩
  | 98 => ⟨S100000, .f32⟩
  | 99 => ⟨S100000, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000, .f32⟩
  | 118 => ⟨S3200000, .f32⟩
  | 119 => ⟨S3200000x1, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x128, .f32⟩

abbrev hbmTy0_1 (i : Nat) : BufTy := match i % 128 with
  | 0 => ⟨S3200000x64, .f32⟩
  | 1 => ⟨S3200000x64, .f32⟩
  | 2 => ⟨S3200000x64, .f32⟩
  | 3 => ⟨S_, .f32⟩
  | 4 => ⟨S100000x64, .f32⟩
  | 5 => ⟨S3200000x1, .i32⟩
  | 6 => ⟨S100000x64, .f32⟩
  | 7 => ⟨S100000, .f32⟩
  | 8 => ⟨S100000x1, .f32⟩
  | 9 => ⟨S100000x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S_, .f32⟩
  | 19 => ⟨S1024x64, .f32⟩
  | 20 => ⟨S100000x1, .i32⟩
  | 21 => ⟨S1024x64, .f32⟩
  | 22 => ⟨S_, .f32⟩
  | 23 => ⟨S100000, .f32⟩
  | 24 => ⟨S_, .f32⟩
  | 25 => ⟨S1024, .f32⟩
  | 26 => ⟨S100000x1, .i32⟩
  | 27 => ⟨S1024, .f32⟩
  | 28 => ⟨S_, .f32⟩
  | 29 => ⟨S1024, .f32⟩
  | 30 => ⟨S1024, .f32⟩
  | 31 => ⟨S1024x1, .f32⟩
  | 32 => ⟨S1024x64, .f32⟩
  | 33 => ⟨S1024x64, .f32⟩
  | 34 => ⟨S1x3200000, .i32⟩
  | 35 => ⟨S3200000, .i32⟩
  | 36 => ⟨S1x3200000, .i32⟩
  | 37 => ⟨S3200000, .i32⟩
  | 38 => ⟨S100000x64, .f32⟩
  | 39 => ⟨S_, .f32⟩
  | 40 => ⟨S100000, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S_, .f32⟩
  | 50 => ⟨S3200000, .f32⟩
  | 51 => ⟨S100000, .f32⟩
  | 52 => ⟨S_, .f32⟩
  | 53 => ⟨S100000, .f32⟩
  | 54 => ⟨S100000, .f32⟩
  | 55 => ⟨S100000, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000, .f32⟩
  | 65 => ⟨S_, .i32⟩
  | 66 => ⟨S3200000, .i32⟩
  | 67 => ⟨S3200000, .i1⟩
  | 68 => ⟨S_, .i32⟩
  | 69 => ⟨S3200000, .i32⟩
  | 70 => ⟨S3200000, .i32⟩
  | 71 => ⟨S3200000, .i32⟩
  | 72 => ⟨S3200000x1, .i32⟩
  | 73 => ⟨S3200000, .f32⟩
  | 74 => ⟨S3200000, .f32⟩
  | 75 => ⟨S3200000x1, .f32⟩
  | 76 => ⟨S_, .i32⟩
  | 77 => ⟨S3200000, .i32⟩
  | 78 => ⟨S3200000, .i1⟩
  | 79 => ⟨S_, .i32⟩
  | 80 => ⟨S3200000, .i32⟩
  | 81 => ⟨S3200000, .i32⟩
  | 82 => ⟨S3200000, .i32⟩
  | 83 => ⟨S3200000x1, .i32⟩
  | 84 => ⟨S3200000x64, .f32⟩
  | 85 => ⟨S3200000x64, .f32⟩
  | 86 => ⟨S3200000x64, .f32⟩
  | 87 => ⟨S_, .f32⟩
  | 88 => ⟨S100000x64, .f32⟩
  | 89 => ⟨S3200000x1, .i32⟩
  | 90 => ⟨S100000x64, .f32⟩
  | 91 => ⟨S100000, .f32⟩
  | 92 => ⟨S100000x1, .f32⟩
  | 93 => ⟨S100000x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S_, .f32⟩
  | 104 => ⟨S100000, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S_, .f32⟩
  | 114 => ⟨S3200000, .f32⟩
  | 115 => ⟨S100000, .f32⟩
  | 116 => ⟨S_, .f32⟩
  | 117 => ⟨S100000, .f32⟩
  | 118 => ⟨S100000, .f32⟩
  | 119 => ⟨S100000, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x128, .f32⟩

abbrev hbmTy0_2 (i : Nat) : BufTy := match i % 128 with
  | 0 => ⟨S3200000, .f32⟩
  | 1 => ⟨S_, .i32⟩
  | 2 => ⟨S3200000, .i32⟩
  | 3 => ⟨S3200000, .i1⟩
  | 4 => ⟨S_, .i32⟩
  | 5 => ⟨S3200000, .i32⟩
  | 6 => ⟨S3200000, .i32⟩
  | 7 => ⟨S3200000, .i32⟩
  | 8 => ⟨S3200000x1, .i32⟩
  | 9 => ⟨S3200000, .f32⟩
  | 10 => ⟨S3200000, .f32⟩
  | 11 => ⟨S3200000x1, .f32⟩
  | 12 => ⟨S_, .i32⟩
  | 13 => ⟨S3200000, .i32⟩
  | 14 => ⟨S3200000, .i1⟩
  | 15 => ⟨S_, .i32⟩
  | 16 => ⟨S3200000, .i32⟩
  | 17 => ⟨S3200000, .i32⟩
  | 18 => ⟨S3200000, .i32⟩
  | 19 => ⟨S3200000x1, .i32⟩
  | 20 => ⟨S3200000x64, .f32⟩
  | 21 => ⟨S3200000x64, .f32⟩
  | 22 => ⟨S3200000x64, .f32⟩
  | 23 => ⟨S_, .f32⟩
  | 24 => ⟨S100000x64, .f32⟩
  | 25 => ⟨S3200000x1, .i32⟩
  | 26 => ⟨S100000x64, .f32⟩
  | 27 => ⟨S100000, .f32⟩
  | 28 => ⟨S100000x1, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S_, .f32⟩
  | 39 => ⟨S1024x64, .f32⟩
  | 40 => ⟨S100000x1, .i32⟩
  | 41 => ⟨S1024x64, .f32⟩
  | 42 => ⟨S_, .f32⟩
  | 43 => ⟨S100000, .f32⟩
  | 44 => ⟨S_, .f32⟩
  | 45 => ⟨S1024, .f32⟩
  | 46 => ⟨S100000x1, .i32⟩
  | 47 => ⟨S1024, .f32⟩
  | 48 => ⟨S_, .f32⟩
  | 49 => ⟨S1024, .f32⟩
  | 50 => ⟨S1024, .f32⟩
  | 51 => ⟨S1024x1, .f32⟩
  | 52 => ⟨S1024x64, .f32⟩
  | 53 => ⟨S1024x64, .f32⟩
  | 54 => ⟨S1024x64, .f32⟩
  | 55 => ⟨S1024x64, .f32⟩
  | 56 => ⟨S1024x192, .f32⟩
  | 57 => ⟨S1024x64, .f32⟩
  | 58 => ⟨S1x64, .f32⟩
  | 59 => ⟨S1024x64, .f32⟩
  | 60 => ⟨S1024x64, .f32⟩
  | 61 => ⟨S_, .f32⟩
  | 62 => ⟨S1024x64, .f32⟩
  | 63 => ⟨S1024x64, .f32⟩
  | 64 => ⟨S1024x1, .f32⟩
  | 65 => ⟨S1x1, .f32⟩
  | 66 => ⟨S1024x1, .f32⟩
  | 67 => ⟨S1024x1, .f32⟩
  | 68 => ⟨S1024x1, .f32⟩
  | 69 => ⟨S1024x1, .f32⟩
  | 70 => ⟨S_, .f32⟩
  | 71 => ⟨S1024x1, .f32⟩
  | 72 => ⟨S1024x1, .f32⟩
  | 73 => ⟨S_, .f32⟩
  | 74 => ⟨S1024x1, .f32⟩
  | 75 => ⟨S1024x1, .f32⟩
  | 76 => ⟨S1024, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call0_cst : Ref sig .tc := ⟨.hbm, 79, rfl⟩
abbrev main_call0_v0 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_cst_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_19 : Ref sig .tc := ⟨.hbm, 120, rfl⟩
abbrev main_v83 : Ref sig .tc := ⟨.hbm, 121, rfl⟩
abbrev main_v84 : Ref sig .tc := ⟨.hbm, 122, rfl⟩
abbrev main_c_20 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_21 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_call1_cst : Ref sig .tc := ⟨.hbm, 143, rfl⟩
abbrev main_call1_v0 : Ref sig .tc := ⟨.hbm, 144, rfl⟩
abbrev main_v103 : Ref sig .tc := ⟨.hbm, 145, rfl⟩
abbrev main_cst_22 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_23 : Ref sig .tc := ⟨.hbm, 150, rfl⟩
abbrev main_v107 : Ref sig .tc := ⟨.hbm, 151, rfl⟩
abbrev main_cst_24 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_25 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_26 : Ref sig .tc := ⟨.hbm, 167, rfl⟩
abbrev main_v121 : Ref sig .tc := ⟨.hbm, 168, rfl⟩
abbrev main_c_27 : Ref sig .tc := ⟨.hbm, 169, rfl⟩
abbrev main_v122 : Ref sig .tc := ⟨.hbm, 170, rfl⟩
abbrev main_v123 : Ref sig .tc := ⟨.hbm, 171, rfl⟩
abbrev main_c_28 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_29 : Ref sig .tc := ⟨.hbm, 177, rfl⟩
abbrev main_v128 : Ref sig .tc := ⟨.hbm, 178, rfl⟩
abbrev main_v129 : Ref sig .tc := ⟨.hbm, 179, rfl⟩
abbrev main_cst_30 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_c_31 : Ref sig .tc := ⟨.hbm, 184, rfl⟩
abbrev main_v133 : Ref sig .tc := ⟨.hbm, 185, rfl⟩
abbrev main_v134 : Ref sig .tc := ⟨.hbm, 186, rfl⟩
abbrev main_c_32 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_c_33 : Ref sig .tc := ⟨.hbm, 193, rfl⟩
abbrev main_v140 : Ref sig .tc := ⟨.hbm, 194, rfl⟩
abbrev main_v141 : Ref sig .tc := ⟨.hbm, 195, rfl⟩
abbrev main_c_34 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_c_35 : Ref sig .tc := ⟨.hbm, 204, rfl⟩
abbrev main_v149 : Ref sig .tc := ⟨.hbm, 205, rfl⟩
abbrev main_v150 : Ref sig .tc := ⟨.hbm, 206, rfl⟩
abbrev main_c_36 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_37 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_call2_cst : Ref sig .tc := ⟨.hbm, 227, rfl⟩
abbrev main_call2_v0 : Ref sig .tc := ⟨.hbm, 228, rfl⟩
abbrev main_v169 : Ref sig .tc := ⟨.hbm, 229, rfl⟩
abbrev main_v170 : Ref sig .tc := ⟨.hbm, 230, rfl⟩
abbrev main_cst_38 : Ref sig .tc := ⟨.hbm, 231, rfl⟩
abbrev main_v171 : Ref sig .tc := ⟨.hbm, 232, rfl⟩
abbrev main_c_39 : Ref sig .tc := ⟨.hbm, 233, rfl⟩
abbrev main_v172 : Ref sig .tc := ⟨.hbm, 234, rfl⟩
abbrev main_v173 : Ref sig .tc := ⟨.hbm, 235, rfl⟩
abbrev main_c_40 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_cst_41 : Ref sig .tc := ⟨.hbm, 241, rfl⟩
abbrev main_v178 : Ref sig .tc := ⟨.hbm, 242, rfl⟩
abbrev main_v179 : Ref sig .tc := ⟨.hbm, 243, rfl⟩
abbrev main_cst_42 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_c_43 : Ref sig .tc := ⟨.hbm, 248, rfl⟩
abbrev main_v183 : Ref sig .tc := ⟨.hbm, 249, rfl⟩
abbrev main_v184 : Ref sig .tc := ⟨.hbm, 250, rfl⟩
abbrev main_c_44 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_c_45 : Ref sig .tc := ⟨.hbm, 257, rfl⟩
abbrev main_v190 : Ref sig .tc := ⟨.hbm, 258, rfl⟩
abbrev main_v191 : Ref sig .tc := ⟨.hbm, 259, rfl⟩
abbrev main_c_46 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_c_47 : Ref sig .tc := ⟨.hbm, 268, rfl⟩
abbrev main_v199 : Ref sig .tc := ⟨.hbm, 269, rfl⟩
abbrev main_v200 : Ref sig .tc := ⟨.hbm, 270, rfl⟩
abbrev main_c_48 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_49 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_call3_cst : Ref sig .tc := ⟨.hbm, 291, rfl⟩
abbrev main_call3_v0 : Ref sig .tc := ⟨.hbm, 292, rfl⟩
abbrev main_v219 : Ref sig .tc := ⟨.hbm, 293, rfl⟩
abbrev main_cst_50 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_cst_51 : Ref sig .tc := ⟨.hbm, 298, rfl⟩
abbrev main_v223 : Ref sig .tc := ⟨.hbm, 299, rfl⟩
abbrev main_cst_52 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_cst_53 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_call4_cst : Ref sig .tc := ⟨.hbm, 317, rfl⟩
abbrev main_call4_v0 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_cst_54 : Ref sig .tc := ⟨.hbm, 326, rfl⟩
abbrev main_v246 : Ref sig .tc := ⟨.hbm, 327, rfl⟩
abbrev main_v247 : Ref sig .tc := ⟨.hbm, 328, rfl⟩
abbrev main_cst_55 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  concatenates_S1024x64_S1024x64_S1024x64_S1024x192_d1 : Shape.Concatenates [S1024x64, S1024x64, S1024x64] S1024x192 1
  bcast_S1x64_S1024x64_0_1 : S1x64.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  shapeCasts_S1024x1_S1024 : S1024x1.ShapeCasts S1024
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x192_S192x64_S1024x64_1_0_0_1_n_n_wf : DotDims.WF S1024x192 S192x64 S1024x64 [1] [0] [0] [1] [] []
  dot_S1024x64_S64x1_S1024x1_1_0_0_1_n_n_wf : DotDims.WF S1024x64 S64x1 S1024x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x192_S192x64_S1024x64_1_0_0_1_n_n : DotDims S1024x192 S192x64 S1024x64 where
  lhsContracting := [1]
  rhsContracting := [0]
  lhsNonContracting := [0]
  rhsNonContracting := [1]
  lhsBatch := []
  rhsBatch := []
  wf := dot_S1024x192_S192x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KernelRun.lean ====
/-
  The first program's run with its result named.  Every weakly fair execution of @main terminates, nothing faults, the
  fourteen argument arrays end as launched, and the result buffer ends at the contents the last boundary of the run
  holds for it: the fold of the eight stretches of host operations and the seven kernel regions from the launch memory.
-/
import proofs.«169936_j65317862637645_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the fifteen segments, the last thread state read against the final state: the result buffer at the
    last boundary's contents, each argument as launched. -/
theorem run_result : θ_run defs (onTc (τ := τ) (main (F := F))) ⟨m, fun _ => 0, ρ⟩ (fun r => ∀ c : Dev nD,
      r.2.mem ((c.tc : Thread nD τ).loc main_v104) = W15 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v104 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c)⟩)

end Cert.KernelIdeal.Gen

end
-- ==== Proof.KernelKeeps.lean ====
/-
  What each segment of the first program's run leaves untouched.  A stretch of host operations changes only the buffers
  its operations write; a kernel region changes only its output arrays.  So each argument buffer, and each intermediate
  result while a later segment still reads it, holds at every boundary what it held at the boundary before.
-/
import proofs.«169936_j65317862637645_2_alg».proof.Proof.KernelRun
import Idealize.ShloMosaic.Lib.StableHlo.Run
import Idealize.ShloMosaic.PureOps.Ideal

set_option maxRecDepth 16384
set_option maxHeartbeats 1600000

noncomputable section

namespace Cert.KernelIdeal.Gen

open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg) (c : Dev nD)

/-- A buffer no operation of a stretch writes holds after the stretch what it held before. -/
macro "host_keeps" : tactic => `(tactic| (
  refine StableHlo.after_of_forall_not_mem _ _ (List.forall_iff_forall_mem.mp ?_)
  simp only [hostOps0, hostOps1, hostOps2, hostOps3, hostOps4, hostOps5, hostOps6, hostOps7, List.flatten_cons,
    List.flatten_nil, List.append_nil, List.cons_append, List.nil_append, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- The fourteen argument buffers. -/
abbrev argRefs : List (Ref sig .tc) :=
  [main_arg0, main_arg1, main_arg2, main_arg3, main_arg4, main_arg5, main_arg6, main_arg7, main_arg8, main_arg9, main_arg10,
   main_arg11, main_arg12, main_arg13]

/-! ## What each segment leaves untouched -/

theorem keep1 : argRefs.Forall fun b => W1 m ρ c (Proc.devRef .tc b) = W0 m ρ c (Proc.devRef .tc b) := by
  simp only [argRefs, List.cons_append, List.nil_append, List.Forall]
  repeat' apply And.intro
  all_goals host_keeps

theorem at1 (b : Ref sig .tc) (hb : b ∈ argRefs) : W1 m ρ c (Proc.devRef .tc b) = m ((c : Thread nD τ).loc b) :=
  ((List.forall_iff_forall_mem.mp (keep1 m ρ c)) b hb)

theorem keep2 : (argRefs ++ [main_v1, main_v3, main_v10]).Forall fun b => W2 m ρ c (Proc.devRef .tc b) = W1 m ρ c (Proc.devRef .tc b) := by
  simp only [argRefs, List.cons_append, List.nil_append, List.Forall]
  repeat' apply And.intro
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))

theorem at2 (b : Ref sig .tc) (hb : b ∈ argRefs) : W2 m ρ c (Proc.devRef .tc b) = m ((c : Thread nD τ).loc b) :=
  ((List.forall_iff_forall_mem.mp (keep2 m ρ c)) b (List.mem_append_left _ hb)).trans (at1 m ρ c b hb)

theorem keep3 : (argRefs ++ [main_v1, main_v3, main_v10, main_v12]).Forall fun b => W3 m ρ c (Proc.devRef .tc b) = W2 m ρ c (Proc.devRef .tc b) := by
  simp only [argRefs, List.cons_append, List.nil_append, List.Forall]
  repeat' apply And.intro
  all_goals host_keeps

theorem at3 (b : Ref sig .tc) (hb : b ∈ argRefs) : W3 m ρ c (Proc.devRef .tc b) = m ((c : Thread nD τ).loc b) :=
  ((List.forall_iff_forall_mem.mp (keep3 m ρ c)) b (List.mem_append_left _ hb)).trans (at2 m ρ c b hb)

theorem keep4 : (argRefs ++ [main_v1, main_v3, main_v10]).Forall fun b => W4 m ρ c (Proc.devRef .tc b) = W3 m ρ c (Proc.devRef .tc b) := by
  simp only [argRefs, List.cons_append, List.nil_append, List.Forall]
  repeat' apply And.intro
  all_goals first
    | exact W4_of_ne m ρ c _ (by decide)
    | exact (W4_arr m ρ c 4).trans (((dat1 (V3 m ρ) c).arrAt_in 4 rfl _).trans (A_eq1 (V3 m ρ) c 4))

theorem at4 (b : Ref sig .tc) (hb : b ∈ argRefs) : W4 m ρ c (Proc.devRef .tc b) = m ((c : Thread nD τ).loc b) :=
  ((List.forall_iff_forall_mem.mp (keep4 m ρ c)) b (List.mem_append_left _ hb)).trans (at3 m ρ c b hb)

theorem keep5 : (argRefs ++ [main_v26]).Forall fun b => W5 m ρ c (Proc.devRef .tc b) = W4 m ρ c (Proc.devRef .tc b) := by
  simp only [argRefs, List.cons_append, List.nil_append, List.Forall]
  repeat' apply And.intro
  all_goals host_keeps

theorem at5 (b : Ref sig .tc) (hb : b ∈ argRefs) : W5 m ρ c (Proc.devRef .tc b) = m ((c : Thread nD τ).loc b) :=
  ((List.forall_iff_forall_mem.mp (keep5 m ρ c)) b (List.mem_append_left _ hb)).trans (at4 m ρ c b hb)

theorem keep6 : argRefs.Forall fun b => W6 m ρ c (Proc.devRef .tc b) = W5 m ρ c (Proc.devRef .tc b) := by
  simp only [argRefs, List.cons_append, List.nil_append, List.Forall]
  repeat' apply And.intro
  all_goals first
    | exact W6_of_ne m ρ c _ (by decide)

theorem at6 (b : Ref sig .tc) (hb : b ∈ argRefs) : W6 m ρ c (Proc.devRef .tc b) = m ((c : Thread nD τ).loc b) :=
  ((List.forall_iff_forall_mem.mp (keep6 m ρ c)) b hb).trans (at5 m ρ c b hb)

theorem keep7 : argRefs.Forall fun b => W7 m ρ c (Proc.devRef .tc b) = W6 m ρ c (Proc.devRef .tc b) := by
  simp only [argRefs, List.cons_append, List.nil_append, List.Forall]
  repeat' apply And.intro
  all_goals host_keeps

theorem at7 (b : Ref sig .tc) (hb : b ∈ argRefs) : W7 m ρ c (Proc.devRef .tc b) = m ((c : Thread nD τ).loc b) :=
  ((List.forall_iff_forall_mem.mp (keep7 m ρ c)) b hb).trans (at6 m ρ c b hb)

theorem keep8 : (argRefs ++ [main_v43, main_v47, main_v49, main_v51, main_v58]).Forall fun b => W8 m ρ c (Proc.devRef .tc b) = W7 m ρ c (Proc.devRef .tc b) := by
  simp only [argRefs, List.cons_append, List.nil_append, List.Forall]
  repeat' apply And.intro
  all_goals first
    | exact W8_of_ne m ρ c _ (by decide)
    | exact (W8_arr m ρ c 0).trans (((dat3 (V7 m ρ) c).arrAt_in 0 rfl _).trans (A_eq3 (V7 m ρ) c 0))
    | exact (W8_arr m ρ c 1).trans (((dat3 (V7 m ρ) c).arrAt_in 1 rfl _).trans (A_eq3 (V7 m ρ) c 1))

theorem at8 (b : Ref sig .tc) (hb : b ∈ argRefs) : W8 m ρ c (Proc.devRef .tc b) = m ((c : Thread nD τ).loc b) :=
  ((List.forall_iff_forall_mem.mp (keep8 m ρ c)) b (List.mem_append_left _ hb)).trans (at7 m ρ c b hb)

theorem keep9 : (argRefs ++ [main_v43, main_v47, main_v49, main_v51, main_v58, main_v60]).Forall fun b => W9 m ρ c (Proc.devRef .tc b) = W8 m ρ c (Proc.devRef .tc b) := by
  simp only [argRefs, List.cons_append, List.nil_append, List.Forall]
  repeat' apply And.intro
  all_goals host_keeps

theorem at9 (b : Ref sig .tc) (hb : b ∈ argRefs) : W9 m ρ c (Proc.devRef .tc b) = m ((c : Thread nD τ).loc b) :=
  ((List.forall_iff_forall_mem.mp (keep9 m ρ c)) b (List.mem_append_left _ hb)).trans (at8 m ρ c b hb)

theorem keep10 : (argRefs ++ [main_v43, main_v47, main_v49, main_v51, main_v58]).Forall fun b => W10 m ρ c (Proc.devRef .tc b) = W9 m ρ c (Proc.devRef .tc b) := by
  simp only [argRefs, List.cons_append, List.nil_append, List.Forall]
  repeat' apply And.intro
  all_goals first
    | exact W10_of_ne m ρ c _ (by decide)
    | exact (W10_arr m ρ c 4).trans (((dat4 (V9 m ρ) c).arrAt_in 4 rfl _).trans (A_eq4 (V9 m ρ) c 4))

theorem at10 (b : Ref sig .tc) (hb : b ∈ argRefs) : W10 m ρ c (Proc.devRef .tc b) = m ((c : Thread nD τ).loc b) :=
  ((List.forall_iff_forall_mem.mp (keep10 m ρ c)) b (List.mem_append_left _ hb)).trans (at9 m ρ c b hb)

theorem keep11 : (argRefs ++ [main_v43, main_v47, main_v74]).Forall fun b => W11 m ρ c (Proc.devRef .tc b) = W10 m ρ c (Proc.devRef .tc b) := by
  simp only [argRefs, List.cons_append, List.nil_append, List.Forall]
  repeat' apply And.intro
  all_goals host_keeps

theorem at11 (b : Ref sig .tc) (hb : b ∈ argRefs) : W11 m ρ c (Proc.devRef .tc b) = m ((c : Thread nD τ).loc b) :=
  ((List.forall_iff_forall_mem.mp (keep11 m ρ c)) b (List.mem_append_left _ hb)).trans (at10 m ρ c b hb)

theorem keep12 : (argRefs ++ [main_v43, main_v47]).Forall fun b => W12 m ρ c (Proc.devRef .tc b) = W11 m ρ c (Proc.devRef .tc b) := by
  simp only [argRefs, List.cons_append, List.nil_append, List.Forall]
  repeat' apply And.intro
  all_goals first
    | exact W12_of_ne m ρ c _ (by decide)

theorem at12 (b : Ref sig .tc) (hb : b ∈ argRefs) : W12 m ρ c (Proc.devRef .tc b) = m ((c : Thread nD τ).loc b) :=
  ((List.forall_iff_forall_mem.mp (keep12 m ρ c)) b (List.mem_append_left _ hb)).trans (at11 m ρ c b hb)

theorem keep13 : (argRefs ++ [main_v43]).Forall fun b => W13 m ρ c (Proc.devRef .tc b) = W12 m ρ c (Proc.devRef .tc b) := by
  simp only [argRefs, List.cons_append, List.nil_append, List.Forall]
  repeat' apply And.intro
  all_goals host_keeps

theorem at13 (b : Ref sig .tc) (hb : b ∈ argRefs) : W13 m ρ c (Proc.devRef .tc b) = m ((c : Thread nD τ).loc b) :=
  ((List.forall_iff_forall_mem.mp (keep13 m ρ c)) b (List.mem_append_left _ hb)).trans (at12 m ρ c b hb)

end Cert.KernelIdeal.Gen

end
-- ==== Proof.GcnSpec.lean ====
/-
  The mathematics of the two programs, as whole-array functions over the extended reals.

  A two-layer graph convolution with symmetric normalisation, applied to two graphs, mean-pooled per graph and fed to a
  small classifier.  With `d r = (1 + #{e | dst e = r})^(-1/2)`, one layer sends node features `a` to
  `max (Σ_{e : dst e = r} d(src e) · d r · a(src e, k) + d r · d r · a(r, k) + b k) 0`.  One side computes it exactly so;
  the other first scales the rows, `y = d ⊙ a`, sums the neighbours' rows of `y`, and multiplies the sum by `d r` once:
  `max (d r · (Σ_{e : dst e = r} y(src e, k) + y(r, k)) + b k) 0`.  The two agree because a finite nonnegative factor
  distributes over a finite sum of extended reals.
-/
import Idealize.ShloMosaic.PureOps.Ideal
import Idealize.ShloMosaic.Lib.ValueIdx

noncomputable section

namespace Cert.Gcn

open Idealize.ShloMosaic Idealize.ShloMosaic.ValueIdx

/-- An `n × c` array of extended reals. -/
abbrev Mat (n c : Nat) := (⟨2, ![n, c]⟩ : Shape).Idx → EReal

/-- The row coordinate of an index. -/
abbrev rowOf {n c : Nat} (i : (⟨2, ![n, c]⟩ : Shape).Idx) : Fin n := ⟨(i 0).val, idx2_lt0 i⟩
/-- The column coordinate of an index. -/
abbrev colOf {n c : Nat} (i : (⟨2, ![n, c]⟩ : Shape).Idx) : Fin c := ⟨(i 1).val, idx2_lt1 i⟩

/-- The product `x · W` with row `r` scaled by `d r`: entry `(r, k)` is `d r · Σ_q x(r, q) · W(q, k)`. -/
def scaleMM {n j c : Nat} (x : Mat n j) (W : Mat j c) (d : Mat n 1) : Mat n c :=
  fun i => d (ix2 (rowOf i) 0) * ∑ q : Fin j, x (ix2 (rowOf i) q) * W (ix2 q (colOf i))

theorem scaleMM_apply {n j c : Nat} (x : Mat n j) (W : Mat j c) (d : Mat n 1) (r : Fin n) (k : Fin c) :
    scaleMM x W d (ix2 r k) = d (ix2 r 0) * ∑ q : Fin j, x (ix2 r q) * W (ix2 q k) := rfl

/-- One layer's closing step on pre-scaled rows: entry `(r, k)` is `max (d r · (s(r, k) + y(r, k)) + b k) 0`, where `s`
    is the sum of the neighbours' rows of `y`. -/
def combine {n c : Nat} (s y : Mat n c) (d : Mat n 1) (b : Mat 1 c) : Mat n c :=
  fun i => max (d (ix2 (rowOf i) 0) * (s i + y i) + b (ix2 0 (colOf i))) 0

theorem combine_apply {n c : Nat} (s y : Mat n c) (d : Mat n 1) (b : Mat 1 c) (r : Fin n) (k : Fin c) :
    combine s y d b (ix2 r k) = max (d (ix2 r 0) * (s (ix2 r k) + y (ix2 r k)) + b (ix2 0 k)) 0 := rfl

/-- The float literal `1.0`, kept as its word. -/
abbrev oneLit : EReal := Ideal.ofBits .f32 0x3F800000#32

/-- A graph's mean embedding: the summed rows divided by the node count, the count raised to at least one. -/
def meanOf {g c : Nat} (s : Mat g c) (cnt : Mat g 1) : Mat g c :=
  fun i => Ideal.div (s i) (max (cnt (ix2 (rowOf i) 0)) oneLit)

theorem meanOf_apply {g c : Nat} (s : Mat g c) (cnt : Mat g 1) (r : Fin g) (k : Fin c) :
    meanOf s cnt (ix2 r k) = Ideal.div (s (ix2 r k)) (max (cnt (ix2 r 0)) oneLit) := rfl

/-- The classifier's hidden layer on two embeddings `u`, `v` and their absolute difference, the first weight matrix
    given as its three row blocks: entry `(r, k)` is
    `max (Σ_p u(r,p)·wa(p,k) + Σ_p v(r,p)·wb(p,k) + Σ_p |u(r,p) − v(r,p)|·wc(p,k) + b k) 0`. -/
def hidden {g c h : Nat} (u v : Mat g c) (wa wb wc : Mat c h) (b : Mat 1 h) : Mat g h :=
  fun i => max ((((∑ p : Fin c, u (ix2 (rowOf i) p) * wa (ix2 p (colOf i)))
      + ∑ p : Fin c, v (ix2 (rowOf i) p) * wb (ix2 p (colOf i)))
      + ∑ p : Fin c, FloatOps.absf (F := Ideal) (φ := .f32) (u (ix2 (rowOf i) p) - v (ix2 (rowOf i) p)) * wc (ix2 p (colOf i)))
      + b (ix2 0 (colOf i))) 0

theorem hidden_apply {g c h : Nat} (u v : Mat g c) (wa wb wc : Mat c h) (b : Mat 1 h) (r : Fin g) (k : Fin h) :
    hidden u v wa wb wc b (ix2 r k)
      = max ((((∑ p : Fin c, u (ix2 r p) * wa (ix2 p k)) + ∑ p : Fin c, v (ix2 r p) * wb (ix2 p k))
          + ∑ p : Fin c, FloatOps.absf (F := Ideal) (φ := .f32) (u (ix2 r p) - v (ix2 r p)) * wc (ix2 p k)) + b (ix2 0 k)) 0 := rfl

/-- The classifier's output: the logistic function of one more product and a bias. -/
def score {g h : Nat} (z : Mat g h) (w : Mat h 1) (b : Mat 1 1) : Mat g 1 :=
  fun i => Ideal.logistic ((∑ q : Fin h, z (ix2 (rowOf i) q) * w (ix2 q 0)) + b (ix2 0 0))

theorem score_apply {g h : Nat} (z : Mat g h) (w : Mat h 1) (b : Mat 1 1) (r : Fin g) :
    score z w b (ix2 r 0) = Ideal.logistic ((∑ q : Fin h, z (ix2 r q) * w (ix2 q 0)) + b (ix2 0 0)) := rfl

/-- The whole head: mean embeddings of the two graphs' pooled sums, hidden layer, output. -/
def head {g c h : Nat} (s1 : Mat g c) (n1 : Mat g 1) (s2 : Mat g c) (n2 : Mat g 1) (wa wb wc : Mat c h) (b1 : Mat 1 h)
    (w2 : Mat h 1) (b2 : Mat 1 1) : Mat g 1 :=
  score (hidden (meanOf s1 n1) (meanOf s2 n2) wa wb wc b1) w2 b2

end Cert.Gcn

end
-- ==== Proof.GraphSpec.lean ====
/-
  The two programs' results as mathematics over one graph's index data.

  A graph on `N` nodes with `E` edges is read through two maps: `dst e`, the signed destination index of edge `e` (an
  edge whose index is no node's contributes to no sum), and `src e`, the node a row lookup through the edge's source
  index lands on.  Node `r` has `deg r = #{e | dst e = r} + 1` (the self loop) and `dinv r = (deg r)^(-1/2)`.

  One convolution layer on features `a`, written as each program computes it:
    `layerR`:  `max (Σ_{e : dst e = r} (dinv (src e) · dinv r) · a(src e, k) + (dinv r · dinv r) · a(r, k) + b k) 0`
    `layerK`:  with `y = dinv ⊙ a`,  `max (dinv r · (Σ_{e : dst e = r} y(src e, k) + y(r, k)) + b k) 0`.
  They are equal because `dinv r` is a finite nonnegative real, and such a factor distributes over a finite sum of
  extended reals (`layerK_eq_layerR`, proved in a later module).

  Pooling sums the rows of each graph of the batch; the head is `Gcn.head`, which the reference computes through one
  product with the three embeddings laid side by side (`hiddenCat`).
-/
import proofs.«169936_j65317862637645_2_alg».proof.Proof.GcnSpec

noncomputable section

namespace Cert.Gcn

open Idealize.ShloMosaic Idealize.ShloMosaic.ValueIdx

/-- The plain product: entry `(r, k)` is `Σ_q x(r, q) · W(q, k)`. -/
def mm {n j c : Nat} (x : Mat n j) (W : Mat j c) : Mat n c :=
  fun i => ∑ q : Fin j, x (ix2 (rowOf i) q) * W (ix2 q (colOf i))

theorem mm_apply {n j c : Nat} (x : Mat n j) (W : Mat j c) (r : Fin n) (k : Fin c) :
    mm x W (ix2 r k) = ∑ q : Fin j, x (ix2 r q) * W (ix2 q k) := rfl

/-- Row `r` of `a` scaled by `d r`. -/
def scaleRows {n c : Nat} (d : Mat n 1) (a : Mat n c) : Mat n c := fun i => d (ix2 (rowOf i) 0) * a i

theorem scaleRows_apply {n c : Nat} (d : Mat n 1) (a : Mat n c) (r : Fin n) (k : Fin c) :
    scaleRows d a (ix2 r k) = d (ix2 r 0) * a (ix2 r k) := rfl

theorem scaleMM_eq {n j c : Nat} (x : Mat n j) (W : Mat j c) (d : Mat n 1) : scaleMM x W d = scaleRows d (mm x W) := rfl

/-- A graph's index data: the signed destination index of each edge, and the node its source lookup reads. -/
structure Graph (N E : Nat) where
  dst : Fin E → ℤ
  src : Fin E → Fin N

namespace Graph

variable {N E : Nat} (g : Graph N E)

/-- The edges into node `r`. -/
def into (r : Fin N) : Finset (Fin E) := Finset.univ.filter fun e => g.dst e = (r.val : ℤ)

/-- The degree with the self loop, as the programs sum it: one literal `1.0` per edge into `r`, plus one more. -/
def deg (r : Fin N) : EReal := (∑ _e ∈ g.into r, oneLit) + oneLit

/-- `(deg r)^(-1/2)`. -/
def dinv (r : Fin N) : EReal := Ideal.rsqrt (g.deg r)

/-- `dinv` as a column. -/
def dcol : Mat N 1 := fun i => g.dinv (rowOf i)

theorem dcol_apply (r : Fin N) : g.dcol (ix2 r 0) = g.dinv r := rfl

/-- The sum over the edges into `r` of the source node's row of `y`. -/
def nbrSum {c : Nat} (y : Mat N c) : Mat N c := fun i => ∑ e ∈ g.into (rowOf i), y (ix2 (g.src e) (colOf i))

theorem nbrSum_apply {c : Nat} (y : Mat N c) (r : Fin N) (k : Fin c) :
    g.nbrSum y (ix2 r k) = ∑ e ∈ g.into r, y (ix2 (g.src e) k) := rfl

/-- One layer, rows scaled first and the common factor applied once to the sum. -/
def layerK {c : Nat} (a : Mat N c) (b : Mat 1 c) : Mat N c :=
  combine (g.nbrSum (scaleRows g.dcol a)) (scaleRows g.dcol a) g.dcol b

/-- One layer, every edge's message weighted by `dinv (src e) · dinv r`, the self loop by `dinv r · dinv r`. -/
def layerR {c : Nat} (a : Mat N c) (b : Mat 1 c) : Mat N c :=
  fun i => max (((∑ e ∈ g.into (rowOf i), (g.dinv (g.src e) * g.dinv (rowOf i)) * a (ix2 (g.src e) (colOf i)))
      + (g.dinv (rowOf i) * g.dinv (rowOf i)) * a i) + b (ix2 0 (colOf i))) 0

theorem layerR_apply {c : Nat} (a : Mat N c) (b : Mat 1 c) (r : Fin N) (k : Fin c) :
    g.layerR a b (ix2 r k) = max (((∑ e ∈ g.into r, (g.dinv (g.src e) * g.dinv r) * a (ix2 (g.src e) k))
      + (g.dinv r * g.dinv r) * a (ix2 r k)) + b (ix2 0 k)) 0 := rfl

/-- Two layers, the first arrangement. -/
def convK {f c : Nat} (x : Mat N f) (W1 : Mat f c) (b1 : Mat 1 c) (W2 : Mat c c) (b2 : Mat 1 c) : Mat N c :=
  g.layerK (mm (g.layerK (mm x W1) b1) W2) b2

/-- Two layers, the second arrangement. -/
def convR {f c : Nat} (x : Mat N f) (W1 : Mat f c) (b1 : Mat 1 c) (W2 : Mat c c) (b2 : Mat 1 c) : Mat N c :=
  g.layerR (mm (g.layerR (mm x W1) b1) W2) b2

end Graph

/-- The rows of `h` summed per graph of the batch: row `q` is the sum of the rows `n` with `batch n = q`. -/
def pool {N G c : Nat} (batch : Fin N → ℤ) (h : Mat N c) : Mat G c :=
  fun i => ∑ n ∈ Finset.univ.filter (fun n : Fin N => batch n = ((rowOf i).val : ℤ)), h (ix2 n (colOf i))

theorem pool_apply {N G c : Nat} (batch : Fin N → ℤ) (h : Mat N c) (q : Fin G) (k : Fin c) :
    pool (G := G) batch h (ix2 q k) = ∑ n ∈ Finset.univ.filter (fun n : Fin N => batch n = (q.val : ℤ)), h (ix2 n k) := rfl

/-- The number of nodes of each graph of the batch, one literal `1.0` per node. -/
def count {N G : Nat} (batch : Fin N → ℤ) : Mat G 1 :=
  fun i => ∑ _n ∈ Finset.univ.filter (fun n : Fin N => batch n = ((rowOf i).val : ℤ)), oneLit

theorem count_apply {N G : Nat} (batch : Fin N → ℤ) (q : Fin G) :
    count (G := G) batch (ix2 q 0) = ∑ _n ∈ Finset.univ.filter (fun n : Fin N => batch n = (q.val : ℤ)), oneLit := rfl

/-- The three embeddings laid side by side: columns `[0, c)` are `u`, `[c, 2c)` are `v`, `[2c, 3c)` are `|u − v|`. -/
def cat3 {g c : Nat} (u v : Mat g c) : Mat g (c + c + c) :=
  fun i => if h : (i 1).val < c then u (ix2 (rowOf i) ⟨(i 1).val, h⟩)
    else if h2 : (i 1).val < c + c then v (ix2 (rowOf i) ⟨(i 1).val - c, by omega⟩)
    else FloatOps.absf (F := Ideal) (φ := .f32) (u (ix2 (rowOf i) ⟨(i 1).val - (c + c), by have := idx2_lt1 i; omega⟩)
      - v (ix2 (rowOf i) ⟨(i 1).val - (c + c), by have := idx2_lt1 i; omega⟩))

/-- The hidden layer through one product with the whole first weight matrix. -/
def hiddenCat {g c h : Nat} (u v : Mat g c) (w : Mat (c + c + c) h) (b : Mat 1 h) : Mat g h :=
  fun i => max ((∑ q : Fin (c + c + c), cat3 u v (ix2 (rowOf i) q) * w (ix2 q (colOf i))) + b (ix2 0 (colOf i))) 0

/-- Rows `[o, o + c)` of a matrix. -/
def rowBlock {t c h : Nat} (o : Nat) (ho : o + c ≤ t) (w : Mat t h) : Mat c h :=
  fun i => w (ix2 ⟨o + (i 0).val, by have := idx2_lt0 i; omega⟩ (colOf i))

/-- A vector as a one-row matrix. -/
def asRow {c : Nat} (b : (⟨1, ![c]⟩ : Shape).Idx → EReal) : Mat 1 c := fun i => b (ix1 (colOf i))

/-- A one-column matrix as a vector. -/
def asVec {n : Nat} (a : Mat n 1) : (⟨1, ![n]⟩ : Shape).Idx → EReal := fun i => a (ix2 ⟨(i 0).val, (i 0).isLt⟩ 0)

/-- THE FIRST PROGRAM'S RESULT: both graphs convolved in the first arrangement, pooled, and the head on row blocks. -/
def outK {N E G f c : Nat} (g1 g2 : Graph N E) (bt1 bt2 : Fin N → ℤ) (x1 x2 : Mat N f) (W1 : Mat f c) (b1 : Mat 1 c)
    (W2 : Mat c c) (b2 : Mat 1 c) (fw : Mat (c + c + c) c) (fb : Mat 1 c) (w2 : Mat c 1) (fb2 : Mat 1 1) :
    (⟨1, ![G]⟩ : Shape).Idx → EReal :=
  asVec (head (pool (G := G) bt1 (g1.convK x1 W1 b1 W2 b2)) (count bt1) (pool (G := G) bt2 (g2.convK x2 W1 b1 W2 b2)) (count bt2)
    (rowBlock 0 (by omega) fw) (rowBlock c (by omega) fw) (rowBlock (c + c) (by omega) fw) fb w2 fb2)

/-- THE SECOND PROGRAM'S RESULT: both graphs convolved in the second arrangement, pooled, and the head through one
    product. -/
def outR {N E G f c : Nat} (g1 g2 : Graph N E) (bt1 bt2 : Fin N → ℤ) (x1 x2 : Mat N f) (W1 : Mat f c) (b1 : Mat 1 c)
    (W2 : Mat c c) (b2 : Mat 1 c) (fw : Mat (c + c + c) c) (fb : Mat 1 c) (w2 : Mat c 1) (fb2 : Mat 1 1) :
    (⟨1, ![G]⟩ : Shape).Idx → EReal :=
  asVec (score (hiddenCat (meanOf (pool (G := G) bt1 (g1.convR x1 W1 b1 W2 b2)) (count bt1))
    (meanOf (pool (G := G) bt2 (g2.convR x2 W1 b1 W2 b2)) (count bt2)) fw fb) w2 fb2)

/-- A source index as a row lookup reads it: a negative index counts from the end of the `100000` nodes. -/
def normIdx (s : BitVec 32) : BitVec 32 := Scalar.select (IntOp.cmpi .slt s 0#32) (IntOp.addi s 100000#32) s

/-- The graph an edge list `[2, E]` denotes on `100000` nodes: row 1 holds the destinations, read signed; row 0 the
    sources, read as a row lookup does (counted from the end when negative, then clamped into range). -/
def graphOf {E : Nat} (ei : IVec ⟨2, ![2, E]⟩ 32) : Graph 100000 E where
  dst e := (ei (ix2 1 e)).toInt
  src e := ⟨min (normIdx (ei (ix2 0 e))).toInt.toNat (100000 - 1), by omega⟩

/-- A batch vector's entries, read signed. -/
def batchOf {N : Nat} (bt : IVec ⟨1, ![N]⟩ 32) : Fin N → ℤ := fun n => (bt (ix1 n)).toInt

end Cert.Gcn

end
-- ==== Proof.LibScatterRows.lean ====
/-
  A float scatter-add whose updates are ROWS, read at an index of the extended reals.

  The operand is an [N, C] array, the scatter indices an [E, 1] array of integers and the updates an [E, C]
  array: update row e is added, column by column, into operand row idx[e, 0].  The start index is read as a
  signed integer and is not clamped, so a row whose index lies outside [0, N) contributes nothing.  At an
  element (r, k) the result is therefore the operand's element plus the sum, over the update rows e whose index
  is r, of the update's element (e, k).
-/
import Idealize.ShloMosaic.PureOps.Ideal
import Idealize.ShloMosaic.Lib.ValueIdx

noncomputable section

namespace Idealize.ShloMosaic.ScatterRows

open Idealize.ShloMosaic Idealize.ShloMosaic.ValueIdx

/-- The dimension numbers of a row scatter: the updates' axis 1 is the window axis, the operand's axis 0 is the
    one the window does not span and the one the start index addresses, and the index vector is the scatter
    indices' axis 1 (of extent one). -/
abbrev rowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window starts at the update row's index. -/
theorem start_row (idx : IVec ⟨2, ![E, 1]⟩ w) (j : (⟨2, ![E, C]⟩ : Shape).Idx) :
    (rowsDims N C E wf).start j idx 0 = (idx (ix2 (j 0) ⟨0, Nat.one_pos⟩)).toInt := by
  unfold ScatterDims.start
  rw [dif_pos (show (0 : Fin 2) ∈ (rowsDims N C E wf).scatterDimsToOperandDims from List.mem_singleton.mpr rfl)]
  congr 2
  funext b
  refine Fin.ext ?_
  match b with
  | ⟨0, _⟩ => rfl
  | ⟨1, _⟩ => rfl

/-- On the column axis the window starts at 0: no start index addresses it. -/
theorem start_col (idx : IVec ⟨2, ![E, 1]⟩ w) (j : (⟨2, ![E, C]⟩ : Shape).Idx) :
    (rowsDims N C E wf).start j idx 1 = 0 := by
  unfold ScatterDims.start
  rw [dif_neg (show (1 : Fin 2) ∉ ([0] : List (Fin 2)) from by decide)]

/-- The window does not span the row axis. -/
theorem window_row (j : (⟨2, ![E, C]⟩ : Shape).Idx) : (rowsDims N C E wf).window j 0 = 0 := by
  have h0 : (0 : Fin 2) ∉ (rowsDims N C E wf).sKept :=
    (show (0 : Fin 2) ∉ (List.finRange 2).filter (fun a => a ∉ ([0] : List (Fin 2))) from by decide)
  unfold ScatterDims.window
  rw [dif_neg h0]

/-- Along the column axis the window coordinate is the update's column. -/
theorem window_col (j : (⟨2, ![E, C]⟩ : Shape).Idx) : (rowsDims N C E wf).window j 1 = (j 1).val := by
  have h1 : (1 : Fin 2) ∈ (rowsDims N C E wf).sKept :=
    (show (1 : Fin 2) ∈ (List.finRange 2).filter (fun a => a ∉ ([0] : List (Fin 2))) from by decide)
  unfold ScatterDims.window
  rw [dif_pos h1]
  rfl

/-- Update element j lands on operand element i exactly when its row's index, read signed, is i's row and its
    column is i's column. -/
theorem resultIdx?_eq_some_iff (idx : IVec ⟨2, ![E, 1]⟩ w) (j : (⟨2, ![E, C]⟩ : Shape).Idx)
    (i : (⟨2, ![N, C]⟩ : Shape).Idx) :
    (rowsDims N C E wf).resultIdx? j idx = some i ↔
      (idx (ix2 (j 0) ⟨0, Nat.one_pos⟩)).toInt = ((i 0).val : Int) ∧ (j 1).val = (i 1).val := by
  have hi0 : (i 0).val < N := idx2_lt0 i
  have hi1 : (i 1).val < C := idx2_lt1 i
  have hj1 : (j 1).val < C := idx2_lt1 j
  unfold ScatterDims.resultIdx?
  constructor
  · intro h
    split at h
    · rename_i hc
      have h' := Option.some.inj h
      have e0 : ((rowsDims N C E wf).start j idx 0 + ((rowsDims N C E wf).window j 0 : Int)).toNat = (i 0).val :=
        congrArg (fun f => (f 0).val) h'
      have e1 : ((rowsDims N C E wf).start j idx 1 + ((rowsDims N C E wf).window j 1 : Int)).toNat = (i 1).val :=
        congrArg (fun f => (f 1).val) h'
      have c0 := hc 0
      rw [start_row, window_row] at e0 c0
      rw [start_col, window_col] at e1
      constructor <;> omega
    · exact absurd h (by simp)
  · rintro ⟨h0, h1⟩
    have hc : ∀ a, 0 ≤ (rowsDims N C E wf).start j idx a + ((rowsDims N C E wf).window j a : Int) ∧
        (rowsDims N C E wf).start j idx a + ((rowsDims N C E wf).window j a : Int) < ((⟨2, ![N, C]⟩ : Shape).size a : Int) := by
      rw [Fin.forall_fin_two]
      constructor
      · rw [start_row, window_row, h0]
        show (0 : Int) ≤ ((i 0).val : Int) + ((0 : Nat) : Int) ∧ ((i 0).val : Int) + ((0 : Nat) : Int) < (N : Int)
        omega
      · rw [start_col, window_col]
        show (0 : Int) ≤ 0 + ((j 1).val : Int) ∧ 0 + ((j 1).val : Int) < (C : Int)
        omega
    rw [dif_pos hc]
    congr 1
    funext a
    refine Fin.ext ?_
    revert a
    rw [Fin.forall_fin_two]
    constructor
    · show ((rowsDims N C E wf).start j idx 0 + ((rowsDims N C E wf).window j 0 : Int)).toNat = (i 0).val
      rw [start_row, window_row, h0]
      omega
    · show ((rowsDims N C E wf).start j idx 1 + ((rowsDims N C E wf).window j 1 : Int)).toNat = (i 1).val
      rw [start_col, window_col]
      omega

/-- THE ROW SCATTER-ADD READ AT (r, k): the operand's element plus the sum of the updates' column k over the update
    rows whose index is r. -/
theorem hostScatterAdd_apply (x : (⟨2, ![N, C]⟩ : Shape).Idx → EReal) (idx : IVec ⟨2, ![E, 1]⟩ w)
    (upd : (⟨2, ![E, C]⟩ : Shape).Idx → EReal) (r : Fin N) (k : Fin C) :
    Ideal.hostScatterAdd (rowsDims N C E wf) x idx upd (ix2 r k)
      = x (ix2 r k) + ∑ e ∈ Finset.univ.filter (fun e : Fin E => (idx (ix2 e ⟨0, Nat.one_pos⟩)).toInt = (r.val : Int)),
          upd (ix2 e k) := by
  unfold Ideal.hostScatterAdd
  congr 1
  rw [Finset.sum_filter, sum_idx2, Finset.sum_filter]
  refine Finset.sum_congr rfl fun e _ => ?_
  simp only [resultIdx?_eq_some_iff]
  by_cases he : (idx (ix2 e ⟨0, Nat.one_pos⟩)).toInt = (r.val : Int)
  · rw [if_pos he]
    rw [Finset.sum_eq_single k]
    · rw [if_pos ⟨he, rfl⟩]
    · intro b _ hb
      rw [if_neg]
      rintro ⟨-, h⟩
      exact hb (Fin.ext h)
    · intro h; exact absurd (Finset.mem_univ k) h
  · rw [if_neg he]
    refine Finset.sum_eq_zero fun b _ => ?_
    rw [if_neg]
    rintro ⟨h, -⟩
    exact he h

end Idealize.ShloMosaic.ScatterRows

end
-- ==== Proof.LibScatterElems.lean ====
/-
  A float scatter-add of single ELEMENTS into a rank-1 array, read at an index of the extended reals.

  The operand is an [N] array, the scatter indices an [E, 1] array of integers and the updates an [E] array: update
  e is added into operand element idx[e, 0].  The index is read as a signed integer and is not clamped, so an update
  whose index lies outside [0, N) contributes nothing.  At element r the result is the operand's element plus the
  sum of the updates whose index is r.  (This is how a count of the occurrences of each value is computed: scatter
  ones into zeros.)
-/
import Idealize.ShloMosaic.PureOps.Ideal
import Idealize.ShloMosaic.Lib.ValueIdx

noncomputable section

namespace Idealize.ShloMosaic.ScatterElems

open Idealize.ShloMosaic Idealize.ShloMosaic.ValueIdx

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an element scatter: the updates have no window axis, the operand's one axis is the one
    the start index addresses, and the index vector is the scatter indices' axis 1 (of extent one). -/
abbrev elemsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window starts at the update's index. -/
theorem start_eq (idx : IVec ⟨2, ![E, 1]⟩ w) (j : (⟨1, ![E]⟩ : Shape).Idx) :
    (elemsDims N E wf).start j idx 0 = (idx (ix2 (j 0) ⟨0, Nat.one_pos⟩)).toInt := by
  unfold ScatterDims.start
  rw [dif_pos (show (0 : Fin 1) ∈ (elemsDims N E wf).scatterDimsToOperandDims from List.mem_singleton.mpr rfl)]
  congr 2
  funext b
  refine Fin.ext ?_
  match b with
  | ⟨0, _⟩ => rfl
  | ⟨1, _⟩ => rfl

/-- The window is a single element. -/
theorem window_eq (j : (⟨1, ![E]⟩ : Shape).Idx) : (elemsDims N E wf).window j 0 = 0 := by
  have h0 : (0 : Fin 1) ∉ (elemsDims N E wf).sKept :=
    (show (0 : Fin 1) ∉ (List.finRange 1).filter (fun a => a ∉ ([0] : List (Fin 1))) from by decide)
  unfold ScatterDims.window
  rw [dif_neg h0]

/-- Update j lands on operand element i exactly when its index, read signed, is i. -/
theorem resultIdx?_eq_some_iff (idx : IVec ⟨2, ![E, 1]⟩ w) (j : (⟨1, ![E]⟩ : Shape).Idx)
    (i : (⟨1, ![N]⟩ : Shape).Idx) :
    (elemsDims N E wf).resultIdx? j idx = some i ↔ (idx (ix2 (j 0) ⟨0, Nat.one_pos⟩)).toInt = ((i 0).val : Int) := by
  have hi0 : (i 0).val < N := (i 0).isLt
  unfold ScatterDims.resultIdx?
  constructor
  · intro h
    split at h
    · rename_i hc
      have h' := Option.some.inj h
      have e0 : ((elemsDims N E wf).start j idx 0 + ((elemsDims N E wf).window j 0 : Int)).toNat = (i 0).val :=
        congrArg (fun f => (f 0).val) h'
      have c0 := hc 0
      rw [start_eq, window_eq] at e0 c0
      omega
    · exact absurd h (by simp)
  · intro h0
    have hc : ∀ a, 0 ≤ (elemsDims N E wf).start j idx a + ((elemsDims N E wf).window j a : Int) ∧
        (elemsDims N E wf).start j idx a + ((elemsDims N E wf).window j a : Int) < ((⟨1, ![N]⟩ : Shape).size a : Int) := by
      intro a
      obtain rfl : a = 0 := Subsingleton.elim _ _
      rw [start_eq, window_eq, h0]
      show (0 : Int) ≤ ((i 0).val : Int) + ((0 : Nat) : Int) ∧ ((i 0).val : Int) + ((0 : Nat) : Int) < (N : Int)
      omega
    rw [dif_pos hc]
    congr 1
    funext a
    refine Fin.ext ?_
    obtain rfl : a = 0 := Subsingleton.elim _ _
    show ((elemsDims N E wf).start j idx 0 + ((elemsDims N E wf).window j 0 : Int)).toNat = (i 0).val
    rw [start_eq, window_eq, h0]
    omega

/-- THE ELEMENT SCATTER-ADD READ AT r: the operand's element plus the sum of the updates whose index is r. -/
theorem hostScatterAdd_apply (x : (⟨1, ![N]⟩ : Shape).Idx → EReal) (idx : IVec ⟨2, ![E, 1]⟩ w)
    (upd : (⟨1, ![E]⟩ : Shape).Idx → EReal) (r : Fin N) :
    Ideal.hostScatterAdd (elemsDims N E wf) x idx upd (ix1 r)
      = x (ix1 r) + ∑ e ∈ Finset.univ.filter (fun e : Fin E => (idx (ix2 e ⟨0, Nat.one_pos⟩)).toInt = (r.val : Int)),
          upd (ix1 e) := by
  unfold Ideal.hostScatterAdd
  congr 1
  rw [Finset.sum_filter, sum_idx1, Finset.sum_filter]
  refine Finset.sum_congr rfl fun e _ => ?_
  simp only [resultIdx?_eq_some_iff]
  rfl

end Idealize.ShloMosaic.ScatterElems

end
-- ==== Proof.LibGatherRows.lean ====
/-
  A gather of whole ROWS, read at an index.

  The operand is an [N, C] array and the start indices an [E, 1] array of integers; the result is the [E, C] array
  whose row e is the operand's row idx[e, 0].  The start index is read as a signed integer and clamped into
  [0, N - 1] (a negative index reads row 0, one past the end reads the last row), and the column is the result's
  own column.
-/
import Idealize.ShloMosaic.PureOps.ShapeOps
import Idealize.ShloMosaic.Lib.ValueIdx

noncomputable section

namespace Idealize.ShloMosaic.GatherRows

open Idealize.ShloMosaic Idealize.ShloMosaic.ValueIdx

/-- The dimension numbers of a row gather: the result's axis 1 is the offset axis, the operand's axis 0 is collapsed
    and is the one the start index addresses, the index vector is the start indices' axis 1 (of extent one), and a
    slice is one whole row. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable {α : Type} {N C E w : Nat}
  (wf : GatherDims.WF ⟨2, ![N, C]⟩ ⟨2, ![E, 1]⟩ ⟨2, ![E, C]⟩ [1] [0] [] [0] [] 1 ![1, C])

/-- THE ROW GATHER READ AT (e, k): the operand at row idx[e, 0], read signed and clamped into [0, N - 1], column k. -/
theorem gather_apply (hN : 0 < N) (x : (⟨2, ![N, C]⟩ : Shape).Idx → α) (idx : IVec ⟨2, ![E, 1]⟩ w)
    (e : Fin E) (k : Fin C) :
    Host.gather (rowsDims N C E wf) x idx (ix2 e k)
      = x (ix2 ⟨min (idx (ix2 e ⟨0, Nat.one_pos⟩)).toInt.toNat (N - 1), by omega⟩ k) := by
  have hk0 : (0 : Fin 2) ∉ (rowsDims N C E wf).sKept :=
    fun h => ((GatherDims.mem_sKept _ _).mp h).1 (List.mem_singleton.mpr rfl)
  have hk1 : (1 : Fin 2) ∈ (rowsDims N C E wf).sKept :=
    (GatherDims.mem_sKept _ _).mpr ⟨(show (1 : Fin 2) ∉ ([0] : List (Fin 2)) from by decide), List.not_mem_nil⟩
  unfold Host.gather
  congr 1
  funext a
  refine Fin.ext ?_
  revert a
  rw [Fin.forall_fin_two]
  constructor
  · show (rowsDims N C E wf).start (ix2 e k) idx 0 + (rowsDims N C E wf).batchCoord (ix2 e k) 0
        + (rowsDims N C E wf).offCoord (ix2 e k) 0 = _
    rw [GatherDims.batchCoord_eq_zero _ _ _ List.not_mem_nil, GatherDims.offCoord_eq_zero _ _ _ hk0]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  · show (rowsDims N C E wf).start (ix2 e k) idx 1 + (rowsDims N C E wf).batchCoord (ix2 e k) 1
        + (rowsDims N C E wf).offCoord (ix2 e k) 1 = _
    rw [GatherDims.batchCoord_eq_zero _ _ _ List.not_mem_nil]
    unfold GatherDims.start
    rw [dif_neg (show (1 : Fin 2) ∉ ([0] : List (Fin 2)) from by decide)]
    unfold GatherDims.offCoord
    rw [dif_pos hk1]
    simp only [Nat.add_zero, Nat.zero_add]
    rfl

end Idealize.ShloMosaic.GatherRows

end
-- ==== Proof.KernelReads.lean ====
/-
  The first program's host operations read at an index, against the graph data of GraphSpec.

  Row 1 of an edge list is the destinations, row 0 the sources.  The degree scatter adds one literal `1.0` at `dst e` for
  every edge `e`, so entry `r` of its result is `0 + Σ_{e : dst e = r} 1.0`; one more `1.0` and the reciprocal square root
  give `dinv r`.  A row lookup through the source index reads row `src e`; the scatter of the looked-up rows through the
  destination index sums, at node `r`, the rows `src e` over the edges into `r`.
-/
import proofs.«169936_j65317862637645_2_alg».proof.Proof.Gen.KernelIdeal
import proofs.«169936_j65317862637645_2_alg».proof.Proof.GraphSpec
import proofs.«169936_j65317862637645_2_alg».proof.Proof.LibScatterRows
import proofs.«169936_j65317862637645_2_alg».proof.Proof.LibScatterElems
import proofs.«169936_j65317862637645_2_alg».proof.Proof.LibGatherRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reads

open Cert.KernelIdeal Cert.KernelIdeal.Facts₀ Cert.KernelIdeal.Facts
open Idealize.ShloMosaic Idealize.ShloMosaic.ValueIdx Cert.Gcn

/-! ## Layout -/

/-- A vector of `3200000` entries as a one-column matrix: entry `(e, 0)` is entry `e`. -/
theorem col_apply {α : Type} (v : S3200000.Idx → α) (e : Fin 3200000) :
    broadcastInDim S3200000x1 ![0] bcast_S3200000_S3200000x1_0 v (ix2 e ⟨0, Nat.one_pos⟩) = v (ix1 e) :=
  broadcastInDim_apply ![0] bcast_S3200000_S3200000x1_0 v (ix2 e ⟨0, Nat.one_pos⟩) (ix1 e) (fun a => match a with
    | ⟨0, _⟩ => by rw [if_neg (by show ¬ (3200000 : Nat) = 1; omega)]; rfl)

/-- A scalar constant broadcast to any shape holds the constant everywhere. -/
theorem splat_apply {t : Shape} (h : S_.BroadcastsInDim t ![]) (w : BitVec FTy.f32.bits) (i : t.Idx) :
    broadcastInDim t ![] h (constant (F := Ideal) S_ .f32 w) i = Ideal.ofBits .f32 w := rfl

/-- Row 1 of an edge list, as a vector. -/
def dstT (ei : IVec S2x3200000 32) : IVec S3200000 32 :=
  shapeCast _ (extractStridedSlice S1x3200000 ![1, 0] ei slices_S2x3200000_S1x3200000_1_0) shapeCasts_S1x3200000_S3200000

/-- Row 0 of an edge list, as a vector. -/
def srcT (ei : IVec S2x3200000 32) : IVec S3200000 32 :=
  shapeCast _ (extractStridedSlice S1x3200000 ![0, 0] ei slices_S2x3200000_S1x3200000_0_0) shapeCasts_S1x3200000_S3200000

theorem dstT_apply (ei : IVec S2x3200000 32) (e : Fin 3200000) : dstT ei (ix1 e) = ei (ix2 1 e) := by
  unfold dstT
  rw [shapeCast_apply _ shapeCasts_S1x3200000_S3200000 (ix1 e) (ix2 0 e) (by
    rw [Shape.rowMajor_val_two, Shape.rowMajor_val_one]; show 0 * 3200000 + e.val = e.val; omega)]
  exact extractStridedSlice_apply ![1, 0] ei slices_S2x3200000_S1x3200000_1_0 (ix2 0 e) (ix2 1 e) (fun a => match a with
    | ⟨0, _⟩ => by show (1 : Nat) = 1 + 0; rfl
    | ⟨1, _⟩ => by show e.val = 0 + e.val; omega)

theorem srcT_apply (ei : IVec S2x3200000 32) (e : Fin 3200000) : srcT ei (ix1 e) = ei (ix2 0 e) := by
  unfold srcT
  rw [shapeCast_apply _ shapeCasts_S1x3200000_S3200000 (ix1 e) (ix2 0 e) (by
    rw [Shape.rowMajor_val_two, Shape.rowMajor_val_one]; show 0 * 3200000 + e.val = e.val; omega)]
  exact extractStridedSlice_apply ![0, 0] ei slices_S2x3200000_S1x3200000_0_0 (ix2 0 e) (ix2 0 e) (fun a => match a with
    | ⟨0, _⟩ => by show (0 : Nat) = 0 + 0; rfl
    | ⟨1, _⟩ => by show e.val = 0 + e.val; omega)

/-! ## The scatters and the row lookup over any operands -/

theorem hostRsqrt_apply {s : Shape} (x : FVec Ideal s .f32) (i : s.Idx) : Host.rsqrt x i = Ideal.rsqrt (x i) := rfl

/-- An update vector of `3200000` entries scattered into `100000`: entry `r` gains the updates whose index is `r`. -/
theorem degScatter_apply (x : FVec Ideal S100000 .f32) (idx : IVec S3200000x1 32) (upd : FVec Ideal S3200000 .f32) (r : Fin 100000) :
    Host.scatterAdd scatter_S100000_S3200000x1_S3200000_n_0_0_1 x idx upd (ix1 r)
      = x (ix1 r) + ∑ e ∈ Finset.univ.filter (fun e : Fin 3200000 => (idx (ix2 e ⟨0, Nat.one_pos⟩)).toInt = (r.val : Int)), upd (ix1 e) :=
  ScatterElems.hostScatterAdd_apply scatter_S100000_S3200000x1_S3200000_n_0_0_1_wf x idx upd r

/-- Update rows scattered into the `100000` nodes: entry `(r, k)` gains column `k` of the update rows whose index is `r`. -/
theorem rowScatter_apply (x : FVec Ideal S100000x64 .f32) (idx : IVec S3200000x1 32) (upd : FVec Ideal S3200000x64 .f32)
    (r : Fin 100000) (k : Fin 64) :
    Host.scatterAdd scatter_S100000x64_S3200000x1_S3200000x64_1_0_0_1 x idx upd (ix2 r k)
      = x (ix2 r k) + ∑ e ∈ Finset.univ.filter (fun e : Fin 3200000 => (idx (ix2 e ⟨0, Nat.one_pos⟩)).toInt = (r.val : Int)), upd (ix2 e k) :=
  ScatterRows.hostScatterAdd_apply scatter_S100000x64_S3200000x1_S3200000x64_1_0_0_1_wf x idx upd r k

/-- A row lookup: entry `(e, k)` is column `k` of the row the index, read signed and clamped into range, names. -/
theorem rowGather_apply (y : FVec Ideal S100000x64 .bf16) (idx : IVec S3200000x1 32) (e : Fin 3200000) (k : Fin 64) :
    Host.gather gather_S100000x64_S3200000x1_S3200000x64_1_0_n_n_0_1_164 y idx (ix2 e k)
      = y (ix2 ⟨min (idx (ix2 e ⟨0, Nat.one_pos⟩)).toInt.toNat (100000 - 1), by omega⟩ k) :=
  GatherRows.gather_apply gather_S100000x64_S3200000x1_S3200000x64_1_0_n_n_0_1_164_wf (by norm_num) y idx e k

/-- Node rows scattered into the `1024` graphs of a batch. -/
theorem poolScatter_apply (x : FVec Ideal S1024x64 .f32) (idx : IVec S100000x1 32) (upd : FVec Ideal S100000x64 .f32)
    (q : Fin 1024) (k : Fin 64) :
    Host.scatterAdd scatter_S1024x64_S100000x1_S100000x64_1_0_0_1 x idx upd (ix2 q k)
      = x (ix2 q k) + ∑ n ∈ Finset.univ.filter (fun n : Fin 100000 => (idx (ix2 n ⟨0, Nat.one_pos⟩)).toInt = (q.val : Int)), upd (ix2 n k) :=
  ScatterRows.hostScatterAdd_apply scatter_S1024x64_S100000x1_S100000x64_1_0_0_1_wf x idx upd q k

/-- A node vector scattered into the `1024` graphs of a batch. -/
theorem countScatter_apply (x : FVec Ideal S1024 .f32) (idx : IVec S100000x1 32) (upd : FVec Ideal S100000 .f32) (q : Fin 1024) :
    Host.scatterAdd scatter_S1024_S100000x1_S100000_n_0_0_1 x idx upd (ix1 q)
      = x (ix1 q) + ∑ n ∈ Finset.univ.filter (fun n : Fin 100000 => (idx (ix2 n ⟨0, Nat.one_pos⟩)).toInt = (q.val : Int)), upd (ix1 n) :=
  ScatterElems.hostScatterAdd_apply scatter_S1024_S100000x1_S100000_n_0_0_1_wf x idx upd q

/-! ## The degree and its reciprocal square root -/

/-- `(deg)^(-1/2)` as the program computes it from an edge list. -/
def dinvT (ei : IVec S2x3200000 32) : FVec Ideal S100000 .f32 :=
  Host.rsqrt (addf (Host.scatterAdd scatter_S100000_S3200000x1_S3200000_n_0_0_1
      (broadcastInDim S100000 ![] bcast_S_S100000 (constant S_ .f32 0x00000000#32))
      (broadcastInDim S3200000x1 ![0] bcast_S3200000_S3200000x1_0 (dstT ei))
      (broadcastInDim S3200000 ![] bcast_S_S3200000 (constant S_ .f32 0x3F800000#32)))
    (broadcastInDim S100000 ![] bcast_S_S100000 (constant S_ .f32 0x3F800000#32)))

theorem dinvT_apply (ei : IVec S2x3200000 32) (r : Fin 100000) : dinvT ei (ix1 r) = (graphOf ei).dinv r := by
  unfold dinvT
  rw [hostRsqrt_apply, addf_apply, degScatter_apply, splat_apply, splat_apply, Ideal.ofBits_zero_f32, zero_add]
  show _ = Ideal.rsqrt ((∑ _e ∈ (graphOf ei).into r, oneLit) + oneLit)
  refine congrArg (fun s => Ideal.rsqrt (s + oneLit)) (Finset.sum_congr (Finset.filter_congr fun e _ => ?_) fun e _ => rfl)
  rw [col_apply, dstT_apply]
  rfl

/-- `dinv` as a column. -/
theorem dcolT_eq (ei : IVec S2x3200000 32) :
    (shapeCast S100000x1 (dinvT ei) shapeCasts_S100000_S100000x1 : S100000x1.Idx → EReal) = (graphOf ei).dcol := by
  funext i
  obtain ⟨r, z, rfl⟩ : ∃ (r : Fin 100000) (z : Fin 1), i = ix2 r z := ⟨i 0, i 1, eq_ix2 i⟩
  rw [shapeCast_apply _ shapeCasts_S100000_S100000x1 (ix2 r z) (ix1 r) (by
    rw [Shape.rowMajor_val_two, Shape.rowMajor_val_one]; have := z.isLt; show r.val = r.val * 1 + z.val; omega)]
  rw [dinvT_apply]
  rfl

/-! ## The neighbours' rows summed -/

/-- The source indices as a row lookup uses them (a negative one counted from the end), as a column. -/
def nsrcT (ei : IVec S2x3200000 32) : IVec S3200000x1 32 :=
  broadcastInDim S3200000x1 ![0] bcast_S3200000_S3200000x1_0
    (select (cmpi .slt (srcT ei) (broadcastInDim S3200000 ![] bcast_S_S3200000 (constantI S_ 32 0#32)))
      (addi (srcT ei) (broadcastInDim S3200000 ![] bcast_S_S3200000 (constantI S_ 32 100000#32))) (srcT ei))

theorem nsrcT_apply (ei : IVec S2x3200000 32) (e : Fin 3200000) : nsrcT ei (ix2 e ⟨0, Nat.one_pos⟩) = normIdx (ei (ix2 0 e)) := by
  unfold nsrcT
  rw [col_apply]
  show Scalar.select (IntOp.cmpi .slt (srcT ei (ix1 e)) 0#32) (IntOp.addi (srcT ei (ix1 e)) 100000#32) (srcT ei (ix1 e)) = _
  rw [srcT_apply]
  rfl

/-- The rows of `y` looked up through the source indices and summed into the destination nodes. -/
def nbrT (ei : IVec S2x3200000 32) (y : FVec Ideal S100000x64 .bf16) : FVec Ideal S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 (dstT ei))
    (extf .f32 (Host.gather gather_S100000x64_S3200000x1_S3200000x64_1_0_n_n_0_1_164 y (nsrcT ei)) bitsLt_bf16_f32)

theorem nbrT_eq (ei : IVec S2x3200000 32) (y : S100000x64.Idx → EReal) :
    (nbrT ei y : S100000x64.Idx → EReal) = (graphOf ei).nbrSum y := by
  funext i
  obtain ⟨r, k, rfl⟩ : ∃ (r : Fin 100000) (k : Fin 64), i = ix2 r k := ⟨i 0, i 1, eq_ix2 i⟩
  unfold nbrT
  rw [rowScatter_apply, splat_apply, Ideal.ofBits_zero_f32, zero_add, Graph.nbrSum_apply]
  refine Finset.sum_congr (Finset.filter_congr fun e _ => ?_) fun e _ => ?_
  · rw [col_apply, dstT_apply]
    rfl
  · rw [extf_apply, rowGather_apply]
    refine congrArg (fun a => y (ix2 a k)) (Fin.ext ?_)
    show min (nsrcT ei (ix2 e ⟨0, Nat.one_pos⟩)).toInt.toNat (100000 - 1) = min (normIdx (ei (ix2 0 e))).toInt.toNat (100000 - 1)
    rw [nsrcT_apply]

/-! ## Pooling -/

/-- A vector of `100000` entries as a one-column matrix. -/
theorem colN_apply {α : Type} (v : S100000.Idx → α) (n : Fin 100000) :
    broadcastInDim S100000x1 ![0] bcast_S100000_S100000x1_0 v (ix2 n ⟨0, Nat.one_pos⟩) = v (ix1 n) :=
  broadcastInDim_apply ![0] bcast_S100000_S100000x1_0 v (ix2 n ⟨0, Nat.one_pos⟩) (ix1 n) (fun a => match a with
    | ⟨0, _⟩ => by rw [if_neg (by show ¬ (100000 : Nat) = 1; omega)]; rfl)

theorem poolT_eq (bt : IVec S100000 32) (h : S100000x64.Idx → EReal) :
    (Host.scatterAdd scatter_S1024x64_S100000x1_S100000x64_1_0_0_1
      (broadcastInDim S1024x64 ![] bcast_S_S1024x64 (constant (F := Ideal) S_ .f32 0x00000000#32))
      (broadcastInDim S100000x1 ![0] bcast_S100000_S100000x1_0 bt) (h : FVec Ideal S100000x64 .f32) : S1024x64.Idx → EReal)
      = pool (G := 1024) (batchOf bt) h := by
  funext i
  obtain ⟨q, k, rfl⟩ : ∃ (q : Fin 1024) (k : Fin 64), i = ix2 q k := ⟨i 0, i 1, eq_ix2 i⟩
  rw [poolScatter_apply, pool_apply, splat_apply, Ideal.ofBits_zero_f32, zero_add]
  refine Finset.sum_congr (Finset.filter_congr fun n _ => ?_) fun n _ => rfl
  rw [colN_apply]
  rfl

theorem countT_eq (bt : IVec S100000 32) :
    (shapeCast S1024x1 (Host.scatterAdd scatter_S1024_S100000x1_S100000_n_0_0_1
      (broadcastInDim S1024 ![] bcast_S_S1024 (constant (F := Ideal) S_ .f32 0x00000000#32))
      (broadcastInDim S100000x1 ![0] bcast_S100000_S100000x1_0 bt)
      (broadcastInDim S100000 ![] bcast_S_S100000 (constant (F := Ideal) S_ .f32 0x3F800000#32))) shapeCasts_S1024_S1024x1 : S1024x1.Idx → EReal)
      = count (G := 1024) (batchOf bt) := by
  funext i
  obtain ⟨q, z, rfl⟩ : ∃ (q : Fin 1024) (z : Fin 1), i = ix2 q z := ⟨i 0, i 1, eq_ix2 i⟩
  rw [shapeCast_apply _ shapeCasts_S1024_S1024x1 (ix2 q z) (ix1 q) (by
    rw [Shape.rowMajor_val_two, Shape.rowMajor_val_one]; have := z.isLt; show q.val = q.val * 1 + z.val; omega)]
  rw [countScatter_apply, splat_apply, Ideal.ofBits_zero_f32, zero_add]
  obtain rfl : z = 0 := Subsingleton.elim _ _
  rw [count_apply]
  refine Finset.sum_congr (Finset.filter_congr fun n _ => ?_) fun n _ => rfl
  rw [colN_apply]
  rfl

/-! ## Row blocks and reshapes of the small arguments -/

theorem rowBlock0_eq (fw : S192x64.Idx → EReal) :
    (extractStridedSlice S64x64 ![0, 0] fw slices_S192x64_S64x64_0_0 : S64x64.Idx → EReal) = rowBlock (c := 64) 0 (by omega) fw := by
  funext i
  exact extractStridedSlice_apply ![0, 0] fw slices_S192x64_S64x64_0_0 i _ (fun a => match a with
    | ⟨0, _⟩ => rfl
    | ⟨1, _⟩ => by show (i 1).val = 0 + (i 1).val; omega)

theorem rowBlock1_eq (fw : S192x64.Idx → EReal) :
    (extractStridedSlice S64x64 ![64, 0] fw slices_S192x64_S64x64_64_0 : S64x64.Idx → EReal) = rowBlock (c := 64) 64 (by omega) fw := by
  funext i
  exact extractStridedSlice_apply ![64, 0] fw slices_S192x64_S64x64_64_0 i _ (fun a => match a with
    | ⟨0, _⟩ => rfl
    | ⟨1, _⟩ => by show (i 1).val = 0 + (i 1).val; omega)

theorem rowBlock2_eq (fw : S192x64.Idx → EReal) :
    (extractStridedSlice S64x64 ![128, 0] fw slices_S192x64_S64x64_128_0 : S64x64.Idx → EReal) = rowBlock (c := 64) (64 + 64) (by omega) fw := by
  funext i
  exact extractStridedSlice_apply ![128, 0] fw slices_S192x64_S64x64_128_0 i _ (fun a => match a with
    | ⟨0, _⟩ => rfl
    | ⟨1, _⟩ => by show (i 1).val = 0 + (i 1).val; omega)

theorem asRow64_eq (b : S64.Idx → EReal) : (shapeCast S1x64 b shapeCasts_S64_S1x64 : S1x64.Idx → EReal) = asRow b := by
  funext i
  exact shapeCast_apply b shapeCasts_S64_S1x64 i (ix1 (colOf i)) (by
    rw [Shape.rowMajor_val_two, Shape.rowMajor_val_one]; have h0 : (i 0).val < 1 := (i 0).isLt; show (i 1).val = (i 0).val * 64 + (i 1).val; omega)

theorem asRow1_eq (b : S1.Idx → EReal) : (shapeCast S1x1 b shapeCasts_S1_S1x1 : S1x1.Idx → EReal) = asRow b := by
  funext i
  exact shapeCast_apply b shapeCasts_S1_S1x1 i (ix1 (colOf i)) (by
    rw [Shape.rowMajor_val_two, Shape.rowMajor_val_one]; have h0 : (i 0).val < 1 := (i 0).isLt; show (i 1).val = (i 0).val * 1 + (i 1).val; omega)

theorem asVec_eq (a : S1024x1.Idx → EReal) : (shapeCast S1024 a shapeCasts_S1024x1_S1024 : S1024.Idx → EReal) = asVec a := by
  funext i
  exact shapeCast_apply a shapeCasts_S1024x1_S1024 i (ix2 ⟨(i 0).val, (i 0).isLt⟩ 0) (by
    rw [Shape.rowMajor_val_two, Shape.rowMajor_val_one]; show (i 0).val * 1 + 0 = (i 0).val; omega)

end Cert.KernelIdeal.Reads

end
-- ==== Proof.Region0.lean ====
import proofs.«169936_j65317862637645_2_alg».proof.Proof.Gen.KernelIdeal.Frame
import proofs.«169936_j65317862637645_2_alg».proof.Proof.GcnSpec
import Idealize.ShloMosaic.Lib.ValueIdx
import Idealize.ShloMosaic.Lib.Pipeline.Value
import Idealize.ShloMosaic.PureOps.Ideal.Laws

/-!
A row-scaled product, `y = d ⊙ (x · w)`: `x` is `100000 × 128`, `w` is `128 × 64`, `d` is one scale per row.
The rows are processed in ten blocks of `10000`; block `t` of the result depends only on block `t` of `x` and of `d`
and on all of `w`, so the ten blocks written back assemble to the whole-array function `Cert.Gcn.scaleMM x w d`.
Over the extended reals the narrowing casts are the identity and the product into a zero accumulator is the plain sum
`Σ_k x(p, k) · w(k, q)`.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic, entry by entry -/

/-- The left operand's index of the product at output entry `i` and contraction index `k`: row of `i`. -/
theorem lhs_row (i : S10000x64.Idx) (k : dot_S10000x128_S128x64_S10000x64_1_0_0_1_n_n.contr.Idx) :
    (dot_S10000x128_S128x64_S10000x64_1_0_0_1_n_n.lhsIdx i k 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl

/-- … and the contracted coordinate in its column. -/
theorem lhs_col (i : S10000x64.Idx) (k : dot_S10000x128_S128x64_S10000x64_1_0_0_1_n_n.contr.Idx) :
    (dot_S10000x128_S128x64_S10000x64_1_0_0_1_n_n.lhsIdx i k 1).val = (k ⟨0, by decide⟩).val :=
  dot_S10000x128_S128x64_S10000x64_1_0_0_1_n_n.lhsIdx_val_of_single rfl i k

/-- The right operand's index: the contracted coordinate in its row … -/
theorem rhs_row (i : S10000x64.Idx) (k : dot_S10000x128_S128x64_S10000x64_1_0_0_1_n_n.contr.Idx) :
    (dot_S10000x128_S128x64_S10000x64_1_0_0_1_n_n.rhsIdx i k 0).val = (k ⟨0, by decide⟩).val :=
  dot_S10000x128_S128x64_S10000x64_1_0_0_1_n_n.rhsIdx_val_of_single rfl i k

/-- … and column of `i`. -/
theorem rhs_col (i : S10000x64.Idx) (k : dot_S10000x128_S128x64_S10000x64_1_0_0_1_n_n.contr.Idx) :
    (dot_S10000x128_S128x64_S10000x64_1_0_0_1_n_n.rhsIdx i k 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry `(p, q)` of the body's result `d ⊙ (x · w)`: the scale of row `p` times `Σ_k x(p, k) · w(k, q)`.
    Every float is an extended real here, so the narrowing casts are the identity and the product into the zero
    accumulator is the plain sum. -/
theorem scaled_product_entry (x : Vec Ideal S10000x128 .f32) (w : Vec Ideal S128x64 .f32) (d : Vec Ideal S10000x1 .f32)
    (p : Fin 10000) (q : Fin 64) :
    k0_pay1 x w d (ix2 p q) = d (ix2 p 0) * ∑ k : Fin 128, x (ix2 p k) * w (ix2 k q) := by
  unfold k0_pay1
  rw [truncf_apply, mulf_apply, shapeCast_self,
    broadcastTo_apply d broadcasts_S10000x1_S10000x64 (ix2 p q) (ix2 p 0)
      (fun a => by match a with | ⟨0, _⟩ => rfl | ⟨1, _⟩ => rfl)]
  refine congrArg (d (ix2 p 0) * ·) ?_
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k :=
    funext fun a => Fin.ext (by
      match a with
      | ⟨0, _⟩ => exact lhs_row _ _
      | ⟨1, _⟩ => exact (lhs_col _ _).trans hk)
  have er : dot_S10000x128_S128x64_S10000x64_1_0_0_1_n_n.rhsIdx (ix2 p q) ((contrEquiv1 dot_S10000x128_S128x64_S10000x64_1_0_0_1_n_n 128 rfl rfl).symm k) = ix2 k q :=
    funext fun a => Fin.ext (by
      match a with
      | ⟨0, _⟩ => exact (rhs_row _ _).trans hk
      | ⟨1, _⟩ => exact rhs_col _ _)
  rw [truncf_apply, truncf_apply, el, er]

/-! ## Where each block sits in its array -/

theorem zero_offsets : (![0, 0] : Fin 2 → Nat) = fun _ => 0 := funext fun a => by fin_cases a <;> rfl

/-- The block index maps over the `10` grid points: the row-blocked arrays (`x`, `d`, the result) are at block `t`
    of their rows at point `t`, the weights are whole at every point, and nothing is blocked along the columns. -/
theorem block_index_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the block at point `t` is row `t · 10000 + p` of the array, inside its `100000` rows. -/
theorem block_row_lt (t : Fin cfg0.N) (p : Fin 10000) : t.val * 10000 + p.val < 100000 := by
  have hN : cfg0.N = 10 := N_0
  have ht := t.isLt
  have hp := p.isLt
  omega

/-- An entry of the result's block at point `t` sits in the array at row `t · 10000 + p`, same column. -/
theorem result_block_entry (t : Fin cfg0.N) (p : Fin 10000) (q : Fin 64) :
    ((cfg0.win 3).blk t).view.emb (ix2 p q)
      = (ix2 (⟨t.val * 10000 + p.val, block_row_lt t p⟩ : Fin 100000) q : S100000x64.Idx) := by
  obtain ⟨-, -, -, -, -, -, e30, e31⟩ := block_index_facts t
  funext a; apply Fin.ext
  match a with
  | ⟨0, _⟩ => show win0_3.index t (0 : Fin 2) * 10000 + 1 * p.val = t.val * 10000 + p.val; omega
  | ⟨1, _⟩ => show win0_3.index t (1 : Fin 2) * 64 + 1 * q.val = q.val; omega

/-- The block of `x` at point `t` holds rows `t · 10000 …` of `x`. -/
theorem x_block_entry (c : Dev nD) (t : Fin cfg0.N) (p : Fin 10000) (k : Fin 128) :
    iblk0 V c 0 t (ix2 p k)
      = (V c (Pipeline.arrRef spec0 0) : S100000x128.Idx → EReal) (ix2 (⟨t.val * 10000 + p.val, block_row_lt t p⟩ : Fin 100000) k) := by
  obtain ⟨e00, e01, -, -, -, -, -, -⟩ := block_index_facts t
  show V c (Pipeline.arrRef spec0 0) (((cfg0.win 0).blk t).view.emb (ix2 p k)) = _
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The block of the weights is the whole of them at every point. -/
theorem w_block_entry (c : Dev nD) (t : Fin cfg0.N) (k : Fin 128) (q : Fin 64) :
    iblk0 V c 1 t (ix2 k q) = (V c (Pipeline.arrRef spec0 1) : S128x64.Idx → EReal) (ix2 k q) := by
  obtain ⟨-, -, e10, e11, -, -, -, -⟩ := block_index_facts t
  show V c (Pipeline.arrRef spec0 1) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- The block of the row scales at point `t` holds rows `t · 10000 …` of them. -/
theorem d_block_entry (c : Dev nD) (t : Fin cfg0.N) (p : Fin 10000) :
    iblk0 V c 2 t (ix2 p 0)
      = (V c (Pipeline.arrRef spec0 2) : S100000x1.Idx → EReal) (ix2 (⟨t.val * 10000 + p.val, block_row_lt t p⟩ : Fin 100000) 0) := by
  obtain ⟨-, -, -, -, e20, e21, -, -⟩ := block_index_facts t
  show V c (Pipeline.arrRef spec0 2) (((cfg0.win 2).blk t).view.emb (ix2 p 0)) = _
  refine congrArg _ (funext fun a => Fin.ext ?_)
  match a with
  | ⟨0, _⟩ => show win0_2.index t (0 : Fin 2) * 10000 + 1 * p.val = t.val * 10000 + p.val; omega
  | ⟨1, _⟩ => show win0_2.index t (1 : Fin 2) * 1 + 1 * 0 = 0; omega

/-! ## The result's blocks fill its rows -/

/-- An index of the result is in point `t`'s block iff each coordinate is in the block's range on its axis. -/
theorem mem_result_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v12).slice (win0_3.rect t)).set ↔ _
  rw [View.set_slice_whole, Rect.mem_set_unit]
  exact Iff.rfl

/-- Every index of the result is in the block of the point `row / 10000`, which is written back. -/
theorem result_covered (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have hN : cfg0.N = 10 := N_0
  obtain ⟨t, ht⟩ : ∃ t : Fin cfg0.N, t.val = (i 0).val / 10000 := ⟨⟨(i 0).val / 10000, by omega⟩, rfl⟩
  obtain ⟨-, -, -, -, -, -, e30, e31⟩ := block_index_facts t
  refine ⟨t, flush0_3 t, ?_⟩
  rw [mem_result_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-! ## What a point writes back, and the array after the last point -/

/-- What point `t` writes back is block `t` of `d ⊙ (x · w)` of the arrays as the region finds them. -/
theorem written_back_eq (c : Dev nD) (t : Fin cfg0.N) :
    (dat0 (F := Ideal) V c).flushed 3 t
      = ((cfg0.win 3).blk t).view.read (Elt Ideal)
          (Cert.Gcn.scaleMM (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S128x64) zero_offsets,
    View.ld_unit_zero (S := S10000x1) zero_offsets]
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (ix2 p q)
      = Cert.Gcn.scaleMM (V c (Pipeline.arrRef spec0 0)) (V c (Pipeline.arrRef spec0 1)) (V c (Pipeline.arrRef spec0 2))
          (((cfg0.win 3).blk t).view.emb (ix2 p q))
  rw [scaled_product_entry, result_block_entry, Cert.Gcn.scaleMM_apply, d_block_entry V c t p]
  refine congrArg _ (Finset.sum_congr rfl fun k _ => ?_)
  rw [x_block_entry V c t p k, w_block_entry V c t k q]

/-- The result array after the region: `d ⊙ (x · w)` of the three arrays the region reads, every entry of it. -/
theorem arr0 (c : Dev nD) :
    (dat0 (F := Ideal) V c).arrAt 3 cfg0.N
      = Cert.Gcn.scaleMM (V c (Pipeline.arrRef spec0 0)) (V c (Pipeline.arrRef spec0 1)) (V c (Pipeline.arrRef spec0 2)) :=
  (dat0 V c).arrAt_eq_of_cover 3 _ (fun t _ => written_back_eq V c t) result_covered

end Cert.KernelIdeal.RegionValue
end
-- ==== Proof.Region1.lean ====
/-
  Region 1: one layer's closing step fused with the next product, on row blocks.

  The region's grid has ten points; point t holds rows 10000 t … 10000 t + 9999 of the neighbour sums s, of the scaled
  features y and of the scale column d, and the whole bias row b and weight matrix W.  On its block the body computes,
  at row p and column q,  d p · Σ_k max (d p · (s(p,k) + y(p,k)) + b k) 0 · W(k,q):  a product of the closing step's
  result with W, into a zero accumulator, scaled by the row's d.  Every row of the output lies in exactly one block, so
  the output array ends holding that function of the whole arrays at every index.
-/
import proofs.«169936_j65317862637645_2_alg».proof.Proof.Gen.KernelIdeal.Frame
import proofs.«169936_j65317862637645_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The product's contraction record, read at a left-operand and a right-operand index. -/
theorem lhsRow1 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsInner1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsInner1 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsCol1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block product into the zero accumulator, at row p and column q: the sum over the 64 inner positions. -/
theorem blockProduct1_apply (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhsRow1 _ _
    | ⟨1, _⟩ => exact (lhsInner1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhsInner1 _ _).trans hk
    | ⟨1, _⟩ => exact rhsCol1 _ _)
  rw [el, er]

/-- A column broadcast along the rows: entry (p, c) of the broadcast is the column's entry p. -/
theorem colBroadcast1_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at row p and column q: the row's scale times the product of the clamped, biased, scaled sum
    of the two feature blocks with the weights. -/
theorem pay1_apply (v0 : Vec Ideal S10000x64 .f32) (v2 : Vec Ideal S10000x64 .bf16) (v5 : Vec Ideal S10000x1 .f32)
    (v7 : Vec Ideal S1x64 .f32) (v17 : Vec Ideal S64x64 .f32) (p : Fin 10000) (q : Fin 64) :
    k1_pay1 v0 v2 v5 v7 v17 (ix2 p q)
      = v5 (ix2 p 0) * ∑ k : Fin 64, max (v5 (ix2 p 0) * (v0 (ix2 p k) + v2 (ix2 p k)) + v7 (ix2 0 k)) 0 * v17 (ix2 k q) := by
  unfold k1_pay1
  simp only [shapeCast_self]
  rw [truncf_apply, mulf_apply, blockProduct1_apply, colBroadcast1_apply]
  refine congrArg (v5 (ix2 p 0) * ·) (Finset.sum_congr rfl fun k _ => ?_)
  rw [truncf_apply, truncf_apply, maximumf_apply, addf_apply, mulf_apply, addf_apply, extf_apply, colBroadcast1_apply,
    broadcastTo_1b_ab_apply, broadcast_apply]
  show max _ (Ideal.ofBits .f32 0x00000000#32) * _ = _
  rw [Ideal.ofBits_zero_f32]

variable (V : (c : Dev nD) → (b : Ref sig .tc) → Buf (Elt Ideal) ((c : Thread nD τ).loc b))

theorem hz1 : (![0, 0] : Fin 2 → Nat) = fun _ => 0 := funext fun a => by fin_cases a <;> rfl

/-- The layer's output as one function of the five arrays the region finds: the rows' scale times the product of the
    closing step's result with the weights. -/
abbrev layer1 (c : Dev nD) : Cert.Gcn.Mat 100000 64 :=
  Cert.Gcn.scaleMM (Cert.Gcn.combine (V c (Pipeline.arrRef spec1 0)) (V c (Pipeline.arrRef spec1 1)) (V c (Pipeline.arrRef spec1 2)) (V c (Pipeline.arrRef spec1 3))) (V c (Pipeline.arrRef spec1 4)) (V c (Pipeline.arrRef spec1 2))

/-- The body's arithmetic on blocks whose entries are those of whole arrays at row r: the layer's function at row r. -/
theorem pay1_of_rows (x0 : Vec Ideal S10000x64 .f32) (x1 : Vec Ideal S10000x64 .bf16) (x2 : Vec Ideal S10000x1 .f32)
    (x3 : Vec Ideal S1x64 .f32) (x4 : Vec Ideal S64x64 .f32)
    (s y : Cert.Gcn.Mat 100000 64) (d : Cert.Gcn.Mat 100000 1) (b : Cert.Gcn.Mat 1 64) (W : Cert.Gcn.Mat 64 64)
    (p : Fin 10000) (q : Fin 64) (r : Fin 100000)
    (h0 : ∀ k : Fin 64, x0 (ix2 p k) = s (ix2 r k)) (h1 : ∀ k : Fin 64, x1 (ix2 p k) = y (ix2 r k))
    (h2 : x2 (ix2 p 0) = d (ix2 r 0)) (h3 : ∀ k : Fin 64, x3 (ix2 0 k) = b (ix2 0 k))
    (h4 : ∀ k : Fin 64, x4 (ix2 k q) = W (ix2 k q)) :
    k1_pay1 x0 x1 x2 x3 x4 (ix2 p q) = Cert.Gcn.scaleMM (Cert.Gcn.combine s y d b) W d (ix2 r q) := by
  rw [pay1_apply, Cert.Gcn.scaleMM_apply, h2]
  refine congrArg (d (ix2 r 0) * ·) (Finset.sum_congr rfl fun k _ => ?_)
  rw [Cert.Gcn.combine_apply, h0, h1, h3, h4]

/-- The windows' index maps over the ten points: the row-blocked windows sit at block (t, 0), the whole ones at (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem N1 : cfg1.N = 10 := N_1

/-- The feature windows' block at point t, at row p: the array's row 10000 t + p. -/
theorem blkS1_apply (c : Dev nD) (t : Fin cfg1.N) (p : Fin 10000) (k : Fin 64) (r : Fin 100000)
    (hr : r.val = t.val * 10000 + p.val) :
    (iblk1 (F := Ideal) V c 0 t : Vec Ideal S10000x64 .f32) (ix2 p k)
      = (V c (Pipeline.arrRef spec1 0) : Cert.Gcn.Mat 100000 64) (ix2 r k) := by
  obtain ⟨a0, a1, -⟩ := idx1 t
  show (V c (Pipeline.arrRef spec1 0) : Cert.Gcn.Mat 100000 64) (((cfg1.win 0).blk t).view.emb (ix2 p k)) = _
  refine congrArg (V c (Pipeline.arrRef spec1 0) : Cert.Gcn.Mat 100000 64) (funext fun a => Fin.ext ?_)
  match a with
  | ⟨0, _⟩ => show win1_0.index t (0 : Fin 2) * 10000 + 1 * p.val = r.val; omega
  | ⟨1, _⟩ => show win1_0.index t (1 : Fin 2) * 64 + 1 * k.val = k.val; omega

theorem blkY1_apply (c : Dev nD) (t : Fin cfg1.N) (p : Fin 10000) (k : Fin 64) (r : Fin 100000)
    (hr : r.val = t.val * 10000 + p.val) :
    (iblk1 (F := Ideal) V c 1 t : Vec Ideal S10000x64 .bf16) (ix2 p k)
      = (V c (Pipeline.arrRef spec1 1) : Cert.Gcn.Mat 100000 64) (ix2 r k) := by
  obtain ⟨-, -, a0, a1, -⟩ := idx1 t
  show (V c (Pipeline.arrRef spec1 1) : Cert.Gcn.Mat 100000 64) (((cfg1.win 1).blk t).view.emb (ix2 p k)) = _
  refine congrArg (V c (Pipeline.arrRef spec1 1) : Cert.Gcn.Mat 100000 64) (funext fun a => Fin.ext ?_)
  match a with
  | ⟨0, _⟩ => show win1_1.index t (0 : Fin 2) * 10000 + 1 * p.val = r.val; omega
  | ⟨1, _⟩ => show win1_1.index t (1 : Fin 2) * 64 + 1 * k.val = k.val; omega

/-- The scale column's block at point t, at row p: the column's entry 10000 t + p. -/
theorem blkD1_apply (c : Dev nD) (t : Fin cfg1.N) (p : Fin 10000) (r : Fin 100000)
    (hr : r.val = t.val * 10000 + p.val) :
    (iblk1 (F := Ideal) V c 2 t : Vec Ideal S10000x1 .f32) (ix2 p 0)
      = (V c (Pipeline.arrRef spec1 2) : Cert.Gcn.Mat 100000 1) (ix2 r 0) := by
  obtain ⟨-, -, -, -, a0, a1, -⟩ := idx1 t
  show (V c (Pipeline.arrRef spec1 2) : Cert.Gcn.Mat 100000 1) (((cfg1.win 2).blk t).view.emb (ix2 p 0)) = _
  refine congrArg (V c (Pipeline.arrRef spec1 2) : Cert.Gcn.Mat 100000 1) (funext fun a => Fin.ext ?_)
  match a with
  | ⟨0, _⟩ => show win1_2.index t (0 : Fin 2) * 10000 + 1 * p.val = r.val; omega
  | ⟨1, _⟩ => show win1_2.index t (1 : Fin 2) * 1 + 1 * 0 = 0; omega

/-- The bias row is read whole at every point. -/
theorem blkB1_apply (c : Dev nD) (t : Fin cfg1.N) (k : Fin 64) :
    (iblk1 (F := Ideal) V c 3 t : Vec Ideal S1x64 .f32) (ix2 0 k)
      = (V c (Pipeline.arrRef spec1 3) : Cert.Gcn.Mat 1 64) (ix2 0 k) := by
  obtain ⟨-, -, -, -, -, -, a0, a1, -⟩ := idx1 t
  show (V c (Pipeline.arrRef spec1 3) : Cert.Gcn.Mat 1 64) (((cfg1.win 3).blk t).view.emb (ix2 0 k)) = _
  refine congrArg (V c (Pipeline.arrRef spec1 3) : Cert.Gcn.Mat 1 64) (funext fun a => Fin.ext ?_)
  match a with
  | ⟨0, _⟩ => show win1_3.index t (0 : Fin 2) * 1 + 1 * 0 = 0; omega
  | ⟨1, _⟩ => show win1_3.index t (1 : Fin 2) * 64 + 1 * k.val = k.val; omega

/-- The weight matrix is read whole at every point. -/
theorem blkW1_apply (c : Dev nD) (t : Fin cfg1.N) (k q : Fin 64) :
    (iblk1 (F := Ideal) V c 4 t : Vec Ideal S64x64 .f32) (ix2 k q)
      = (V c (Pipeline.arrRef spec1 4) : Cert.Gcn.Mat 64 64) (ix2 k q) := by
  obtain ⟨-, -, -, -, -, -, -, -, a0, a1, -⟩ := idx1 t
  show (V c (Pipeline.arrRef spec1 4) : Cert.Gcn.Mat 64 64) (((cfg1.win 4).blk t).view.emb (ix2 k q)) = _
  refine congrArg (V c (Pipeline.arrRef spec1 4) : Cert.Gcn.Mat 64 64) (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

/-- Entry (p, q) of the output window's block at point t sits in the array at row 10000 t + p, column q. -/
theorem blkOut1_emb (t : Fin cfg1.N) (p : Fin 10000) (q : Fin 64) (r : Fin 100000)
    (hr : r.val = t.val * 10000 + p.val) :
    ((cfg1.win 5).blk t).view.emb (ix2 p q) = (ix2 r q : S100000x64.Idx) := by
  obtain ⟨-, -, -, -, -, -, -, -, -, -, a0, a1⟩ := idx1 t
  funext a; apply Fin.ext
  match a with
  | ⟨0, _⟩ => show win1_5.index t (0 : Fin 2) * 10000 + 1 * p.val = r.val; omega
  | ⟨1, _⟩ => show win1_5.index t (1 : Fin 2) * 64 + 1 * q.val = q.val; omega

/-- Point t writes back block t of the layer's function: the blocked windows' rows at t sit at array rows
    10000 t + p, the bias and the weights are read whole. -/
theorem flushed1_eq (c : Dev nD) (t : Fin cfg1.N) :
    (dat1 (F := Ideal) V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz1]
  simp only [View.ld_unit_zero (S := S10000x64) hz1, View.ld_unit_zero (S := S10000x1) hz1,
    View.ld_unit_zero (S := S1x64) hz1, View.ld_unit_zero (S := S64x64) hz1]
  have ht : t.val < 10 := lt_of_lt_of_eq t.isLt N1
  show (fun j : S10000x64.Idx => k1_pay1 (iblk1 V c 0 t) (iblk1 V c 1 t) (iblk1 V c 2 t) (iblk1 V c 3 t) (iblk1 V c 4 t) j)
      = fun j : S10000x64.Idx => layer1 V c (((cfg1.win 5).blk t).view.emb j)
  funext j
  obtain ⟨p, q, rfl⟩ : ∃ (p : Fin 10000) (q : Fin 64), j = ix2 p q := ⟨j 0, j 1, eq_ix2 j⟩
  have hp : p.val < 10000 := p.isLt
  obtain ⟨r, hr⟩ : ∃ r : Fin 100000, r.val = t.val * 10000 + p.val := ⟨⟨t.val * 10000 + p.val, by omega⟩, rfl⟩
  rw [blkOut1_emb t p q r hr]
  exact pay1_of_rows _ _ _ _ _ _ _ _ _ _ p q r (fun k => blkS1_apply V c t p k r hr) (fun k => blkY1_apply V c t p k r hr)
    (blkD1_apply V c t p r hr) (fun k => blkB1_apply V c t k) (fun k => blkW1_apply V c t k q)

/-- An index of the array is in point t's block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v26).slice (win1_5.rect t)).set ↔ _
  rw [View.set_slice_whole, Rect.mem_set_unit]
  exact Iff.rfl

/-- Every index is covered: row r lies in the block of point r / 10000. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 10000 := ⟨⟨(i 0).val / 10000, by rw [N1]; omega⟩, rfl⟩
  obtain ⟨-, -, -, -, -, -, -, -, -, -, e0, e1⟩ := idx1 t
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array after the region: the layer's function of the five arrays the region finds. -/
theorem arr1 (c : Dev nD) : (dat1 (F := Ideal) V c).arrAt 5 cfg1.N = Cert.Gcn.scaleMM (Cert.Gcn.combine (V c (Pipeline.arrRef spec1 0)) (V c (Pipeline.arrRef spec1 1)) (V c (Pipeline.arrRef spec1 2)) (V c (Pipeline.arrRef spec1 3))) (V c (Pipeline.arrRef spec1 4)) (V c (Pipeline.arrRef spec1 2)) :=
  (dat1 V c).arrAt_eq_of_cover 5 (layer1 V c) (fun t _ => flushed1_eq V c t) (cover1)

end Cert.KernelIdeal.RegionValue

end
-- ==== Proof.Region2.lean ====
import proofs.«169936_j65317862637645_2_alg».proof.Proof.Gen.KernelIdeal.Frame
import proofs.«169936_j65317862637645_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A column `[a, 1]` spread over `b` columns reads, at `(p, q)`, the column's entry in row `p`. -/
theorem colSpread2 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p`, column `q` of a block: the row's factor times the sum of the two
    operands' entries, plus the bias of the column, raised to at least zero. -/
theorem pay2_apply (x0 : Vec Ideal S10000x64 .f32) (x1 : Vec Ideal S10000x64 .bf16) (x2 : Vec Ideal S10000x1 .f32)
    (x3 : Vec Ideal S1x64 .f32) (p : Fin 10000) (q : Fin 64) :
    k2_pay1 x0 x1 x2 x3 (ix2 p q)
      = max (x2 (ix2 p (0 : Fin 1)) * (x0 (ix2 p q) + x1 (ix2 p q)) + x3 (ix2 (0 : Fin 1) q)) 0 := by
  unfold k2_pay1
  simp only [shapeCast_self]
  rw [maximumf_apply, addf_apply, mulf_apply, addf_apply, extf_apply, broadcast_apply, colSpread2,
    broadcastTo_1b_ab_apply]
  show max _ (Ideal.ofBits .f32 0x00000000#32) = _
  rw [Ideal.ofBits_zero_f32]

theorem zeroOffsets2 : (![0, 0] : Fin 2 → Nat) = fun _ => 0 := funext fun a => by fin_cases a <;> rfl

/-- The four arrays the region reads, as it finds them: the neighbours' sums, the scaled rows, the rows' factors, the bias. -/
abbrev sums2 (c : Dev nD) : Cert.Gcn.Mat 100000 64 := V c (Pipeline.arrRef spec2 0)
abbrev rows2 (c : Dev nD) : Cert.Gcn.Mat 100000 64 := V c (Pipeline.arrRef spec2 1)
abbrev factor2 (c : Dev nD) : Cert.Gcn.Mat 100000 1 := V c (Pipeline.arrRef spec2 2)
abbrev bias2 (c : Dev nD) : Cert.Gcn.Mat 1 64 := V c (Pipeline.arrRef spec2 3)

/-- The closing step of the layer as one function of those four arrays. -/
abbrev layerOut2 (c : Dev nD) : S100000x64.Idx → EReal :=
  Cert.Gcn.combine (sums2 V c) (rows2 V c) (factor2 V c) (bias2 V c)

/-- The block index maps over the grid: the three row-blocked operands and the result move with the point along
    the rows, the bias stays in place. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is rows `10000 t … 10000 t + 9999` of the layer's closing step. -/
theorem flushed2_eq (c : Dev nD) (t : Fin cfg2.N) :
    (dat2 (F := Ideal) V c).flushed 4 t = ((cfg2.win 4).blk t).view.read (Elt Ideal) (layerOut2 V c) := by
  show (cfg2.win 4).cut (grid2.coords t) ((dat2 V c).after 4 t) = _
  rw [after2_4]
  unfold out2_4
  rw [View.canon_unit_zero zeroOffsets2]
  simp only [View.ld_unit_zero (S := S10000x64) zeroOffsets2, View.ld_unit_zero (S := S10000x1) zeroOffsets2,
    View.ld_unit_zero (S := S1x64) zeroOffsets2]
  obtain ⟨e00, e01, e10, e11, e20, e21, e30, e31, e40, e41⟩ := blockIdx2 t
  funext j
  obtain ⟨p, q, rfl⟩ : ∃ (p : Fin 10000) (q : Fin 64), j = ix2 p q := ⟨j 0, j 1, eq_ix2 j⟩
  refine (pay2_apply _ _ _ _ p q).trans ?_
  show max (factor2 V c (((cfg2.win 2).blk t).view.emb (ix2 p (0 : Fin 1)))
        * (sums2 V c (((cfg2.win 0).blk t).view.emb (ix2 p q)) + rows2 V c (((cfg2.win 1).blk t).view.emb (ix2 p q)))
        + bias2 V c (((cfg2.win 3).blk t).view.emb (ix2 (0 : Fin 1) q))) 0
      = layerOut2 V c (((cfg2.win 4).blk t).view.emb (ix2 p q))
  have hp : p.val < 10000 := p.isLt
  have ht : t.val < 10 := by have h := t.isLt; have hN : cfg2.N = 10 := N_2; omega
  have h4 : ((cfg2.win 4).blk t).view.emb (ix2 p q)
      = (ix2 (⟨t.val * 10000 + p.val, by omega⟩ : Fin 100000) q : S100000x64.Idx) := by
    funext a; apply Fin.ext
    match a with
    | ⟨0, _⟩ => show win2_4.index t (0 : Fin 2) * 10000 + 1 * p.val = t.val * 10000 + p.val; omega
    | ⟨1, _⟩ => show win2_4.index t (1 : Fin 2) * 64 + 1 * q.val = q.val; omega
  have h0 : ((cfg2.win 0).blk t).view.emb (ix2 p q)
      = (ix2 (⟨t.val * 10000 + p.val, by omega⟩ : Fin 100000) q : S100000x64.Idx) := by
    funext a; apply Fin.ext
    match a with
    | ⟨0, _⟩ => show win2_0.index t (0 : Fin 2) * 10000 + 1 * p.val = t.val * 10000 + p.val; omega
    | ⟨1, _⟩ => show win2_0.index t (1 : Fin 2) * 64 + 1 * q.val = q.val; omega
  have h1 : ((cfg2.win 1).blk t).view.emb (ix2 p q)
      = (ix2 (⟨t.val * 10000 + p.val, by omega⟩ : Fin 100000) q : S100000x64.Idx) := by
    funext a; apply Fin.ext
    match a with
    | ⟨0, _⟩ => show win2_1.index t (0 : Fin 2) * 10000 + 1 * p.val = t.val * 10000 + p.val; omega
    | ⟨1, _⟩ => show win2_1.index t (1 : Fin 2) * 64 + 1 * q.val = q.val; omega
  have h2 : ((cfg2.win 2).blk t).view.emb (ix2 p (0 : Fin 1))
      = (ix2 (⟨t.val * 10000 + p.val, by omega⟩ : Fin 100000) (0 : Fin 1) : S100000x1.Idx) := by
    funext a; apply Fin.ext
    match a with
    | ⟨0, _⟩ => show win2_2.index t (0 : Fin 2) * 10000 + 1 * p.val = t.val * 10000 + p.val; omega
    | ⟨1, _⟩ => show win2_2.index t (1 : Fin 2) * 1 + 1 * 0 = 0; omega
  have h3 : ((cfg2.win 3).blk t).view.emb (ix2 (0 : Fin 1) q) = (ix2 (0 : Fin 1) q : S1x64.Idx) := by
    funext a; apply Fin.ext
    match a with
    | ⟨0, _⟩ => show win2_3.index t (0 : Fin 2) * 1 + 1 * 0 = 0; omega
    | ⟨1, _⟩ => show win2_3.index t (1 : Fin 2) * 64 + 1 * q.val = q.val; omega
  rw [h4, h0, h1, h2, h3]
  exact (Cert.Gcn.combine_apply _ _ _ _ _ q).symm

/-- An index of the result array lies in point `t`'s block iff each coordinate lies in the block's range. -/
theorem mem_blk2 (t : Fin cfg2.N) (i : S100000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v40).slice (win2_4.rect t)).set ↔ _
  rw [View.set_slice_whole, Rect.mem_set_unit]
  exact Iff.rfl

/-- Every row `r` of the result is written by the point `r / 10000`. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e00, e01, e10, e11, e20, e21, e30, e31, e40, e41⟩ := blockIdx2 t
  refine ⟨t, flush2_4 t, ?_⟩
  rw [mem_blk2]
  intro a
  match a with
  | ⟨0, _⟩ =>
    show win2_4.index t (0 : Fin 2) * 10000 ≤ (i 0).val ∧ (i 0).val < win2_4.index t (0 : Fin 2) * 10000 + 10000
    omega
  | ⟨1, _⟩ =>
    show win2_4.index t (1 : Fin 2) * 64 ≤ (i 1).val ∧ (i 1).val < win2_4.index t (1 : Fin 2) * 64 + 64
    omega

/-- The result array after the region: the layer's closing step of the four arrays the region finds. -/
theorem arr2 (c : Dev nD) :
    (dat2 (F := Ideal) V c).arrAt 4 cfg2.N
      = Cert.Gcn.combine (V c (Pipeline.arrRef spec2 0)) (V c (Pipeline.arrRef spec2 1))
          (V c (Pipeline.arrRef spec2 2)) (V c (Pipeline.arrRef spec2 3)) :=
  (dat2 V c).arrAt_eq_of_cover 4 (layerOut2 V c) (fun t _ => flushed2_eq V c t) (cover2)

end Cert.KernelIdeal.RegionValue

end
-- ==== Proof.KernelValue1.lean ====
/-
  The first program's run walked forward through the first graph: the edge list's rows and the degree, the first
  product with its rows scaled, the neighbours' rows summed, the first layer closed inside the second product, the
  second layer closed, and the rows pooled per graph of the batch — each buffer at each boundary in GraphSpec's words.
-/
import proofs.«169936_j65317862637645_2_alg».proof.Proof.KernelKeeps
import proofs.«169936_j65317862637645_2_alg».proof.Proof.KernelReads
import proofs.«169936_j65317862637645_2_alg».proof.Proof.Region0
import proofs.«169936_j65317862637645_2_alg».proof.Proof.Region1
import proofs.«169936_j65317862637645_2_alg».proof.Proof.Region2

set_option maxRecDepth 16384
set_option maxHeartbeats 1600000

noncomputable section

namespace Cert.KernelIdeal.Gen

open Idealize.ShloMosaic Idealize.ShloMosaic.TcCoe Idealize.ShloMosaic.Tactic Idealize.ShloMosaic.StableHlo
open Idealize.SL Idealize.SL.Sem
open Cert.Gcn Cert.KernelIdeal.Reads Cert.KernelIdeal.RegionValue

variable (m : (ℓ : Loc nD τ sig) → Buf (Elt Ideal) ℓ) (ρ : Dev nD → PrngReg) (c : Dev nD)

/-! ## The first graph's convolution -/

/-! ### Graph 1: rows of the edge list, the degree, the first product -/

theorem v1_at1 : W1 m ρ c (Proc.devRef .tc main_v1) = srcT (m ((c : Thread nD τ).loc main_arg1)) := by
  show StableHlo.after hostOps0 (W0 m ρ c) (Proc.devRef .tc main_v1) = _
  after_results
  rfl

theorem v3_at1 : W1 m ρ c (Proc.devRef .tc main_v3) = dstT (m ((c : Thread nD τ).loc main_arg1)) := by
  show StableHlo.after hostOps0 (W0 m ρ c) (Proc.devRef .tc main_v3) = _
  after_results
  rfl

theorem v10_at1 : W1 m ρ c (Proc.devRef .tc main_v10) = dinvT (m ((c : Thread nD τ).loc main_arg1)) := by
  show StableHlo.after hostOps0 (W0 m ρ c) (Proc.devRef .tc main_v10) = _
  after_results
  rfl

theorem v11_at1 : W1 m ρ c (Proc.devRef .tc main_v11) = (graphOf (m ((c : Thread nD τ).loc main_arg1))).dcol :=
  (show W1 m ρ c (Proc.devRef .tc main_v11) = shapeCast S100000x1 (dinvT (m ((c : Thread nD τ).loc main_arg1))) Facts₀.shapeCasts_S100000_S100000x1 from by
    show StableHlo.after hostOps0 (W0 m ρ c) (Proc.devRef .tc main_v11) = _
    after_results
    rfl).trans (dcolT_eq _)

theorem v1_at2 : W2 m ρ c (Proc.devRef .tc main_v1) = srcT (m ((c : Thread nD τ).loc main_arg1)) :=
  ((List.forall_iff_forall_mem.mp (keep2 m ρ c)) main_v1 (by decide)).trans (v1_at1 m ρ c)

theorem v3_at2 : W2 m ρ c (Proc.devRef .tc main_v3) = dstT (m ((c : Thread nD τ).loc main_arg1)) :=
  ((List.forall_iff_forall_mem.mp (keep2 m ρ c)) main_v3 (by decide)).trans (v3_at1 m ρ c)

theorem v10_at2 : W2 m ρ c (Proc.devRef .tc main_v10) = dinvT (m ((c : Thread nD τ).loc main_arg1)) :=
  ((List.forall_iff_forall_mem.mp (keep2 m ρ c)) main_v10 (by decide)).trans (v10_at1 m ρ c)

theorem v12_at2 : W2 m ρ c (Proc.devRef .tc main_v12) = (scaleMM (m ((c : Thread nD τ).loc main_arg0)) (m ((c : Thread nD τ).loc main_arg6)) (graphOf (m ((c : Thread nD τ).loc main_arg1))).dcol) :=
  (W2_arr m ρ c 3).trans ((arr0 (V1 m ρ) c).trans
    (congr (congr (congrArg scaleMM (at1 m ρ c main_arg0 (by decide))) (at1 m ρ c main_arg6 (by decide))) (v11_at1 m ρ c)))

/-! ### Graph 1: the neighbours' rows summed, the first layer closed and the second product -/

theorem v1_at3 : W3 m ρ c (Proc.devRef .tc main_v1) = srcT (m ((c : Thread nD τ).loc main_arg1)) :=
  ((List.forall_iff_forall_mem.mp (keep3 m ρ c)) main_v1 (by decide)).trans (v1_at2 m ρ c)

theorem v3_at3 : W3 m ρ c (Proc.devRef .tc main_v3) = dstT (m ((c : Thread nD τ).loc main_arg1)) :=
  ((List.forall_iff_forall_mem.mp (keep3 m ρ c)) main_v3 (by decide)).trans (v3_at2 m ρ c)

theorem v10_at3 : W3 m ρ c (Proc.devRef .tc main_v10) = dinvT (m ((c : Thread nD τ).loc main_arg1)) :=
  ((List.forall_iff_forall_mem.mp (keep3 m ρ c)) main_v10 (by decide)).trans (v10_at2 m ρ c)

theorem v12_at3 : W3 m ρ c (Proc.devRef .tc main_v12) = (scaleMM (m ((c : Thread nD τ).loc main_arg0)) (m ((c : Thread nD τ).loc main_arg6)) (graphOf (m ((c : Thread nD τ).loc main_arg1))).dcol) :=
  ((List.forall_iff_forall_mem.mp (keep3 m ρ c)) main_v12 (by decide)).trans (v12_at2 m ρ c)

theorem v23_at3 : W3 m ρ c (Proc.devRef .tc main_v23) = (graphOf (m ((c : Thread nD τ).loc main_arg1))).nbrSum (scaleMM (m ((c : Thread nD τ).loc main_arg0)) (m ((c : Thread nD τ).loc main_arg6)) (graphOf (m ((c : Thread nD τ).loc main_arg1))).dcol) :=
  (show W3 m ρ c (Proc.devRef .tc main_v23) = nbrT (m ((c : Thread nD τ).loc main_arg1)) (scaleMM (m ((c : Thread nD τ).loc main_arg0)) (m ((c : Thread nD τ).loc main_arg6)) (graphOf (m ((c : Thread nD τ).loc main_arg1))).dcol) from by
    show StableHlo.after hostOps1 (W2 m ρ c) (Proc.devRef .tc main_v23) = _
    after_results_simp
    rw [v1_at2 m ρ c, v3_at2 m ρ c, v12_at2 m ρ c]
    rfl).trans (nbrT_eq _ _)

theorem v24_at3 : W3 m ρ c (Proc.devRef .tc main_v24) = (graphOf (m ((c : Thread nD τ).loc main_arg1))).dcol :=
  (show W3 m ρ c (Proc.devRef .tc main_v24) = shapeCast S100000x1 (dinvT (m ((c : Thread nD τ).loc main_arg1))) Facts₀.shapeCasts_S100000_S100000x1 from by
    show StableHlo.after hostOps1 (W2 m ρ c) (Proc.devRef .tc main_v24) = _
    after_results
    rw [v10_at2 m ρ c]
    rfl).trans (dcolT_eq _)

theorem v25_at3 : W3 m ρ c (Proc.devRef .tc main_v25) = asRow (m ((c : Thread nD τ).loc main_arg7)) :=
  (show W3 m ρ c (Proc.devRef .tc main_v25) = shapeCast S1x64 (m ((c : Thread nD τ).loc main_arg7)) Facts₀.shapeCasts_S64_S1x64 from by
    show StableHlo.after hostOps1 (W2 m ρ c) (Proc.devRef .tc main_v25) = _
    after_results
    rw [at2 m ρ c main_arg7 (by decide)]
    rfl).trans (asRow64_eq _)

theorem v1_at4 : W4 m ρ c (Proc.devRef .tc main_v1) = srcT (m ((c : Thread nD τ).loc main_arg1)) :=
  ((List.forall_iff_forall_mem.mp (keep4 m ρ c)) main_v1 (by decide)).trans (v1_at3 m ρ c)

theorem v3_at4 : W4 m ρ c (Proc.devRef .tc main_v3) = dstT (m ((c : Thread nD τ).loc main_arg1)) :=
  ((List.forall_iff_forall_mem.mp (keep4 m ρ c)) main_v3 (by decide)).trans (v3_at3 m ρ c)

theorem v10_at4 : W4 m ρ c (Proc.devRef .tc main_v10) = dinvT (m ((c : Thread nD τ).loc main_arg1)) :=
  ((List.forall_iff_forall_mem.mp (keep4 m ρ c)) main_v10 (by decide)).trans (v10_at3 m ρ c)

theorem v26_at4 : W4 m ρ c (Proc.devRef .tc main_v26) = (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) :=
  (W4_arr m ρ c 5).trans ((arr1 (V3 m ρ) c).trans
    (congr (congr (congrArg scaleMM (congr (congr (congr (congrArg combine (v23_at3 m ρ c)) (v12_at3 m ρ c)) (v24_at3 m ρ c)) (v25_at3 m ρ c)))
      (at3 m ρ c main_arg8 (by decide))) (v24_at3 m ρ c)))

/-! ### Graph 1: the second layer closed -/

theorem v26_at5 : W5 m ρ c (Proc.devRef .tc main_v26) = (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) :=
  ((List.forall_iff_forall_mem.mp (keep5 m ρ c)) main_v26 (by decide)).trans (v26_at4 m ρ c)

theorem v37_at5 : W5 m ρ c (Proc.devRef .tc main_v37) = (graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) :=
  (show W5 m ρ c (Proc.devRef .tc main_v37) = nbrT (m ((c : Thread nD τ).loc main_arg1)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) from by
    show StableHlo.after hostOps2 (W4 m ρ c) (Proc.devRef .tc main_v37) = _
    after_results_simp
    rw [v1_at4 m ρ c, v3_at4 m ρ c, v26_at4 m ρ c]
    rfl).trans (nbrT_eq _ _)

theorem v38_at5 : W5 m ρ c (Proc.devRef .tc main_v38) = (graphOf (m ((c : Thread nD τ).loc main_arg1))).dcol :=
  (show W5 m ρ c (Proc.devRef .tc main_v38) = shapeCast S100000x1 (dinvT (m ((c : Thread nD τ).loc main_arg1))) Facts₀.shapeCasts_S100000_S100000x1 from by
    show StableHlo.after hostOps2 (W4 m ρ c) (Proc.devRef .tc main_v38) = _
    after_results
    rw [v10_at4 m ρ c]
    rfl).trans (dcolT_eq _)

theorem v39_at5 : W5 m ρ c (Proc.devRef .tc main_v39) = asRow (m ((c : Thread nD τ).loc main_arg9)) :=
  (show W5 m ρ c (Proc.devRef .tc main_v39) = shapeCast S1x64 (m ((c : Thread nD τ).loc main_arg9)) Facts₀.shapeCasts_S64_S1x64 from by
    show StableHlo.after hostOps2 (W4 m ρ c) (Proc.devRef .tc main_v39) = _
    after_results
    rw [at4 m ρ c main_arg9 (by decide)]
    rfl).trans (asRow64_eq _)

theorem v40_at6 : W6 m ρ c (Proc.devRef .tc main_v40) = (combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9)))) :=
  (W6_arr m ρ c 4).trans ((arr2 (V5 m ρ) c).trans
    (congr (congr (congr (congrArg combine (v37_at5 m ρ c)) (v26_at5 m ρ c)) (v38_at5 m ρ c)) (v39_at5 m ρ c)))

/-! ### Graph 1 pooled -/

theorem v43_at7 : W7 m ρ c (Proc.devRef .tc main_v43) = (pool (G := 1024) (batchOf (m ((c : Thread nD τ).loc main_arg2))) (combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9))))) :=
  (show W7 m ρ c (Proc.devRef .tc main_v43) = (Host.scatterAdd scatter_S1024x64_S100000x1_S100000x64_1_0_0_1 (broadcastInDim S1024x64 ![] Facts₀.bcast_S_S1024x64 (constant (F := Ideal) S_ .f32 0x00000000#32)) (broadcastInDim S100000x1 ![0] Facts₀.bcast_S100000_S100000x1_0 (m ((c : Thread nD τ).loc main_arg2))) ((combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9)))) : FVec Ideal S100000x64 .f32) : S1024x64.Idx → EReal) from by
    show StableHlo.after hostOps3 (W6 m ρ c) (Proc.devRef .tc main_v43) = _
    after_results_simp
    rw [at6 m ρ c main_arg2 (by decide), v40_at6 m ρ c]).trans (poolT_eq _ _)

theorem v47_at7 : W7 m ρ c (Proc.devRef .tc main_v47) = (Host.scatterAdd scatter_S1024_S100000x1_S100000_n_0_0_1 (broadcastInDim S1024 ![] Facts₀.bcast_S_S1024 (constant (F := Ideal) S_ .f32 0x00000000#32)) (broadcastInDim S100000x1 ![0] Facts₀.bcast_S100000_S100000x1_0 (m ((c : Thread nD τ).loc main_arg2))) (broadcastInDim S100000 ![] Facts₀.bcast_S_S100000 (constant (F := Ideal) S_ .f32 0x3F800000#32)) : FVec Ideal S1024 .f32) := by
  show StableHlo.after hostOps3 (W6 m ρ c) (Proc.devRef .tc main_v47) = _
  after_results
  rw [at6 m ρ c main_arg2 (by decide)]

theorem v43_at8 : W8 m ρ c (Proc.devRef .tc main_v43) = (pool (G := 1024) (batchOf (m ((c : Thread nD τ).loc main_arg2))) (combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9))))) :=
  ((List.forall_iff_forall_mem.mp (keep8 m ρ c)) main_v43 (by decide)).trans (v43_at7 m ρ c)

theorem v43_at9 : W9 m ρ c (Proc.devRef .tc main_v43) = (pool (G := 1024) (batchOf (m ((c : Thread nD τ).loc main_arg2))) (combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9))))) :=
  ((List.forall_iff_forall_mem.mp (keep9 m ρ c)) main_v43 (by decide)).trans (v43_at8 m ρ c)

theorem v43_at10 : W10 m ρ c (Proc.devRef .tc main_v43) = (pool (G := 1024) (batchOf (m ((c : Thread nD τ).loc main_arg2))) (combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9))))) :=
  ((List.forall_iff_forall_mem.mp (keep10 m ρ c)) main_v43 (by decide)).trans (v43_at9 m ρ c)

theorem v43_at11 : W11 m ρ c (Proc.devRef .tc main_v43) = (pool (G := 1024) (batchOf (m ((c : Thread nD τ).loc main_arg2))) (combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9))))) :=
  ((List.forall_iff_forall_mem.mp (keep11 m ρ c)) main_v43 (by decide)).trans (v43_at10 m ρ c)

theorem v43_at12 : W12 m ρ c (Proc.devRef .tc main_v43) = (pool (G := 1024) (batchOf (m ((c : Thread nD τ).loc main_arg2))) (combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9))))) :=
  ((List.forall_iff_forall_mem.mp (keep12 m ρ c)) main_v43 (by decide)).trans (v43_at11 m ρ c)

theorem v43_at13 : W13 m ρ c (Proc.devRef .tc main_v43) = (pool (G := 1024) (batchOf (m ((c : Thread nD τ).loc main_arg2))) (combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9))))) :=
  ((List.forall_iff_forall_mem.mp (keep13 m ρ c)) main_v43 (by decide)).trans (v43_at12 m ρ c)

theorem v47_at8 : W8 m ρ c (Proc.devRef .tc main_v47) = (Host.scatterAdd scatter_S1024_S100000x1_S100000_n_0_0_1 (broadcastInDim S1024 ![] Facts₀.bcast_S_S1024 (constant (F := Ideal) S_ .f32 0x00000000#32)) (broadcastInDim S100000x1 ![0] Facts₀.bcast_S100000_S100000x1_0 (m ((c : Thread nD τ).loc main_arg2))) (broadcastInDim S100000 ![] Facts₀.bcast_S_S100000 (constant (F := Ideal) S_ .f32 0x3F800000#32)) : FVec Ideal S1024 .f32) :=
  ((List.forall_iff_forall_mem.mp (keep8 m ρ c)) main_v47 (by decide)).trans (v47_at7 m ρ c)

theorem v47_at9 : W9 m ρ c (Proc.devRef .tc main_v47) = (Host.scatterAdd scatter_S1024_S100000x1_S100000_n_0_0_1 (broadcastInDim S1024 ![] Facts₀.bcast_S_S1024 (constant (F := Ideal) S_ .f32 0x00000000#32)) (broadcastInDim S100000x1 ![0] Facts₀.bcast_S100000_S100000x1_0 (m ((c : Thread nD τ).loc main_arg2))) (broadcastInDim S100000 ![] Facts₀.bcast_S_S100000 (constant (F := Ideal) S_ .f32 0x3F800000#32)) : FVec Ideal S1024 .f32) :=
  ((List.forall_iff_forall_mem.mp (keep9 m ρ c)) main_v47 (by decide)).trans (v47_at8 m ρ c)

theorem v47_at10 : W10 m ρ c (Proc.devRef .tc main_v47) = (Host.scatterAdd scatter_S1024_S100000x1_S100000_n_0_0_1 (broadcastInDim S1024 ![] Facts₀.bcast_S_S1024 (constant (F := Ideal) S_ .f32 0x00000000#32)) (broadcastInDim S100000x1 ![0] Facts₀.bcast_S100000_S100000x1_0 (m ((c : Thread nD τ).loc main_arg2))) (broadcastInDim S100000 ![] Facts₀.bcast_S_S100000 (constant (F := Ideal) S_ .f32 0x3F800000#32)) : FVec Ideal S1024 .f32) :=
  ((List.forall_iff_forall_mem.mp (keep10 m ρ c)) main_v47 (by decide)).trans (v47_at9 m ρ c)

theorem v47_at11 : W11 m ρ c (Proc.devRef .tc main_v47) = (Host.scatterAdd scatter_S1024_S100000x1_S100000_n_0_0_1 (broadcastInDim S1024 ![] Facts₀.bcast_S_S1024 (constant (F := Ideal) S_ .f32 0x00000000#32)) (broadcastInDim S100000x1 ![0] Facts₀.bcast_S100000_S100000x1_0 (m ((c : Thread nD τ).loc main_arg2))) (broadcastInDim S100000 ![] Facts₀.bcast_S_S100000 (constant (F := Ideal) S_ .f32 0x3F800000#32)) : FVec Ideal S1024 .f32) :=
  ((List.forall_iff_forall_mem.mp (keep11 m ρ c)) main_v47 (by decide)).trans (v47_at10 m ρ c)

theorem v47_at12 : W12 m ρ c (Proc.devRef .tc main_v47) = (Host.scatterAdd scatter_S1024_S100000x1_S100000_n_0_0_1 (broadcastInDim S1024 ![] Facts₀.bcast_S_S1024 (constant (F := Ideal) S_ .f32 0x00000000#32)) (broadcastInDim S100000x1 ![0] Facts₀.bcast_S100000_S100000x1_0 (m ((c : Thread nD τ).loc main_arg2))) (broadcastInDim S100000 ![] Facts₀.bcast_S_S100000 (constant (F := Ideal) S_ .f32 0x3F800000#32)) : FVec Ideal S1024 .f32) :=
  ((List.forall_iff_forall_mem.mp (keep12 m ρ c)) main_v47 (by decide)).trans (v47_at11 m ρ c)

end Cert.KernelIdeal.Gen

end
-- ==== Proof.Region3.lean ====
import proofs.«169936_j65317862637645_2_alg».proof.Proof.Gen.KernelIdeal.Frame
import proofs.«169936_j65317862637645_2_alg».proof.Proof.GcnSpec
import Idealize.ShloMosaic.Lib.ValueIdx
import Idealize.ShloMosaic.Lib.Pipeline.Value
import Idealize.ShloMosaic.PureOps.Ideal.Laws

/-!
A row-scaled product, `y = d ⊙ (x · w)`: `x` is `100000 × 128`, `w` is `128 × 64`, `d` is one scale per row.
The rows are processed in ten blocks of `10000`; block `t` of the result depends only on block `t` of `x` and of `d`
and on all of `w`, so the ten blocks written back assemble to the whole-array function `Cert.Gcn.scaleMM x w d`.
Over the extended reals the narrowing casts are the identity and the product into a zero accumulator is the plain sum
`Σ_k x(p, k) · w(k, q)`.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic, entry by entry -/

/-- The left operand's index of the product at output entry `i` and contraction index `k`: row of `i`. -/
theorem lhs_row3 (i : S10000x64.Idx) (k : dot_S10000x128_S128x64_S10000x64_1_0_0_1_n_n.contr.Idx) :
    (dot_S10000x128_S128x64_S10000x64_1_0_0_1_n_n.lhsIdx i k 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl

/-- … and the contracted coordinate in its column. -/
theorem lhs_col3 (i : S10000x64.Idx) (k : dot_S10000x128_S128x64_S10000x64_1_0_0_1_n_n.contr.Idx) :
    (dot_S10000x128_S128x64_S10000x64_1_0_0_1_n_n.lhsIdx i k 1).val = (k ⟨0, by decide⟩).val :=
  dot_S10000x128_S128x64_S10000x64_1_0_0_1_n_n.lhsIdx_val_of_single rfl i k

/-- The right operand's index: the contracted coordinate in its row … -/
theorem rhs_row3 (i : S10000x64.Idx) (k : dot_S10000x128_S128x64_S10000x64_1_0_0_1_n_n.contr.Idx) :
    (dot_S10000x128_S128x64_S10000x64_1_0_0_1_n_n.rhsIdx i k 0).val = (k ⟨0, by decide⟩).val :=
  dot_S10000x128_S128x64_S10000x64_1_0_0_1_n_n.rhsIdx_val_of_single rfl i k

/-- … and column of `i`. -/
theorem rhs_col3 (i : S10000x64.Idx) (k : dot_S10000x128_S128x64_S10000x64_1_0_0_1_n_n.contr.Idx) :
    (dot_S10000x128_S128x64_S10000x64_1_0_0_1_n_n.rhsIdx i k 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry `(p, q)` of the body's result `d ⊙ (x · w)`: the scale of row `p` times `Σ_k x(p, k) · w(k, q)`.
    Every float is an extended real here, so the narrowing casts are the identity and the product into the zero
    accumulator is the plain sum. -/
theorem scaled_product_entry3 (x : Vec Ideal S10000x128 .f32) (w : Vec Ideal S128x64 .f32) (d : Vec Ideal S10000x1 .f32)
    (p : Fin 10000) (q : Fin 64) :
    k3_pay1 x w d (ix2 p q) = d (ix2 p 0) * ∑ k : Fin 128, x (ix2 p k) * w (ix2 k q) := by
  unfold k3_pay1
  rw [truncf_apply, mulf_apply, shapeCast_self,
    broadcastTo_apply d broadcasts_S10000x1_S10000x64 (ix2 p q) (ix2 p 0)
      (fun a => by match a with | ⟨0, _⟩ => rfl | ⟨1, _⟩ => rfl)]
  refine congrArg (d (ix2 p 0) * ·) ?_
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k :=
    funext fun a => Fin.ext (by
      match a with
      | ⟨0, _⟩ => exact lhs_row3 _ _
      | ⟨1, _⟩ => exact (lhs_col3 _ _).trans hk)
  have er : dot_S10000x128_S128x64_S10000x64_1_0_0_1_n_n.rhsIdx (ix2 p q) ((contrEquiv1 dot_S10000x128_S128x64_S10000x64_1_0_0_1_n_n 128 rfl rfl).symm k) = ix2 k q :=
    funext fun a => Fin.ext (by
      match a with
      | ⟨0, _⟩ => exact (rhs_row3 _ _).trans hk
      | ⟨1, _⟩ => exact rhs_col3 _ _)
  rw [truncf_apply, truncf_apply, el, er]

/-! ## Where each block sits in its array -/

theorem zero_offsets3 : (![0, 0] : Fin 2 → Nat) = fun _ => 0 := funext fun a => by fin_cases a <;> rfl

/-- The block index maps over the `10` grid points: the row-blocked arrays (`x`, `d`, the result) are at block `t`
    of their rows at point `t`, the weights are whole at every point, and nothing is blocked along the columns. -/
theorem block_index_facts3 : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row `p` of the block at point `t` is row `t · 10000 + p` of the array, inside its `100000` rows. -/
theorem block_row_lt3 (t : Fin cfg3.N) (p : Fin 10000) : t.val * 10000 + p.val < 100000 := by
  have hN : cfg3.N = 10 := N_3
  have ht := t.isLt
  have hp := p.isLt
  omega

/-- An entry of the result's block at point `t` sits in the array at row `t · 10000 + p`, same column. -/
theorem result_block_entry3 (t : Fin cfg3.N) (p : Fin 10000) (q : Fin 64) :
    ((cfg3.win 3).blk t).view.emb (ix2 p q)
      = (ix2 (⟨t.val * 10000 + p.val, block_row_lt3 t p⟩ : Fin 100000) q : S100000x64.Idx) := by
  obtain ⟨-, -, -, -, -, -, e30, e31⟩ := block_index_facts3 t
  funext a; apply Fin.ext
  match a with
  | ⟨0, _⟩ => show win3_3.index t (0 : Fin 2) * 10000 + 1 * p.val = t.val * 10000 + p.val; omega
  | ⟨1, _⟩ => show win3_3.index t (1 : Fin 2) * 64 + 1 * q.val = q.val; omega

/-- The block of `x` at point `t` holds rows `t · 10000 …` of `x`. -/
theorem x_block_entry3 (c : Dev nD) (t : Fin cfg3.N) (p : Fin 10000) (k : Fin 128) :
    iblk3 V c 0 t (ix2 p k)
      = (V c (Pipeline.arrRef spec3 0) : S100000x128.Idx → EReal) (ix2 (⟨t.val * 10000 + p.val, block_row_lt3 t p⟩ : Fin 100000) k) := by
  obtain ⟨e00, e01, -, -, -, -, -, -⟩ := block_index_facts3 t
  show V c (Pipeline.arrRef spec3 0) (((cfg3.win 0).blk t).view.emb (ix2 p k)) = _
  refine congrArg _ (funext fun a => Fin.ext ?_)
  match a with
  | ⟨0, _⟩ => show win3_0.index t (0 : Fin 2) * 10000 + 1 * p.val = t.val * 10000 + p.val; omega
  | ⟨1, _⟩ => show win3_0.index t (1 : Fin 2) * 128 + 1 * k.val = k.val; omega

/-- The block of the weights is the whole of them at every point. -/
theorem w_block_entry3 (c : Dev nD) (t : Fin cfg3.N) (k : Fin 128) (q : Fin 64) :
    iblk3 V c 1 t (ix2 k q) = (V c (Pipeline.arrRef spec3 1) : S128x64.Idx → EReal) (ix2 k q) := by
  obtain ⟨-, -, e10, e11, -, -, -, -⟩ := block_index_facts3 t
  show V c (Pipeline.arrRef spec3 1) (((cfg3.win 1).blk t).view.emb (ix2 k q)) = _
  refine congrArg _ (funext fun a => Fin.ext ?_)
  match a with
  | ⟨0, _⟩ => show win3_1.index t (0 : Fin 2) * 128 + 1 * k.val = k.val; omega
  | ⟨1, _⟩ => show win3_1.index t (1 : Fin 2) * 64 + 1 * q.val = q.val; omega

/-- The block of the row scales at point `t` holds rows `t · 10000 …` of them. -/
theorem d_block_entry3 (c : Dev nD) (t : Fin cfg3.N) (p : Fin 10000) :
    iblk3 V c 2 t (ix2 p 0)
      = (V c (Pipeline.arrRef spec3 2) : S100000x1.Idx → EReal) (ix2 (⟨t.val * 10000 + p.val, block_row_lt3 t p⟩ : Fin 100000) 0) := by
  obtain ⟨-, -, -, -, e20, e21, -, -⟩ := block_index_facts3 t
  show V c (Pipeline.arrRef spec3 2) (((cfg3.win 2).blk t).view.emb (ix2 p 0)) = _
  refine congrArg _ (funext fun a => Fin.ext ?_)
  match a with
  | ⟨0, _⟩ => show win3_2.index t (0 : Fin 2) * 10000 + 1 * p.val = t.val * 10000 + p.val; omega
  | ⟨1, _⟩ => show win3_2.index t (1 : Fin 2) * 1 + 1 * 0 = 0; omega

/-! ## The result's blocks fill its rows -/

/-- An index of the result is in point `t`'s block iff each coordinate is in the block's range on its axis. -/
theorem mem_result_block3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v60).slice (win3_3.rect t)).set ↔ _
  rw [View.set_slice_whole, Rect.mem_set_unit]
  exact Iff.rfl

/-- Every index of the result is in the block of the point `row / 10000`, which is written back. -/
theorem result_covered3 (i : S100000x64.Idx) :
    ∃ t : Fin cfg3.N, (cfg3.win 3).flush t = true ∧ i ∈ ((cfg3.win 3).blk t).view.set := by
  have hi0 : (i 0).val < 100000 := idx2_lt0 i
  have hi1 : (i 1).val < 64 := idx2_lt1 i
  have hN : cfg3.N = 10 := N_3
  obtain ⟨t, ht⟩ : ∃ t : Fin cfg3.N, t.val = (i 0).val / 10000 := ⟨⟨(i 0).val / 10000, by omega⟩, rfl⟩
  obtain ⟨-, -, -, -, -, -, e30, e31⟩ := block_index_facts3 t
  refine ⟨t, flush3_3 t, ?_⟩
  rw [mem_result_block3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-! ## What a point writes back, and the array after the last point -/

/-- What point `t` writes back is block `t` of `d ⊙ (x · w)` of the arrays as the region finds them. -/
theorem written_back_eq3 (c : Dev nD) (t : Fin cfg3.N) :
    (dat3 (F := Ideal) V c).flushed 3 t
      = ((cfg3.win 3).blk t).view.read (Elt Ideal)
          (Cert.Gcn.scaleMM (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_offsets3]
  simp only [View.ld_unit_zero (S := S10000x128) zero_offsets3, View.ld_unit_zero (S := S128x64) zero_offsets3,
    View.ld_unit_zero (S := S10000x1) zero_offsets3]
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (ix2 p q)
      = Cert.Gcn.scaleMM (V c (Pipeline.arrRef spec3 0)) (V c (Pipeline.arrRef spec3 1)) (V c (Pipeline.arrRef spec3 2))
          (((cfg3.win 3).blk t).view.emb (ix2 p q))
  rw [scaled_product_entry3, result_block_entry3, Cert.Gcn.scaleMM_apply, d_block_entry3 V c t p]
  refine congrArg _ (Finset.sum_congr rfl fun k _ => ?_)
  rw [x_block_entry3 V c t p k, w_block_entry3 V c t k q]

/-- The result array after the region: `d ⊙ (x · w)` of the three arrays the region reads, every entry of it. -/
theorem arr3 (c : Dev nD) :
    (dat3 (F := Ideal) V c).arrAt 3 cfg3.N
      = Cert.Gcn.scaleMM (V c (Pipeline.arrRef spec3 0)) (V c (Pipeline.arrRef spec3 1)) (V c (Pipeline.arrRef spec3 2)) :=
  (dat3 V c).arrAt_eq_of_cover 3 _ (fun t _ => written_back_eq3 V c t) result_covered3

end Cert.KernelIdeal.RegionValue
end
-- ==== Proof.Region4.lean ====
/-
  Region 4: one layer's closing step fused with the next product, on row blocks.

  The region's grid has ten points; point t holds rows 10000 t … 10000 t + 9999 of the neighbour sums s, of the scaled
  features y and of the scale column d, and the whole bias row b and weight matrix W.  On its block the body computes,
  at row p and column q,  d p · Σ_k max (d p · (s(p,k) + y(p,k)) + b k) 0 · W(k,q):  a product of the closing step's
  result with W, into a zero accumulator, scaled by the row's d.  Every row of the output lies in exactly one block, so
  the output array ends holding that function of the whole arrays at every index.
-/
import proofs.«169936_j65317862637645_2_alg».proof.Proof.Gen.KernelIdeal.Frame
import proofs.«169936_j65317862637645_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The product's contraction record, read at a left-operand and a right-operand index. -/
theorem lhsRow4 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsInner4 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsInner4 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsCol4 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block product into the zero accumulator, at row p and column q: the sum over the 64 inner positions. -/
theorem blockProduct4_apply (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhsRow4 _ _
    | ⟨1, _⟩ => exact (lhsInner4 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhsInner4 _ _).trans hk
    | ⟨1, _⟩ => exact rhsCol4 _ _)
  rw [el, er]

/-- A column broadcast along the rows: entry (p, c) of the broadcast is the column's entry p. -/
theorem colBroadcast4_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at row p and column q: the row's scale times the product of the clamped, biased, scaled sum
    of the two feature blocks with the weights. -/
theorem pay4_apply (v0 : Vec Ideal S10000x64 .f32) (v2 : Vec Ideal S10000x64 .bf16) (v5 : Vec Ideal S10000x1 .f32)
    (v7 : Vec Ideal S1x64 .f32) (v17 : Vec Ideal S64x64 .f32) (p : Fin 10000) (q : Fin 64) :
    k4_pay1 v0 v2 v5 v7 v17 (ix2 p q)
      = v5 (ix2 p 0) * ∑ k : Fin 64, max (v5 (ix2 p 0) * (v0 (ix2 p k) + v2 (ix2 p k)) + v7 (ix2 0 k)) 0 * v17 (ix2 k q) := by
  unfold k4_pay1
  simp only [shapeCast_self]
  rw [truncf_apply, mulf_apply, blockProduct4_apply, colBroadcast4_apply]
  refine congrArg (v5 (ix2 p 0) * ·) (Finset.sum_congr rfl fun k _ => ?_)
  rw [truncf_apply, truncf_apply, maximumf_apply, addf_apply, mulf_apply, addf_apply, extf_apply, colBroadcast4_apply,
    broadcastTo_1b_ab_apply, broadcast_apply]
  show max _ (Ideal.ofBits .f32 0x00000000#32) * _ = _
  rw [Ideal.ofBits_zero_f32]

variable (V : (c : Dev nD) → (b : Ref sig .tc) → Buf (Elt Ideal) ((c : Thread nD τ).loc b))

theorem hz4 : (![0, 0] : Fin 2 → Nat) = fun _ => 0 := funext fun a => by fin_cases a <;> rfl

/-- The layer's output as one function of the five arrays the region finds: the rows' scale times the product of the
    closing step's result with the weights. -/
abbrev layer4 (c : Dev nD) : Cert.Gcn.Mat 100000 64 :=
  Cert.Gcn.scaleMM (Cert.Gcn.combine (V c (Pipeline.arrRef spec4 0)) (V c (Pipeline.arrRef spec4 1)) (V c (Pipeline.arrRef spec4 2)) (V c (Pipeline.arrRef spec4 3))) (V c (Pipeline.arrRef spec4 4)) (V c (Pipeline.arrRef spec4 2))

/-- The body's arithmetic on blocks whose entries are those of whole arrays at row r: the layer's function at row r. -/
theorem pay4_of_rows (x0 : Vec Ideal S10000x64 .f32) (x1 : Vec Ideal S10000x64 .bf16) (x2 : Vec Ideal S10000x1 .f32)
    (x3 : Vec Ideal S1x64 .f32) (x4 : Vec Ideal S64x64 .f32)
    (s y : Cert.Gcn.Mat 100000 64) (d : Cert.Gcn.Mat 100000 1) (b : Cert.Gcn.Mat 1 64) (W : Cert.Gcn.Mat 64 64)
    (p : Fin 10000) (q : Fin 64) (r : Fin 100000)
    (h0 : ∀ k : Fin 64, x0 (ix2 p k) = s (ix2 r k)) (h1 : ∀ k : Fin 64, x1 (ix2 p k) = y (ix2 r k))
    (h2 : x2 (ix2 p 0) = d (ix2 r 0)) (h3 : ∀ k : Fin 64, x3 (ix2 0 k) = b (ix2 0 k))
    (h4 : ∀ k : Fin 64, x4 (ix2 k q) = W (ix2 k q)) :
    k4_pay1 x0 x1 x2 x3 x4 (ix2 p q) = Cert.Gcn.scaleMM (Cert.Gcn.combine s y d b) W d (ix2 r q) := by
  rw [pay4_apply, Cert.Gcn.scaleMM_apply, h2]
  refine congrArg (d (ix2 r 0) * ·) (Finset.sum_congr rfl fun k _ => ?_)
  rw [Cert.Gcn.combine_apply, h0, h1, h3, h4]

/-- The windows' index maps over the ten points: the row-blocked windows sit at block (t, 0), the whole ones at (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem N4 : cfg4.N = 10 := N_4

/-- The feature windows' block at point t, at row p: the array's row 10000 t + p. -/
theorem blkS4_apply (c : Dev nD) (t : Fin cfg4.N) (p : Fin 10000) (k : Fin 64) (r : Fin 100000)
    (hr : r.val = t.val * 10000 + p.val) :
    (iblk4 (F := Ideal) V c 0 t : Vec Ideal S10000x64 .f32) (ix2 p k)
      = (V c (Pipeline.arrRef spec4 0) : Cert.Gcn.Mat 100000 64) (ix2 r k) := by
  obtain ⟨a0, a1, -⟩ := idx4 t
  show (V c (Pipeline.arrRef spec4 0) : Cert.Gcn.Mat 100000 64) (((cfg4.win 0).blk t).view.emb (ix2 p k)) = _
  refine congrArg (V c (Pipeline.arrRef spec4 0) : Cert.Gcn.Mat 100000 64) (funext fun a => Fin.ext ?_)
  match a with
  | ⟨0, _⟩ => show win4_0.index t (0 : Fin 2) * 10000 + 1 * p.val = r.val; omega
  | ⟨1, _⟩ => show win4_0.index t (1 : Fin 2) * 64 + 1 * k.val = k.val; omega

theorem blkY4_apply (c : Dev nD) (t : Fin cfg4.N) (p : Fin 10000) (k : Fin 64) (r : Fin 100000)
    (hr : r.val = t.val * 10000 + p.val) :
    (iblk4 (F := Ideal) V c 1 t : Vec Ideal S10000x64 .bf16) (ix2 p k)
      = (V c (Pipeline.arrRef spec4 1) : Cert.Gcn.Mat 100000 64) (ix2 r k) := by
  obtain ⟨-, -, a0, a1, -⟩ := idx4 t
  show (V c (Pipeline.arrRef spec4 1) : Cert.Gcn.Mat 100000 64) (((cfg4.win 1).blk t).view.emb (ix2 p k)) = _
  refine congrArg (V c (Pipeline.arrRef spec4 1) : Cert.Gcn.Mat 100000 64) (funext fun a => Fin.ext ?_)
  match a with
  | ⟨0, _⟩ => show win4_1.index t (0 : Fin 2) * 10000 + 1 * p.val = r.val; omega
  | ⟨1, _⟩ => show win4_1.index t (1 : Fin 2) * 64 + 1 * k.val = k.val; omega

/-- The scale column's block at point t, at row p: the column's entry 10000 t + p. -/
theorem blkD4_apply (c : Dev nD) (t : Fin cfg4.N) (p : Fin 10000) (r : Fin 100000)
    (hr : r.val = t.val * 10000 + p.val) :
    (iblk4 (F := Ideal) V c 2 t : Vec Ideal S10000x1 .f32) (ix2 p 0)
      = (V c (Pipeline.arrRef spec4 2) : Cert.Gcn.Mat 100000 1) (ix2 r 0) := by
  obtain ⟨-, -, -, -, a0, a1, -⟩ := idx4 t
  show (V c (Pipeline.arrRef spec4 2) : Cert.Gcn.Mat 100000 1) (((cfg4.win 2).blk t).view.emb (ix2 p 0)) = _
  refine congrArg (V c (Pipeline.arrRef spec4 2) : Cert.Gcn.Mat 100000 1) (funext fun a => Fin.ext ?_)
  match a with
  | ⟨0, _⟩ => show win4_2.index t (0 : Fin 2) * 10000 + 1 * p.val = r.val; omega
  | ⟨1, _⟩ => show win4_2.index t (1 : Fin 2) * 1 + 1 * 0 = 0; omega

/-- The bias row is read whole at every point. -/
theorem blkB4_apply (c : Dev nD) (t : Fin cfg4.N) (k : Fin 64) :
    (iblk4 (F := Ideal) V c 3 t : Vec Ideal S1x64 .f32) (ix2 0 k)
      = (V c (Pipeline.arrRef spec4 3) : Cert.Gcn.Mat 1 64) (ix2 0 k) := by
  obtain ⟨-, -, -, -, -, -, a0, a1, -⟩ := idx4 t
  show (V c (Pipeline.arrRef spec4 3) : Cert.Gcn.Mat 1 64) (((cfg4.win 3).blk t).view.emb (ix2 0 k)) = _
  refine congrArg (V c (Pipeline.arrRef spec4 3) : Cert.Gcn.Mat 1 64) (funext fun a => Fin.ext ?_)
  match a with
  | ⟨0, _⟩ => show win4_3.index t (0 : Fin 2) * 1 + 1 * 0 = 0; omega
  | ⟨1, _⟩ => show win4_3.index t (1 : Fin 2) * 64 + 1 * k.val = k.val; omega

/-- The weight matrix is read whole at every point. -/
theorem blkW4_apply (c : Dev nD) (t : Fin cfg4.N) (k q : Fin 64) :
    (iblk4 (F := Ideal) V c 4 t : Vec Ideal S64x64 .f32) (ix2 k q)
      = (V c (Pipeline.arrRef spec4 4) : Cert.Gcn.Mat 64 64) (ix2 k q) := by
  obtain ⟨-, -, -, -, -, -, -, -, a0, a1, -⟩ := idx4 t
  show (V c (Pipeline.arrRef spec4 4) : Cert.Gcn.Mat 64 64) (((cfg4.win 4).blk t).view.emb (ix2 k q)) = _
  refine congrArg (V c (Pipeline.arrRef spec4 4) : Cert.Gcn.Mat 64 64) (funext fun a => Fin.ext ?_)
  match a with
  | ⟨0, _⟩ => show win4_4.index t (0 : Fin 2) * 64 + 1 * k.val = k.val; omega
  | ⟨1, _⟩ => show win4_4.index t (1 : Fin 2) * 64 + 1 * q.val = q.val; omega

/-- Entry (p, q) of the output window's block at point t sits in the array at row 10000 t + p, column q. -/
theorem blkOut4_emb (t : Fin cfg4.N) (p : Fin 10000) (q : Fin 64) (r : Fin 100000)
    (hr : r.val = t.val * 10000 + p.val) :
    ((cfg4.win 5).blk t).view.emb (ix2 p q) = (ix2 r q : S100000x64.Idx) := by
  obtain ⟨-, -, -, -, -, -, -, -, -, -, a0, a1⟩ := idx4 t
  funext a; apply Fin.ext
  match a with
  | ⟨0, _⟩ => show win4_5.index t (0 : Fin 2) * 10000 + 1 * p.val = r.val; omega
  | ⟨1, _⟩ => show win4_5.index t (1 : Fin 2) * 64 + 1 * q.val = q.val; omega

/-- Point t writes back block t of the layer's function: the blocked windows' rows at t sit at array rows
    10000 t + p, the bias and the weights are read whole. -/
theorem flushed4_eq (c : Dev nD) (t : Fin cfg4.N) :
    (dat4 (F := Ideal) V c).flushed 5 t = ((cfg4.win 5).blk t).view.read (Elt Ideal) (layer4 V c) := by
  show (cfg4.win 5).cut (grid4.coords t) ((dat4 V c).after 5 t) = _
  rw [after4_5]
  unfold out4_5
  rw [View.canon_unit_zero hz4]
  simp only [View.ld_unit_zero (S := S10000x64) hz4, View.ld_unit_zero (S := S10000x1) hz4,
    View.ld_unit_zero (S := S1x64) hz4, View.ld_unit_zero (S := S64x64) hz4]
  have ht : t.val < 10 := lt_of_lt_of_eq t.isLt N4
  show (fun j : S10000x64.Idx => k4_pay1 (iblk4 V c 0 t) (iblk4 V c 1 t) (iblk4 V c 2 t) (iblk4 V c 3 t) (iblk4 V c 4 t) j)
      = fun j : S10000x64.Idx => layer4 V c (((cfg4.win 5).blk t).view.emb j)
  funext j
  obtain ⟨p, q, rfl⟩ : ∃ (p : Fin 10000) (q : Fin 64), j = ix2 p q := ⟨j 0, j 1, eq_ix2 j⟩
  have hp : p.val < 10000 := p.isLt
  obtain ⟨r, hr⟩ : ∃ r : Fin 100000, r.val = t.val * 10000 + p.val := ⟨⟨t.val * 10000 + p.val, by omega⟩, rfl⟩
  rw [blkOut4_emb t p q r hr]
  exact pay4_of_rows _ _ _ _ _ _ _ _ _ _ p q r (fun k => blkS4_apply V c t p k r hr) (fun k => blkY4_apply V c t p k r hr)
    (blkD4_apply V c t p r hr) (fun k => blkB4_apply V c t k) (fun k => blkW4_apply V c t k q)

/-- An index of the array is in point t's block iff each coordinate is in the block's range on its axis. -/
theorem mem_blk4 (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v74).slice (win4_5.rect t)).set ↔ _
  rw [View.set_slice_whole, Rect.mem_set_unit]
  exact Iff.rfl

/-- Every index is covered: row r lies in the block of point r / 10000. -/
theorem cover4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  obtain ⟨t, ht⟩ : ∃ t : Fin cfg4.N, t.val = (i 0).val / 10000 := ⟨⟨(i 0).val / 10000, by rw [N4]; omega⟩, rfl⟩
  obtain ⟨-, -, -, -, -, -, -, -, -, -, e0, e1⟩ := idx4 t
  refine ⟨t, flush4_5 t, ?_⟩
  rw [mem_blk4]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 64 ≤ (i 1).val ∧ (i 1).val < win4_5.index t (1 : Fin 2) * 64 + 64; omega

/-- The output array after the region: the layer's function of the five arrays the region finds. -/
theorem arr4 (c : Dev nD) : (dat4 (F := Ideal) V c).arrAt 5 cfg4.N = Cert.Gcn.scaleMM (Cert.Gcn.combine (V c (Pipeline.arrRef spec4 0)) (V c (Pipeline.arrRef spec4 1)) (V c (Pipeline.arrRef spec4 2)) (V c (Pipeline.arrRef spec4 3))) (V c (Pipeline.arrRef spec4 4)) (V c (Pipeline.arrRef spec4 2)) :=
  (dat4 V c).arrAt_eq_of_cover 5 (layer4 V c) (fun t _ => flushed4_eq V c t) (cover4)

end Cert.KernelIdeal.RegionValue

end
-- ==== Proof.Region5.lean ====
import proofs.«169936_j65317862637645_2_alg».proof.Proof.Gen.KernelIdeal.Frame
import proofs.«169936_j65317862637645_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A column `[a, 1]` spread over `b` columns reads, at `(p, q)`, the column's entry in row `p`. -/
theorem colSpread5 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p`, column `q` of a block: the row's factor times the sum of the two
    operands' entries, plus the bias of the column, raised to at least zero. -/
theorem pay5_apply (x0 : Vec Ideal S10000x64 .f32) (x1 : Vec Ideal S10000x64 .bf16) (x2 : Vec Ideal S10000x1 .f32)
    (x3 : Vec Ideal S1x64 .f32) (p : Fin 10000) (q : Fin 64) :
    k5_pay1 x0 x1 x2 x3 (ix2 p q)
      = max (x2 (ix2 p (0 : Fin 1)) * (x0 (ix2 p q) + x1 (ix2 p q)) + x3 (ix2 (0 : Fin 1) q)) 0 := by
  unfold k5_pay1
  simp only [shapeCast_self]
  rw [maximumf_apply, addf_apply, mulf_apply, addf_apply, extf_apply, broadcast_apply, colSpread5,
    broadcastTo_1b_ab_apply]
  show max _ (Ideal.ofBits .f32 0x00000000#32) = _
  rw [Ideal.ofBits_zero_f32]

theorem zeroOffsets5 : (![0, 0] : Fin 2 → Nat) = fun _ => 0 := funext fun a => by fin_cases a <;> rfl

/-- The four arrays the region reads, as it finds them: the neighbours' sums, the scaled rows, the rows' factors, the bias. -/
abbrev sums5 (c : Dev nD) : Cert.Gcn.Mat 100000 64 := V c (Pipeline.arrRef spec5 0)
abbrev rows5 (c : Dev nD) : Cert.Gcn.Mat 100000 64 := V c (Pipeline.arrRef spec5 1)
abbrev factor5 (c : Dev nD) : Cert.Gcn.Mat 100000 1 := V c (Pipeline.arrRef spec5 2)
abbrev bias5 (c : Dev nD) : Cert.Gcn.Mat 1 64 := V c (Pipeline.arrRef spec5 3)

/-- The closing step of the layer as one function of those four arrays. -/
abbrev layerOut5 (c : Dev nD) : S100000x64.Idx → EReal :=
  Cert.Gcn.combine (sums5 V c) (rows5 V c) (factor5 V c) (bias5 V c)

/-- The block index maps over the grid: the three row-blocked operands and the result move with the point along
    the rows, the bias stays in place. -/
theorem blockIdx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is rows `10000 t … 10000 t + 9999` of the layer's closing step. -/
theorem flushed5_eq (c : Dev nD) (t : Fin cfg5.N) :
    (dat5 (F := Ideal) V c).flushed 4 t = ((cfg5.win 4).blk t).view.read (Elt Ideal) (layerOut5 V c) := by
  show (cfg5.win 4).cut (grid5.coords t) ((dat5 V c).after 4 t) = _
  rw [after5_4]
  unfold out5_4
  rw [View.canon_unit_zero zeroOffsets5]
  simp only [View.ld_unit_zero (S := S10000x64) zeroOffsets5, View.ld_unit_zero (S := S10000x1) zeroOffsets5,
    View.ld_unit_zero (S := S1x64) zeroOffsets5]
  obtain ⟨e00, e01, e10, e11, e20, e21, e30, e31, e40, e41⟩ := blockIdx5 t
  funext j
  obtain ⟨p, q, rfl⟩ : ∃ (p : Fin 10000) (q : Fin 64), j = ix2 p q := ⟨j 0, j 1, eq_ix2 j⟩
  refine (pay5_apply _ _ _ _ p q).trans ?_
  show max (factor5 V c (((cfg5.win 2).blk t).view.emb (ix2 p (0 : Fin 1)))
        * (sums5 V c (((cfg5.win 0).blk t).view.emb (ix2 p q)) + rows5 V c (((cfg5.win 1).blk t).view.emb (ix2 p q)))
        + bias5 V c (((cfg5.win 3).blk t).view.emb (ix2 (0 : Fin 1) q))) 0
      = layerOut5 V c (((cfg5.win 4).blk t).view.emb (ix2 p q))
  have hp : p.val < 10000 := p.isLt
  have ht : t.val < 10 := by have h := t.isLt; have hN : cfg5.N = 10 := N_5; omega
  have h4 : ((cfg5.win 4).blk t).view.emb (ix2 p q)
      = (ix2 (⟨t.val * 10000 + p.val, by omega⟩ : Fin 100000) q : S100000x64.Idx) := by
    funext a; apply Fin.ext
    match a with
    | ⟨0, _⟩ => show win5_4.index t (0 : Fin 2) * 10000 + 1 * p.val = t.val * 10000 + p.val; omega
    | ⟨1, _⟩ => show win5_4.index t (1 : Fin 2) * 64 + 1 * q.val = q.val; omega
  have h0 : ((cfg5.win 0).blk t).view.emb (ix2 p q)
      = (ix2 (⟨t.val * 10000 + p.val, by omega⟩ : Fin 100000) q : S100000x64.Idx) := by
    funext a; apply Fin.ext
    match a with
    | ⟨0, _⟩ => show win5_0.index t (0 : Fin 2) * 10000 + 1 * p.val = t.val * 10000 + p.val; omega
    | ⟨1, _⟩ => show win5_0.index t (1 : Fin 2) * 64 + 1 * q.val = q.val; omega
  have h1 : ((cfg5.win 1).blk t).view.emb (ix2 p q)
      = (ix2 (⟨t.val * 10000 + p.val, by omega⟩ : Fin 100000) q : S100000x64.Idx) := by
    funext a; apply Fin.ext
    match a with
    | ⟨0, _⟩ => show win5_1.index t (0 : Fin 2) * 10000 + 1 * p.val = t.val * 10000 + p.val; omega
    | ⟨1, _⟩ => show win5_1.index t (1 : Fin 2) * 64 + 1 * q.val = q.val; omega
  have h2 : ((cfg5.win 2).blk t).view.emb (ix2 p (0 : Fin 1))
      = (ix2 (⟨t.val * 10000 + p.val, by omega⟩ : Fin 100000) (0 : Fin 1) : S100000x1.Idx) := by
    funext a; apply Fin.ext
    match a with
    | ⟨0, _⟩ => show win5_2.index t (0 : Fin 2) * 10000 + 1 * p.val = t.val * 10000 + p.val; omega
    | ⟨1, _⟩ => show win5_2.index t (1 : Fin 2) * 1 + 1 * 0 = 0; omega
  have h3 : ((cfg5.win 3).blk t).view.emb (ix2 (0 : Fin 1) q) = (ix2 (0 : Fin 1) q : S1x64.Idx) := by
    funext a; apply Fin.ext
    match a with
    | ⟨0, _⟩ => show win5_3.index t (0 : Fin 2) * 1 + 1 * 0 = 0; omega
    | ⟨1, _⟩ => show win5_3.index t (1 : Fin 2) * 64 + 1 * q.val = q.val; omega
  rw [h4, h0, h1, h2, h3]
  exact (Cert.Gcn.combine_apply _ _ _ _ _ q).symm

/-- An index of the result array lies in point `t`'s block iff each coordinate lies in the block's range. -/
theorem mem_blk5 (t : Fin cfg5.N) (i : S100000x64.Idx) :
    i ∈ ((cfg5.win 4).blk t).view.set ↔ ∀ a : Fin 2, win5_4.index t a * S10000x64.size a ≤ (i a).val
      ∧ (i a).val < win5_4.index t a * S10000x64.size a + S10000x64.size a := by
  show i ∈ ((View.whole main_v88).slice (win5_4.rect t)).set ↔ _
  rw [View.set_slice_whole, Rect.mem_set_unit]
  exact Iff.rfl

/-- Every row `r` of the result is written by the point `r / 10000`. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨e00, e01, e10, e11, e20, e21, e30, e31, e40, e41⟩ := blockIdx5 t
  refine ⟨t, flush5_4 t, ?_⟩
  rw [mem_blk5]
  intro a
  match a with
  | ⟨0, _⟩ =>
    show win5_4.index t (0 : Fin 2) * 10000 ≤ (i 0).val ∧ (i 0).val < win5_4.index t (0 : Fin 2) * 10000 + 10000
    omega
  | ⟨1, _⟩ =>
    show win5_4.index t (1 : Fin 2) * 64 ≤ (i 1).val ∧ (i 1).val < win5_4.index t (1 : Fin 2) * 64 + 64
    omega

/-- The result array after the region: the layer's closing step of the four arrays the region finds. -/
theorem arr5 (c : Dev nD) :
    (dat5 (F := Ideal) V c).arrAt 4 cfg5.N
      = Cert.Gcn.combine (V c (Pipeline.arrRef spec5 0)) (V c (Pipeline.arrRef spec5 1))
          (V c (Pipeline.arrRef spec5 2)) (V c (Pipeline.arrRef spec5 3)) :=
  (dat5 V c).arrAt_eq_of_cover 4 (layerOut5 V c) (fun t _ => flushed5_eq V c t) (cover5)

end Cert.KernelIdeal.RegionValue

end
-- ==== Proof.Region6.lean ====
import proofs.«169936_j65317862637645_2_alg».proof.Proof.Gen.KernelIdeal.Frame
import proofs.«169936_j65317862637645_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A column `[a, 1]` spread over `b` columns reads, at `(p, q)`, the column's entry in row `p`. -/
theorem colSpread6 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The two products at an entry -/

/-- The left operand's row coordinate in a `[1024, 64] · [64, 64]` product is the entry's row. -/
theorem lhsRow6 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide),
    dif_pos (show (0 : Fin S1024x64.rank) ∈ dot_S1024x64_S64x64_S1024x64_1_0_0_1_n_n.lhsNonContracting by decide)]
  rfl

/-- The right operand's column coordinate in that product is the entry's column. -/
theorem rhsCol6 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide),
    dif_pos (show (1 : Fin S64x64.rank) ∈ dot_S1024x64_S64x64_S1024x64_1_0_0_1_n_n.rhsNonContracting by decide)]
  rfl

/-- A `[1024, 64] · [64, 64]` product into a zero accumulator, at `(r, k)`: `Σ_p A(r, p) · B(p, k)`. -/
theorem product6_apply {φ₁ φ₂ : FTy} (A : FVec Ideal S1024x64 φ₁) (B : FVec Ideal S64x64 φ₂) (r : Fin 1024) (k : Fin 64) :
    matmul dot_S1024x64_S64x64_S1024x64_1_0_0_1_n_n none A B (constant (F := Ideal) S1024x64 .f32 0x00000000#32) (ix2 r k)
      = ∑ p : Fin 64, A (ix2 r p) * B (ix2 p k) := by
  simp only [matmul]
  rw [Ideal.matmul_constant_zero_apply,
    ← Equiv.sum_comp (contrEquiv1 dot_S1024x64_S64x64_S1024x64_1_0_0_1_n_n 64 rfl rfl).symm]
  refine Finset.sum_congr rfl fun p _ => ?_
  have hp := contrEquiv1_symm_val dot_S1024x64_S64x64_S1024x64_1_0_0_1_n_n 64 rfl rfl p
  have el : dot_S1024x64_S64x64_S1024x64_1_0_0_1_n_n.lhsIdx (ix2 r k)
      ((contrEquiv1 dot_S1024x64_S64x64_S1024x64_1_0_0_1_n_n 64 rfl rfl).symm p) = ix2 r p :=
    funext fun a => Fin.ext (by
      match a with
      | ⟨0, _⟩ => exact lhsRow6 _ _
      | ⟨1, _⟩ => exact (dot_S1024x64_S64x64_S1024x64_1_0_0_1_n_n.lhsIdx_val_of_single rfl _ _).trans hp)
  have er : dot_S1024x64_S64x64_S1024x64_1_0_0_1_n_n.rhsIdx (ix2 r k)
      ((contrEquiv1 dot_S1024x64_S64x64_S1024x64_1_0_0_1_n_n 64 rfl rfl).symm p) = ix2 p k :=
    funext fun a => Fin.ext (by
      match a with
      | ⟨0, _⟩ => exact (dot_S1024x64_S64x64_S1024x64_1_0_0_1_n_n.rhsIdx_val_of_single rfl _ _).trans hp
      | ⟨1, _⟩ => exact rhsCol6 _ _)
  rw [el, er]

/-- The left operand's row coordinate in a `[1024, 64] · [64, 1]` product is the entry's row. -/
theorem lhsRow6' (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide),
    dif_pos (show (0 : Fin S1024x64.rank) ∈ dot_S1024x64_S64x1_S1024x1_1_0_0_1_n_n.lhsNonContracting by decide)]
  rfl

/-- The right operand's column coordinate in that product is the entry's column. -/
theorem rhsCol6' (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide),
    dif_pos (show (1 : Fin S64x1.rank) ∈ dot_S1024x64_S64x1_S1024x1_1_0_0_1_n_n.rhsNonContracting by decide)]
  rfl

/-- A `[1024, 64] · [64, 1]` product into a zero accumulator, at `(r, 0)`: `Σ_q A(r, q) · B(q, 0)`. -/
theorem productCol6_apply {φ₁ φ₂ : FTy} (A : FVec Ideal S1024x64 φ₁) (B : FVec Ideal S64x1 φ₂) (r : Fin 1024) :
    matmul dot_S1024x64_S64x1_S1024x1_1_0_0_1_n_n none A B (constant (F := Ideal) S1024x1 .f32 0x00000000#32)
        (ix2 r (0 : Fin 1))
      = ∑ q : Fin 64, A (ix2 r q) * B (ix2 q (0 : Fin 1)) := by
  simp only [matmul]
  rw [Ideal.matmul_constant_zero_apply,
    ← Equiv.sum_comp (contrEquiv1 dot_S1024x64_S64x1_S1024x1_1_0_0_1_n_n 64 rfl rfl).symm]
  refine Finset.sum_congr rfl fun q _ => ?_
  have hq := contrEquiv1_symm_val dot_S1024x64_S64x1_S1024x1_1_0_0_1_n_n 64 rfl rfl q
  have el : dot_S1024x64_S64x1_S1024x1_1_0_0_1_n_n.lhsIdx (ix2 r (0 : Fin 1))
      ((contrEquiv1 dot_S1024x64_S64x1_S1024x1_1_0_0_1_n_n 64 rfl rfl).symm q) = ix2 r q :=
    funext fun a => Fin.ext (by
      match a with
      | ⟨0, _⟩ => exact lhsRow6' _ _
      | ⟨1, _⟩ => exact (dot_S1024x64_S64x1_S1024x1_1_0_0_1_n_n.lhsIdx_val_of_single rfl _ _).trans hq)
  have er : dot_S1024x64_S64x1_S1024x1_1_0_0_1_n_n.rhsIdx (ix2 r (0 : Fin 1))
      ((contrEquiv1 dot_S1024x64_S64x1_S1024x1_1_0_0_1_n_n 64 rfl rfl).symm q) = ix2 q (0 : Fin 1) :=
    funext fun a => Fin.ext (by
      match a with
      | ⟨0, _⟩ => exact (dot_S1024x64_S64x1_S1024x1_1_0_0_1_n_n.rhsIdx_val_of_single rfl _ _).trans hq
      | ⟨1, _⟩ => exact rhsCol6' _ _)
  rw [el, er]

/-! ## The body's parts at an entry -/

/-- A graph's mean embedding at `(r, p)`: the summed entry over the node count raised to at least one. -/
theorem mean6_apply (s : FVec Ideal S1024x64 .f32) (n : FVec Ideal S1024x1 .f32) (r : Fin 1024) (p : Fin 64) :
    divf s (broadcastTo S1024x64 (maximumf n (broadcast S1024x1 (Scalar.ofBits (F := Ideal) .f32 0x3F800000#32)))
        broadcasts_S1024x1_S1024x64) (ix2 r p)
      = Cert.Gcn.meanOf s n (ix2 r p) := by
  rw [divf_apply, colSpread6, maximumf_apply, broadcast_apply]
  rfl

/-- The three products summed, at `(r, k)`: the two mean embeddings and their absolute difference, each against
    its row block of the first weight matrix. -/
theorem threeProducts6_apply (v0 : Vec Ideal S1024x64 .f32) (v2 : Vec Ideal S1024x1 .f32) (v4 : Vec Ideal S1024x64 .f32)
    (v6 : Vec Ideal S1024x1 .f32) (v18 v21 v24 : Vec Ideal S64x64 .f32) (r : Fin 1024) (k : Fin 64) :
    k6_pay2 v0 v2 v4 v6 v18 v21 v24 (ix2 r k)
      = ((∑ p : Fin 64, Cert.Gcn.meanOf v0 v2 (ix2 r p) * v18 (ix2 p k))
          + ∑ p : Fin 64, Cert.Gcn.meanOf v4 v6 (ix2 r p) * v21 (ix2 p k))
        + ∑ p : Fin 64, FloatOps.absf (F := Ideal) (φ := .f32)
            (Cert.Gcn.meanOf v0 v2 (ix2 r p) - Cert.Gcn.meanOf v4 v6 (ix2 r p)) * v24 (ix2 p k) := by
  unfold k6_pay2
  simp only [shapeCast_self]
  rw [addf_apply, addf_apply, product6_apply, product6_apply, product6_apply]
  refine congrArg₂ (· + ·) (congrArg₂ (· + ·) (Finset.sum_congr rfl fun p _ => ?_)
    (Finset.sum_congr rfl fun p _ => ?_)) (Finset.sum_congr rfl fun p _ => ?_)
  · rw [truncf_apply, truncf_apply, mean6_apply]
  · rw [truncf_apply, truncf_apply, mean6_apply]
  · rw [truncf_apply, truncf_apply]
    show FloatOps.absf (F := Ideal) (φ := .f32) (subf _ _ (ix2 r p)) * _ = _
    rw [subf_apply, mean6_apply, mean6_apply]

/-- The bias row spread over the rows, at `(r, k)`. -/
theorem biasRow6_apply (v35 : Vec Ideal S1x64 .f32) (r : Fin 1024) (k : Fin 64) :
    k6_pay3 v35 (ix2 r k) = v35 (ix2 (0 : Fin 1) k) := by
  unfold k6_pay3
  simp only [shapeCast_self]
  exact broadcastTo_1b_ab_apply _ _ r k

/-- The logistic function of a column, entry by entry. -/
theorem logistic6_apply (v : FVec Ideal S1024x1 .f32) (i : S1024x1.Idx) : logistic v i = Ideal.logistic (v i) := rfl

/-- The closing part at `(r, 0)`: the two summands added and raised to at least zero, the second product, its bias,
    the logistic function. -/
theorem closing6_apply (a b : FVec Ideal S1024x64 .f32) (w : Vec Ideal S64x1 .f32) (b2 : Vec Ideal S1x1 .f32)
    (r : Fin 1024) :
    k6_pay1 a b w b2 (ix2 r (0 : Fin 1))
      = Ideal.logistic ((∑ q : Fin 64, max (a (ix2 r q) + b (ix2 r q)) 0 * w (ix2 q (0 : Fin 1)))
          + b2 (ix2 (0 : Fin 1) (0 : Fin 1))) := by
  unfold k6_pay1
  simp only [shapeCast_self]
  rw [logistic6_apply, addf_apply, productCol6_apply, broadcastTo_1b_ab_apply]
  refine congrArg Ideal.logistic (congrArg₂ (· + ·) (Finset.sum_congr rfl fun q _ => ?_) rfl)
  rw [truncf_apply, truncf_apply, maximumf_apply, addf_apply, broadcast_apply]
  show max _ (Ideal.ofBits .f32 0x00000000#32) * _ = _
  rw [Ideal.ofBits_zero_f32]

/-- The whole body at `(r, 0)` is the classifier head of its ten operands there. -/
theorem body6_apply (x0 : Vec Ideal S1024x64 .f32) (x1 : Vec Ideal S1024x1 .f32) (x2 : Vec Ideal S1024x64 .f32)
    (x3 : Vec Ideal S1024x1 .f32) (x4 x5 x6 : Vec Ideal S64x64 .f32) (x7 : Vec Ideal S1x64 .f32)
    (x8 : Vec Ideal S64x1 .f32) (x9 : Vec Ideal S1x1 .f32) (r : Fin 1024) :
    k6_pay1 (k6_pay2 x0 x1 x2 x3 x4 x5 x6) (k6_pay3 x7) x8 x9 (ix2 r (0 : Fin 1))
      = Cert.Gcn.head x0 x1 x2 x3 x4 x5 x6 x7 x8 x9 (ix2 r (0 : Fin 1)) := by
  rw [closing6_apply]
  unfold Cert.Gcn.head
  rw [Cert.Gcn.score_apply]
  refine congrArg Ideal.logistic (congrArg₂ (· + ·) (Finset.sum_congr rfl fun q _ => ?_) rfl)
  rw [threeProducts6_apply, biasRow6_apply, Cert.Gcn.hidden_apply]

/-! ## From the one block to the array -/

theorem zeroOffsets6 : (![0, 0] : Fin 2 → Nat) = fun _ => 0 := funext fun a => by fin_cases a <;> rfl

/-- The ten arrays the region reads, as it finds them. -/
abbrev sumA6 (c : Dev nD) : Cert.Gcn.Mat 1024 64 := V c (Pipeline.arrRef spec6 0)
abbrev cntA6 (c : Dev nD) : Cert.Gcn.Mat 1024 1 := V c (Pipeline.arrRef spec6 1)
abbrev sumB6 (c : Dev nD) : Cert.Gcn.Mat 1024 64 := V c (Pipeline.arrRef spec6 2)
abbrev cntB6 (c : Dev nD) : Cert.Gcn.Mat 1024 1 := V c (Pipeline.arrRef spec6 3)
abbrev wA6 (c : Dev nD) : Cert.Gcn.Mat 64 64 := V c (Pipeline.arrRef spec6 4)
abbrev wB6 (c : Dev nD) : Cert.Gcn.Mat 64 64 := V c (Pipeline.arrRef spec6 5)
abbrev wC6 (c : Dev nD) : Cert.Gcn.Mat 64 64 := V c (Pipeline.arrRef spec6 6)
abbrev biasH6 (c : Dev nD) : Cert.Gcn.Mat 1 64 := V c (Pipeline.arrRef spec6 7)
abbrev wOut6 (c : Dev nD) : Cert.Gcn.Mat 64 1 := V c (Pipeline.arrRef spec6 8)
abbrev biasOut6 (c : Dev nD) : Cert.Gcn.Mat 1 1 := V c (Pipeline.arrRef spec6 9)

/-- The classifier head as one function of those ten arrays. -/
abbrev headOut6 (c : Dev nD) : S1024x1.Idx → EReal :=
  Cert.Gcn.head (sumA6 V c) (cntA6 V c) (sumB6 V c) (cntB6 V c) (wA6 V c) (wB6 V c) (wC6 V c) (biasH6 V c) (wOut6 V c) (biasOut6 V c)

/-! Every window's block index is zero on both axes at the grid's one point: each block is its whole array. -/
theorem blockIdx6_0 : ∀ (t : Fin cfg6.N) (a : Fin 2), win6_0.index t a = 0 :=
  (by decide +kernel : ∀ (t : Fin grid6.N) (a : Fin 2), _)
theorem blockIdx6_1 : ∀ (t : Fin cfg6.N) (a : Fin 2), win6_1.index t a = 0 :=
  (by decide +kernel : ∀ (t : Fin grid6.N) (a : Fin 2), _)
theorem blockIdx6_2 : ∀ (t : Fin cfg6.N) (a : Fin 2), win6_2.index t a = 0 :=
  (by decide +kernel : ∀ (t : Fin grid6.N) (a : Fin 2), _)
theorem blockIdx6_3 : ∀ (t : Fin cfg6.N) (a : Fin 2), win6_3.index t a = 0 :=
  (by decide +kernel : ∀ (t : Fin grid6.N) (a : Fin 2), _)
theorem blockIdx6_4 : ∀ (t : Fin cfg6.N) (a : Fin 2), win6_4.index t a = 0 :=
  (by decide +kernel : ∀ (t : Fin grid6.N) (a : Fin 2), _)
theorem blockIdx6_5 : ∀ (t : Fin cfg6.N) (a : Fin 2), win6_5.index t a = 0 :=
  (by decide +kernel : ∀ (t : Fin grid6.N) (a : Fin 2), _)
theorem blockIdx6_6 : ∀ (t : Fin cfg6.N) (a : Fin 2), win6_6.index t a = 0 :=
  (by decide +kernel : ∀ (t : Fin grid6.N) (a : Fin 2), _)
theorem blockIdx6_7 : ∀ (t : Fin cfg6.N) (a : Fin 2), win6_7.index t a = 0 :=
  (by decide +kernel : ∀ (t : Fin grid6.N) (a : Fin 2), _)
theorem blockIdx6_8 : ∀ (t : Fin cfg6.N) (a : Fin 2), win6_8.index t a = 0 :=
  (by decide +kernel : ∀ (t : Fin grid6.N) (a : Fin 2), _)
theorem blockIdx6_9 : ∀ (t : Fin cfg6.N) (a : Fin 2), win6_9.index t a = 0 :=
  (by decide +kernel : ∀ (t : Fin grid6.N) (a : Fin 2), _)
theorem blockIdx6_10 : ∀ (t : Fin cfg6.N) (a : Fin 2), win6_10.index t a = 0 :=
  (by decide +kernel : ∀ (t : Fin grid6.N) (a : Fin 2), _)

/-! So an entry of a block sits at the same coordinates in its array. -/
theorem whole6_0 (t : Fin cfg6.N) (y : S1024x64.Idx) : ((cfg6.win 0).blk t).view.emb y = y := by
  have e0 := blockIdx6_0 t 0
  have e1 := blockIdx6_0 t 1
  funext a; apply Fin.ext
  match a with
  | ⟨0, _⟩ => show win6_0.index t (0 : Fin 2) * 1024 + 1 * (y 0).val = (y 0).val; omega
  | ⟨1, _⟩ => show win6_0.index t (1 : Fin 2) * 64 + 1 * (y 1).val = (y 1).val; omega
theorem whole6_1 (t : Fin cfg6.N) (y : S1024x1.Idx) : ((cfg6.win 1).blk t).view.emb y = y := by
  have e0 := blockIdx6_1 t 0
  have e1 := blockIdx6_1 t 1
  funext a; apply Fin.ext
  match a with
  | ⟨0, _⟩ => show win6_1.index t (0 : Fin 2) * 1024 + 1 * (y 0).val = (y 0).val; omega
  | ⟨1, _⟩ => show win6_1.index t (1 : Fin 2) * 1 + 1 * (y 1).val = (y 1).val; omega
theorem whole6_2 (t : Fin cfg6.N) (y : S1024x64.Idx) : ((cfg6.win 2).blk t).view.emb y = y := by
  have e0 := blockIdx6_2 t 0
  have e1 := blockIdx6_2 t 1
  funext a; apply Fin.ext
  match a with
  | ⟨0, _⟩ => show win6_2.index t (0 : Fin 2) * 1024 + 1 * (y 0).val = (y 0).val; omega
  | ⟨1, _⟩ => show win6_2.index t (1 : Fin 2) * 64 + 1 * (y 1).val = (y 1).val; omega
theorem whole6_3 (t : Fin cfg6.N) (y : S1024x1.Idx) : ((cfg6.win 3).blk t).view.emb y = y := by
  have e0 := blockIdx6_3 t 0
  have e1 := blockIdx6_3 t 1
  funext a; apply Fin.ext
  match a with
  | ⟨0, _⟩ => show win6_3.index t (0 : Fin 2) * 1024 + 1 * (y 0).val = (y 0).val; omega
  | ⟨1, _⟩ => show win6_3.index t (1 : Fin 2) * 1 + 1 * (y 1).val = (y 1).val; omega
theorem whole6_4 (t : Fin cfg6.N) (y : S64x64.Idx) : ((cfg6.win 4).blk t).view.emb y = y := by
  have e0 := blockIdx6_4 t 0
  have e1 := blockIdx6_4 t 1
  funext a; apply Fin.ext
  match a with
  | ⟨0, _⟩ => show win6_4.index t (0 : Fin 2) * 64 + 1 * (y 0).val = (y 0).val; omega
  | ⟨1, _⟩ => show win6_4.index t (1 : Fin 2) * 64 + 1 * (y 1).val = (y 1).val; omega
theorem whole6_5 (t : Fin cfg6.N) (y : S64x64.Idx) : ((cfg6.win 5).blk t).view.emb y = y := by
  have e0 := blockIdx6_5 t 0
  have e1 := blockIdx6_5 t 1
  funext a; apply Fin.ext
  match a with
  | ⟨0, _⟩ => show win6_5.index t (0 : Fin 2) * 64 + 1 * (y 0).val = (y 0).val; omega
  | ⟨1, _⟩ => show win6_5.index t (1 : Fin 2) * 64 + 1 * (y 1).val = (y 1).val; omega
theorem whole6_6 (t : Fin cfg6.N) (y : S64x64.Idx) : ((cfg6.win 6).blk t).view.emb y = y := by
  have e0 := blockIdx6_6 t 0
  have e1 := blockIdx6_6 t 1
  funext a; apply Fin.ext
  match a with
  | ⟨0, _⟩ => show win6_6.index t (0 : Fin 2) * 64 + 1 * (y 0).val = (y 0).val; omega
  | ⟨1, _⟩ => show win6_6.index t (1 : Fin 2) * 64 + 1 * (y 1).val = (y 1).val; omega
theorem whole6_7 (t : Fin cfg6.N) (y : S1x64.Idx) : ((cfg6.win 7).blk t).view.emb y = y := by
  have e0 := blockIdx6_7 t 0
  have e1 := blockIdx6_7 t 1
  funext a; apply Fin.ext
  match a with
  | ⟨0, _⟩ => show win6_7.index t (0 : Fin 2) * 1 + 1 * (y 0).val = (y 0).val; omega
  | ⟨1, _⟩ => show win6_7.index t (1 : Fin 2) * 64 + 1 * (y 1).val = (y 1).val; omega
theorem whole6_8 (t : Fin cfg6.N) (y : S64x1.Idx) : ((cfg6.win 8).blk t).view.emb y = y := by
  have e0 := blockIdx6_8 t 0
  have e1 := blockIdx6_8 t 1
  funext a; apply Fin.ext
  match a with
  | ⟨0, _⟩ => show win6_8.index t (0 : Fin 2) * 64 + 1 * (y 0).val = (y 0).val; omega
  | ⟨1, _⟩ => show win6_8.index t (1 : Fin 2) * 1 + 1 * (y 1).val = (y 1).val; omega
theorem whole6_9 (t : Fin cfg6.N) (y : S1x1.Idx) : ((cfg6.win 9).blk t).view.emb y = y := by
  have e0 := blockIdx6_9 t 0
  have e1 := blockIdx6_9 t 1
  funext a; apply Fin.ext
  match a with
  | ⟨0, _⟩ => show win6_9.index t (0 : Fin 2) * 1 + 1 * (y 0).val = (y 0).val; omega
  | ⟨1, _⟩ => show win6_9.index t (1 : Fin 2) * 1 + 1 * (y 1).val = (y 1).val; omega
theorem whole6_10 (t : Fin cfg6.N) (y : S1024x1.Idx) : ((cfg6.win 10).blk t).view.emb y = y := by
  have e0 := blockIdx6_10 t 0
  have e1 := blockIdx6_10 t 1
  funext a; apply Fin.ext
  match a with
  | ⟨0, _⟩ => show win6_10.index t (0 : Fin 2) * 1024 + 1 * (y 0).val = (y 0).val; omega
  | ⟨1, _⟩ => show win6_10.index t (1 : Fin 2) * 1 + 1 * (y 1).val = (y 1).val; omega

/-! And each input block is its array. -/
theorem blk6_0 (c : Dev nD) (t : Fin cfg6.N) : iblk6 V c 0 t = sumA6 V c := by
  funext y
  show sumA6 V c (((cfg6.win 0).blk t).view.emb y) = sumA6 V c y
  rw [whole6_0]
theorem blk6_1 (c : Dev nD) (t : Fin cfg6.N) : iblk6 V c 1 t = cntA6 V c := by
  funext y
  show cntA6 V c (((cfg6.win 1).blk t).view.emb y) = cntA6 V c y
  rw [whole6_1]
theorem blk6_2 (c : Dev nD) (t : Fin cfg6.N) : iblk6 V c 2 t = sumB6 V c := by
  funext y
  show sumB6 V c (((cfg6.win 2).blk t).view.emb y) = sumB6 V c y
  rw [whole6_2]
theorem blk6_3 (c : Dev nD) (t : Fin cfg6.N) : iblk6 V c 3 t = cntB6 V c := by
  funext y
  show cntB6 V c (((cfg6.win 3).blk t).view.emb y) = cntB6 V c y
  rw [whole6_3]
theorem blk6_4 (c : Dev nD) (t : Fin cfg6.N) : iblk6 V c 4 t = wA6 V c := by
  funext y
  show wA6 V c (((cfg6.win 4).blk t).view.emb y) = wA6 V c y
  rw [whole6_4]
theorem blk6_5 (c : Dev nD) (t : Fin cfg6.N) : iblk6 V c 5 t = wB6 V c := by
  funext y
  show wB6 V c (((cfg6.win 5).blk t).view.emb y) = wB6 V c y
  rw [whole6_5]
theorem blk6_6 (c : Dev nD) (t : Fin cfg6.N) : iblk6 V c 6 t = wC6 V c := by
  funext y
  show wC6 V c (((cfg6.win 6).blk t).view.emb y) = wC6 V c y
  rw [whole6_6]
theorem blk6_7 (c : Dev nD) (t : Fin cfg6.N) : iblk6 V c 7 t = biasH6 V c := by
  funext y
  show biasH6 V c (((cfg6.win 7).blk t).view.emb y) = biasH6 V c y
  rw [whole6_7]
theorem blk6_8 (c : Dev nD) (t : Fin cfg6.N) : iblk6 V c 8 t = wOut6 V c := by
  funext y
  show wOut6 V c (((cfg6.win 8).blk t).view.emb y) = wOut6 V c y
  rw [whole6_8]
theorem blk6_9 (c : Dev nD) (t : Fin cfg6.N) : iblk6 V c 9 t = biasOut6 V c := by
  funext y
  show biasOut6 V c (((cfg6.win 9).blk t).view.emb y) = biasOut6 V c y
  rw [whole6_9]

/-- What the one point writes back is the classifier head of the ten arrays, read through the point's block. -/
theorem flushed6_eq (c : Dev nD) (t : Fin cfg6.N) :
    (dat6 (F := Ideal) V c).flushed 10 t = ((cfg6.win 10).blk t).view.read (Elt Ideal) (headOut6 V c) := by
  show (cfg6.win 10).cut (grid6.coords t) ((dat6 V c).after 10 t) = _
  rw [after6_10]
  unfold out6_10
  rw [View.canon_unit_zero zeroOffsets6]
  simp only [View.ld_unit_zero (S := S1024x64) zeroOffsets6, View.ld_unit_zero (S := S1024x1) zeroOffsets6,
    View.ld_unit_zero (S := S64x64) zeroOffsets6, View.ld_unit_zero (S := S1x64) zeroOffsets6,
    View.ld_unit_zero (S := S64x1) zeroOffsets6, View.ld_unit_zero (S := S1x1) zeroOffsets6]
  funext j
  obtain ⟨r, z, rfl⟩ : ∃ (r : Fin 1024) (z : Fin 1), j = ix2 r z := ⟨j 0, j 1, eq_ix2 j⟩
  obtain rfl : z = 0 := Subsingleton.elim z 0
  refine (body6_apply _ _ _ _ _ _ _ _ _ _ r).trans ?_
  rw [blk6_0, blk6_1, blk6_2, blk6_3, blk6_4, blk6_5, blk6_6, blk6_7, blk6_8, blk6_9]
  show _ = headOut6 V c (((cfg6.win 10).blk t).view.emb (ix2 r (0 : Fin 1)))
  rw [whole6_10]

/-- An index of the result array lies in point `t`'s block iff each coordinate lies in the block's range. -/
theorem mem_blk6 (t : Fin cfg6.N) (i : S1024x1.Idx) :
    i ∈ ((cfg6.win 10).blk t).view.set ↔ ∀ a : Fin 2, win6_10.index t a * S1024x1.size a ≤ (i a).val
      ∧ (i a).val < win6_10.index t a * S1024x1.size a + S1024x1.size a := by
  show i ∈ ((View.whole main_v103).slice (win6_10.rect t)).set ↔ _
  rw [View.set_slice_whole, Rect.mem_set_unit]
  exact Iff.rfl

/-- The one point's block is the whole result array. -/
theorem cover6 (i : S1024x1.Idx) :
    ∃ t : Fin cfg6.N, (cfg6.win 10).flush t = true ∧ i ∈ ((cfg6.win 10).blk t).view.set := by
  have hi0 : (i 0).val < 1024 := (i 0).isLt
  have hi1 : (i 1).val < 1 := (i 1).isLt
  have e0 := blockIdx6_10 t6_0 0
  have e1 := blockIdx6_10 t6_0 1
  refine ⟨t6_0, flush6_10 t6_0, ?_⟩
  rw [mem_blk6]
  intro a
  match a with
  | ⟨0, _⟩ =>
    show win6_10.index t6_0 (0 : Fin 2) * 1024 ≤ (i 0).val ∧ (i 0).val < win6_10.index t6_0 (0 : Fin 2) * 1024 + 1024
    omega
  | ⟨1, _⟩ =>
    show win6_10.index t6_0 (1 : Fin 2) * 1 ≤ (i 1).val ∧ (i 1).val < win6_10.index t6_0 (1 : Fin 2) * 1 + 1
    omega

/-- The result array after the region: the classifier head of the ten arrays the region finds. -/
theorem arr6 (c : Dev nD) :
    (dat6 (F := Ideal) V c).arrAt 10 cfg6.N
      = Cert.Gcn.head (V c (Pipeline.arrRef spec6 0)) (V c (Pipeline.arrRef spec6 1)) (V c (Pipeline.arrRef spec6 2)) (V c (Pipeline.arrRef spec6 3)) (V c (Pipeline.arrRef spec6 4))
          (V c (Pipeline.arrRef spec6 5)) (V c (Pipeline.arrRef spec6 6)) (V c (Pipeline.arrRef spec6 7)) (V c (Pipeline.arrRef spec6 8)) (V c (Pipeline.arrRef spec6 9)) :=
  (dat6 V c).arrAt_eq_of_cover 10 (headOut6 V c) (fun t _ => flushed6_eq V c t) cover6

end Cert.KernelIdeal.RegionValue

end
-- ==== Proof.KernelValue2.lean ====
/-
  The first program's run walked forward through the second graph — the same steps as for the first — then the pooled
  sums and node counts of both graphs, the row blocks of the classifier's first weight matrix and the small reshapes,
  the head, and the result buffer at the end of the run: `outK` of the arguments.
-/
import proofs.«169936_j65317862637645_2_alg».proof.Proof.KernelValue1
import proofs.«169936_j65317862637645_2_alg».proof.Proof.Region3
import proofs.«169936_j65317862637645_2_alg».proof.Proof.Region4
import proofs.«169936_j65317862637645_2_alg».proof.Proof.Region5
import proofs.«169936_j65317862637645_2_alg».proof.Proof.Region6

set_option maxRecDepth 16384
set_option maxHeartbeats 1600000

noncomputable section

namespace Cert.KernelIdeal.Gen

open Idealize.ShloMosaic Idealize.ShloMosaic.TcCoe Idealize.ShloMosaic.Tactic Idealize.ShloMosaic.StableHlo
open Idealize.SL Idealize.SL.Sem
open Cert.Gcn Cert.KernelIdeal.Reads Cert.KernelIdeal.RegionValue

variable (m : (ℓ : Loc nD τ sig) → Buf (Elt Ideal) ℓ) (ρ : Dev nD → PrngReg) (c : Dev nD)

/-! ## The second graph's convolution -/

/-! ### Graph 2: rows of the edge list, the degree, the first product -/

theorem v49_at7 : W7 m ρ c (Proc.devRef .tc main_v49) = srcT (m ((c : Thread nD τ).loc main_arg4)) := by
  show StableHlo.after hostOps3 (W6 m ρ c) (Proc.devRef .tc main_v49) = _
  after_results
  rw [at6 m ρ c main_arg4 (by decide)]
  rfl

theorem v51_at7 : W7 m ρ c (Proc.devRef .tc main_v51) = dstT (m ((c : Thread nD τ).loc main_arg4)) := by
  show StableHlo.after hostOps3 (W6 m ρ c) (Proc.devRef .tc main_v51) = _
  after_results
  rw [at6 m ρ c main_arg4 (by decide)]
  rfl

theorem v58_at7 : W7 m ρ c (Proc.devRef .tc main_v58) = dinvT (m ((c : Thread nD τ).loc main_arg4)) := by
  show StableHlo.after hostOps3 (W6 m ρ c) (Proc.devRef .tc main_v58) = _
  after_results
  rw [at6 m ρ c main_arg4 (by decide)]
  rfl

theorem v59_at7 : W7 m ρ c (Proc.devRef .tc main_v59) = (graphOf (m ((c : Thread nD τ).loc main_arg4))).dcol :=
  (show W7 m ρ c (Proc.devRef .tc main_v59) = shapeCast S100000x1 (dinvT (m ((c : Thread nD τ).loc main_arg4))) Facts₀.shapeCasts_S100000_S100000x1 from by
    show StableHlo.after hostOps3 (W6 m ρ c) (Proc.devRef .tc main_v59) = _
    after_results
    rw [at6 m ρ c main_arg4 (by decide)]
    rfl).trans (dcolT_eq _)

theorem v49_at8 : W8 m ρ c (Proc.devRef .tc main_v49) = srcT (m ((c : Thread nD τ).loc main_arg4)) :=
  ((List.forall_iff_forall_mem.mp (keep8 m ρ c)) main_v49 (by decide)).trans (v49_at7 m ρ c)

theorem v51_at8 : W8 m ρ c (Proc.devRef .tc main_v51) = dstT (m ((c : Thread nD τ).loc main_arg4)) :=
  ((List.forall_iff_forall_mem.mp (keep8 m ρ c)) main_v51 (by decide)).trans (v51_at7 m ρ c)

theorem v58_at8 : W8 m ρ c (Proc.devRef .tc main_v58) = dinvT (m ((c : Thread nD τ).loc main_arg4)) :=
  ((List.forall_iff_forall_mem.mp (keep8 m ρ c)) main_v58 (by decide)).trans (v58_at7 m ρ c)

theorem v60_at8 : W8 m ρ c (Proc.devRef .tc main_v60) = (scaleMM (m ((c : Thread nD τ).loc main_arg3)) (m ((c : Thread nD τ).loc main_arg6)) (graphOf (m ((c : Thread nD τ).loc main_arg4))).dcol) :=
  (W8_arr m ρ c 3).trans ((arr3 (V7 m ρ) c).trans
    (congr (congr (congrArg scaleMM (at7 m ρ c main_arg3 (by decide))) (at7 m ρ c main_arg6 (by decide))) (v59_at7 m ρ c)))

/-! ### Graph 2: the neighbours' rows summed, the first layer closed and the second product -/

theorem v49_at9 : W9 m ρ c (Proc.devRef .tc main_v49) = srcT (m ((c : Thread nD τ).loc main_arg4)) :=
  ((List.forall_iff_forall_mem.mp (keep9 m ρ c)) main_v49 (by decide)).trans (v49_at8 m ρ c)

theorem v51_at9 : W9 m ρ c (Proc.devRef .tc main_v51) = dstT (m ((c : Thread nD τ).loc main_arg4)) :=
  ((List.forall_iff_forall_mem.mp (keep9 m ρ c)) main_v51 (by decide)).trans (v51_at8 m ρ c)

theorem v58_at9 : W9 m ρ c (Proc.devRef .tc main_v58) = dinvT (m ((c : Thread nD τ).loc main_arg4)) :=
  ((List.forall_iff_forall_mem.mp (keep9 m ρ c)) main_v58 (by decide)).trans (v58_at8 m ρ c)

theorem v60_at9 : W9 m ρ c (Proc.devRef .tc main_v60) = (scaleMM (m ((c : Thread nD τ).loc main_arg3)) (m ((c : Thread nD τ).loc main_arg6)) (graphOf (m ((c : Thread nD τ).loc main_arg4))).dcol) :=
  ((List.forall_iff_forall_mem.mp (keep9 m ρ c)) main_v60 (by decide)).trans (v60_at8 m ρ c)

theorem v71_at9 : W9 m ρ c (Proc.devRef .tc main_v71) = (graphOf (m ((c : Thread nD τ).loc main_arg4))).nbrSum (scaleMM (m ((c : Thread nD τ).loc main_arg3)) (m ((c : Thread nD τ).loc main_arg6)) (graphOf (m ((c : Thread nD τ).loc main_arg4))).dcol) :=
  (show W9 m ρ c (Proc.devRef .tc main_v71) = nbrT (m ((c : Thread nD τ).loc main_arg4)) (scaleMM (m ((c : Thread nD τ).loc main_arg3)) (m ((c : Thread nD τ).loc main_arg6)) (graphOf (m ((c : Thread nD τ).loc main_arg4))).dcol) from by
    show StableHlo.after hostOps4 (W8 m ρ c) (Proc.devRef .tc main_v71) = _
    after_results_simp
    rw [v49_at8 m ρ c, v51_at8 m ρ c, v60_at8 m ρ c]
    rfl).trans (nbrT_eq _ _)

theorem v72_at9 : W9 m ρ c (Proc.devRef .tc main_v72) = (graphOf (m ((c : Thread nD τ).loc main_arg4))).dcol :=
  (show W9 m ρ c (Proc.devRef .tc main_v72) = shapeCast S100000x1 (dinvT (m ((c : Thread nD τ).loc main_arg4))) Facts₀.shapeCasts_S100000_S100000x1 from by
    show StableHlo.after hostOps4 (W8 m ρ c) (Proc.devRef .tc main_v72) = _
    after_results
    rw [v58_at8 m ρ c]
    rfl).trans (dcolT_eq _)

theorem v73_at9 : W9 m ρ c (Proc.devRef .tc main_v73) = asRow (m ((c : Thread nD τ).loc main_arg7)) :=
  (show W9 m ρ c (Proc.devRef .tc main_v73) = shapeCast S1x64 (m ((c : Thread nD τ).loc main_arg7)) Facts₀.shapeCasts_S64_S1x64 from by
    show StableHlo.after hostOps4 (W8 m ρ c) (Proc.devRef .tc main_v73) = _
    after_results
    rw [at8 m ρ c main_arg7 (by decide)]
    rfl).trans (asRow64_eq _)

theorem v49_at10 : W10 m ρ c (Proc.devRef .tc main_v49) = srcT (m ((c : Thread nD τ).loc main_arg4)) :=
  ((List.forall_iff_forall_mem.mp (keep10 m ρ c)) main_v49 (by decide)).trans (v49_at9 m ρ c)

theorem v51_at10 : W10 m ρ c (Proc.devRef .tc main_v51) = dstT (m ((c : Thread nD τ).loc main_arg4)) :=
  ((List.forall_iff_forall_mem.mp (keep10 m ρ c)) main_v51 (by decide)).trans (v51_at9 m ρ c)

theorem v58_at10 : W10 m ρ c (Proc.devRef .tc main_v58) = dinvT (m ((c : Thread nD τ).loc main_arg4)) :=
  ((List.forall_iff_forall_mem.mp (keep10 m ρ c)) main_v58 (by decide)).trans (v58_at9 m ρ c)

theorem v74_at10 : W10 m ρ c (Proc.devRef .tc main_v74) = (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol) :=
  (W10_arr m ρ c 5).trans ((arr4 (V9 m ρ) c).trans
    (congr (congr (congrArg scaleMM (congr (congr (congr (congrArg combine (v71_at9 m ρ c)) (v60_at9 m ρ c)) (v72_at9 m ρ c)) (v73_at9 m ρ c)))
      (at9 m ρ c main_arg8 (by decide))) (v72_at9 m ρ c)))

/-! ### Graph 2: the second layer closed -/

theorem v74_at11 : W11 m ρ c (Proc.devRef .tc main_v74) = (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol) :=
  ((List.forall_iff_forall_mem.mp (keep11 m ρ c)) main_v74 (by decide)).trans (v74_at10 m ρ c)

theorem v85_at11 : W11 m ρ c (Proc.devRef .tc main_v85) = (graphOf (m ((c : Thread nD τ).loc main_arg4))).nbrSum (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol) :=
  (show W11 m ρ c (Proc.devRef .tc main_v85) = nbrT (m ((c : Thread nD τ).loc main_arg4)) (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol) from by
    show StableHlo.after hostOps5 (W10 m ρ c) (Proc.devRef .tc main_v85) = _
    after_results_simp
    rw [v49_at10 m ρ c, v51_at10 m ρ c, v74_at10 m ρ c]
    rfl).trans (nbrT_eq _ _)

theorem v86_at11 : W11 m ρ c (Proc.devRef .tc main_v86) = (graphOf (m ((c : Thread nD τ).loc main_arg4))).dcol :=
  (show W11 m ρ c (Proc.devRef .tc main_v86) = shapeCast S100000x1 (dinvT (m ((c : Thread nD τ).loc main_arg4))) Facts₀.shapeCasts_S100000_S100000x1 from by
    show StableHlo.after hostOps5 (W10 m ρ c) (Proc.devRef .tc main_v86) = _
    after_results
    rw [v58_at10 m ρ c]
    rfl).trans (dcolT_eq _)

theorem v87_at11 : W11 m ρ c (Proc.devRef .tc main_v87) = asRow (m ((c : Thread nD τ).loc main_arg9)) :=
  (show W11 m ρ c (Proc.devRef .tc main_v87) = shapeCast S1x64 (m ((c : Thread nD τ).loc main_arg9)) Facts₀.shapeCasts_S64_S1x64 from by
    show StableHlo.after hostOps5 (W10 m ρ c) (Proc.devRef .tc main_v87) = _
    after_results
    rw [at10 m ρ c main_arg9 (by decide)]
    rfl).trans (asRow64_eq _)

theorem v88_at12 : W12 m ρ c (Proc.devRef .tc main_v88) = (combine ((graphOf (m ((c : Thread nD τ).loc main_arg4))).nbrSum (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol)) (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol) (graphOf (m ((c : Thread nD τ).loc main_arg4))).dcol (asRow (m ((c : Thread nD τ).loc main_arg9)))) :=
  (W12_arr m ρ c 4).trans ((arr5 (V11 m ρ) c).trans
    (congr (congr (congr (congrArg combine (v85_at11 m ρ c)) (v74_at11 m ρ c)) (v86_at11 m ρ c)) (v87_at11 m ρ c)))

/-! ## Pooling, the head's small operands, the head -/

theorem v91_at13 : W13 m ρ c (Proc.devRef .tc main_v91) = (pool (G := 1024) (batchOf (m ((c : Thread nD τ).loc main_arg5))) (combine ((graphOf (m ((c : Thread nD τ).loc main_arg4))).nbrSum (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol)) (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol) (graphOf (m ((c : Thread nD τ).loc main_arg4))).dcol (asRow (m ((c : Thread nD τ).loc main_arg9))))) :=
  (show W13 m ρ c (Proc.devRef .tc main_v91) = (Host.scatterAdd scatter_S1024x64_S100000x1_S100000x64_1_0_0_1 (broadcastInDim S1024x64 ![] Facts₀.bcast_S_S1024x64 (constant (F := Ideal) S_ .f32 0x00000000#32)) (broadcastInDim S100000x1 ![0] Facts₀.bcast_S100000_S100000x1_0 (m ((c : Thread nD τ).loc main_arg5))) ((combine ((graphOf (m ((c : Thread nD τ).loc main_arg4))).nbrSum (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol)) (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol) (graphOf (m ((c : Thread nD τ).loc main_arg4))).dcol (asRow (m ((c : Thread nD τ).loc main_arg9)))) : FVec Ideal S100000x64 .f32) : S1024x64.Idx → EReal) from by
    show StableHlo.after hostOps6 (W12 m ρ c) (Proc.devRef .tc main_v91) = _
    after_results_simp
    rw [at12 m ρ c main_arg5 (by decide), v88_at12 m ρ c]).trans (poolT_eq _ _)

theorem v99_at13 : W13 m ρ c (Proc.devRef .tc main_v99) = (count (G := 1024) (batchOf (m ((c : Thread nD τ).loc main_arg2)))) :=
  (show W13 m ρ c (Proc.devRef .tc main_v99) = shapeCast S1024x1 (Host.scatterAdd scatter_S1024_S100000x1_S100000_n_0_0_1 (broadcastInDim S1024 ![] Facts₀.bcast_S_S1024 (constant (F := Ideal) S_ .f32 0x00000000#32)) (broadcastInDim S100000x1 ![0] Facts₀.bcast_S100000_S100000x1_0 (m ((c : Thread nD τ).loc main_arg2))) (broadcastInDim S100000 ![] Facts₀.bcast_S_S100000 (constant (F := Ideal) S_ .f32 0x3F800000#32)) : FVec Ideal S1024 .f32) Facts₀.shapeCasts_S1024_S1024x1 from by
    show StableHlo.after hostOps6 (W12 m ρ c) (Proc.devRef .tc main_v99) = _
    after_results
    rw [v47_at12 m ρ c]
    rfl).trans (countT_eq _)

theorem v100_at13 : W13 m ρ c (Proc.devRef .tc main_v100) = (count (G := 1024) (batchOf (m ((c : Thread nD τ).loc main_arg5)))) :=
  (show W13 m ρ c (Proc.devRef .tc main_v100) = shapeCast S1024x1 (Host.scatterAdd scatter_S1024_S100000x1_S100000_n_0_0_1 (broadcastInDim S1024 ![] Facts₀.bcast_S_S1024 (constant (F := Ideal) S_ .f32 0x00000000#32)) (broadcastInDim S100000x1 ![0] Facts₀.bcast_S100000_S100000x1_0 (m ((c : Thread nD τ).loc main_arg5))) (broadcastInDim S100000 ![] Facts₀.bcast_S_S100000 (constant (F := Ideal) S_ .f32 0x3F800000#32)) : FVec Ideal S1024 .f32) Facts₀.shapeCasts_S1024_S1024x1 from by
    show StableHlo.after hostOps6 (W12 m ρ c) (Proc.devRef .tc main_v100) = _
    after_results
    rw [at12 m ρ c main_arg5 (by decide)]
    rfl).trans (countT_eq _)

theorem v96_at13 : W13 m ρ c (Proc.devRef .tc main_v96) = (rowBlock (c := 64) 0 (by omega) (m ((c : Thread nD τ).loc main_arg10))) :=
  (show W13 m ρ c (Proc.devRef .tc main_v96) = (extractStridedSlice S64x64 ![0, 0] (m ((c : Thread nD τ).loc main_arg10)) Facts₀.slices_S192x64_S64x64_0_0 : S64x64.Idx → EReal) from by
    show StableHlo.after hostOps6 (W12 m ρ c) (Proc.devRef .tc main_v96) = _
    after_results
    rw [at12 m ρ c main_arg10 (by decide)]).trans (rowBlock0_eq _)

theorem v97_at13 : W13 m ρ c (Proc.devRef .tc main_v97) = (rowBlock (c := 64) 64 (by omega) (m ((c : Thread nD τ).loc main_arg10))) :=
  (show W13 m ρ c (Proc.devRef .tc main_v97) = (extractStridedSlice S64x64 ![64, 0] (m ((c : Thread nD τ).loc main_arg10)) Facts₀.slices_S192x64_S64x64_64_0 : S64x64.Idx → EReal) from by
    show StableHlo.after hostOps6 (W12 m ρ c) (Proc.devRef .tc main_v97) = _
    after_results
    rw [at12 m ρ c main_arg10 (by decide)]).trans (rowBlock1_eq _)

theorem v98_at13 : W13 m ρ c (Proc.devRef .tc main_v98) = (rowBlock (c := 64) (64 + 64) (by omega) (m ((c : Thread nD τ).loc main_arg10))) :=
  (show W13 m ρ c (Proc.devRef .tc main_v98) = (extractStridedSlice S64x64 ![128, 0] (m ((c : Thread nD τ).loc main_arg10)) Facts₀.slices_S192x64_S64x64_128_0 : S64x64.Idx → EReal) from by
    show StableHlo.after hostOps6 (W12 m ρ c) (Proc.devRef .tc main_v98) = _
    after_results
    rw [at12 m ρ c main_arg10 (by decide)]).trans (rowBlock2_eq _)

theorem v101_at13 : W13 m ρ c (Proc.devRef .tc main_v101) = asRow (m ((c : Thread nD τ).loc main_arg11)) :=
  (show W13 m ρ c (Proc.devRef .tc main_v101) = shapeCast S1x64 (m ((c : Thread nD τ).loc main_arg11)) Facts₀.shapeCasts_S64_S1x64 from by
    show StableHlo.after hostOps6 (W12 m ρ c) (Proc.devRef .tc main_v101) = _
    after_results
    rw [at12 m ρ c main_arg11 (by decide)]
    rfl).trans (asRow64_eq _)

theorem v102_at13 : W13 m ρ c (Proc.devRef .tc main_v102) = asRow (m ((c : Thread nD τ).loc main_arg13)) :=
  (show W13 m ρ c (Proc.devRef .tc main_v102) = shapeCast S1x1 (m ((c : Thread nD τ).loc main_arg13)) Facts₀.shapeCasts_S1_S1x1 from by
    show StableHlo.after hostOps6 (W12 m ρ c) (Proc.devRef .tc main_v102) = _
    after_results
    rw [at12 m ρ c main_arg13 (by decide)]
    rfl).trans (asRow1_eq _)

theorem v103_at14 : W14 m ρ c (Proc.devRef .tc main_v103) = (head (pool (G := 1024) (batchOf (m ((c : Thread nD τ).loc main_arg2))) (combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9))))) (count (G := 1024) (batchOf (m ((c : Thread nD τ).loc main_arg2)))) (pool (G := 1024) (batchOf (m ((c : Thread nD τ).loc main_arg5))) (combine ((graphOf (m ((c : Thread nD τ).loc main_arg4))).nbrSum (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol)) (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol) (graphOf (m ((c : Thread nD τ).loc main_arg4))).dcol (asRow (m ((c : Thread nD τ).loc main_arg9))))) (count (G := 1024) (batchOf (m ((c : Thread nD τ).loc main_arg5)))) (rowBlock (c := 64) 0 (by omega) (m ((c : Thread nD τ).loc main_arg10))) (rowBlock (c := 64) 64 (by omega) (m ((c : Thread nD τ).loc main_arg10))) (rowBlock (c := 64) (64 + 64) (by omega) (m ((c : Thread nD τ).loc main_arg10))) (asRow (m ((c : Thread nD τ).loc main_arg11))) (m ((c : Thread nD τ).loc main_arg12)) (asRow (m ((c : Thread nD τ).loc main_arg13)))) :=
  (W14_arr m ρ c 10).trans ((arr6 (V13 m ρ) c).trans
    (congr (congr (congr (congr (congr (congr (congr (congr (congr (congrArg head (v43_at13 m ρ c)) (v99_at13 m ρ c)) (v91_at13 m ρ c)) (v100_at13 m ρ c))
      (v96_at13 m ρ c)) (v97_at13 m ρ c)) (v98_at13 m ρ c)) (v101_at13 m ρ c)) (at13 m ρ c main_arg12 (by decide))) (v102_at13 m ρ c)))

/-- THE RESULT BUFFER at the end of the run. -/
theorem result_at_end : W15 m ρ c (Proc.devRef .tc main_v104)
    = outK (G := 1024) (graphOf (m ((c : Thread nD τ).loc main_arg1))) (graphOf (m ((c : Thread nD τ).loc main_arg4))) (batchOf (m ((c : Thread nD τ).loc main_arg2))) (batchOf (m ((c : Thread nD τ).loc main_arg5))) (m ((c : Thread nD τ).loc main_arg0)) (m ((c : Thread nD τ).loc main_arg3)) (m ((c : Thread nD τ).loc main_arg6)) (asRow (m ((c : Thread nD τ).loc main_arg7))) (m ((c : Thread nD τ).loc main_arg8)) (asRow (m ((c : Thread nD τ).loc main_arg9)))
        (m ((c : Thread nD τ).loc main_arg10)) (asRow (m ((c : Thread nD τ).loc main_arg11))) (m ((c : Thread nD τ).loc main_arg12)) (asRow (m ((c : Thread nD τ).loc main_arg13))) :=
  (show W15 m ρ c (Proc.devRef .tc main_v104) = shapeCast S1024 (head (pool (G := 1024) (batchOf (m ((c : Thread nD τ).loc main_arg2))) (combine ((graphOf (m ((c : Thread nD τ).loc main_arg1))).nbrSum (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol)) (scaleMM (combine ((graphOf (m ((c : Thread nD τ).loc main_arg1))).nbrSum (scaleMM (m ((c : Thread nD τ).loc main_arg0)) (m ((c : Thread nD τ).loc main_arg6)) (graphOf (m ((c : Thread nD τ).loc main_arg1))).dcol)) (scaleMM (m ((c : Thread nD τ).loc main_arg0)) (m ((c : Thread nD τ).loc main_arg6)) (graphOf (m ((c : Thread nD τ).loc main_arg1))).dcol) (graphOf (m ((c : Thread nD τ).loc main_arg1))).dcol (asRow (m ((c : Thread nD τ).loc main_arg7)))) (m ((c : Thread nD τ).loc main_arg8)) (graphOf (m ((c : Thread nD τ).loc main_arg1))).dcol) (graphOf (m ((c : Thread nD τ).loc main_arg1))).dcol (asRow (m ((c : Thread nD τ).loc main_arg9))))) (count (G := 1024) (batchOf (m ((c : Thread nD τ).loc main_arg2)))) (pool (G := 1024) (batchOf (m ((c : Thread nD τ).loc main_arg5))) (combine ((graphOf (m ((c : Thread nD τ).loc main_arg4))).nbrSum (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol)) (scaleMM (combine ((graphOf (m ((c : Thread nD τ).loc main_arg4))).nbrSum (scaleMM (m ((c : Thread nD τ).loc main_arg3)) (m ((c : Thread nD τ).loc main_arg6)) (graphOf (m ((c : Thread nD τ).loc main_arg4))).dcol)) (scaleMM (m ((c : Thread nD τ).loc main_arg3)) (m ((c : Thread nD τ).loc main_arg6)) (graphOf (m ((c : Thread nD τ).loc main_arg4))).dcol) (graphOf (m ((c : Thread nD τ).loc main_arg4))).dcol (asRow (m ((c : Thread nD τ).loc main_arg7)))) (m ((c : Thread nD τ).loc main_arg8)) (graphOf (m ((c : Thread nD τ).loc main_arg4))).dcol) (graphOf (m ((c : Thread nD τ).loc main_arg4))).dcol (asRow (m ((c : Thread nD τ).loc main_arg9))))) (count (G := 1024) (batchOf (m ((c : Thread nD τ).loc main_arg5)))) (rowBlock (c := 64) 0 (by omega) (m ((c : Thread nD τ).loc main_arg10))) (rowBlock (c := 64) 64 (by omega) (m ((c : Thread nD τ).loc main_arg10))) (rowBlock (c := 64) (64 + 64) (by omega) (m ((c : Thread nD τ).loc main_arg10))) (asRow (m ((c : Thread nD τ).loc main_arg11))) (m ((c : Thread nD τ).loc main_arg12)) (asRow (m ((c : Thread nD τ).loc main_arg13)))) Facts₀.shapeCasts_S1024x1_S1024 from by
    show StableHlo.after hostOps7 (W14 m ρ c) (Proc.devRef .tc main_v104) = _
    after_results
    rw [v103_at14 m ρ c]
    rfl).trans (asVec_eq _)

end Cert.KernelIdeal.Gen

end
-- ==== Proof.LibGatherElems.lean ====
/-
  A gather of single ELEMENTS of a rank-1 array, read at an index.

  The operand is an [N] array and the start indices an [E, 1] array of integers; the result is the [E] array whose
  element e is the operand's element idx[e, 0], the index read as a signed integer and clamped into [0, N - 1].
-/
import Idealize.ShloMosaic.PureOps.ShapeOps
import Idealize.ShloMosaic.Lib.ValueIdx

noncomputable section

namespace Idealize.ShloMosaic.GatherElems

open Idealize.ShloMosaic Idealize.ShloMosaic.ValueIdx

/-- The dimension numbers of an element gather: no offset axis, the operand's one axis collapsed and addressed by the
    start index, the index vector the start indices' axis 1 (of extent one), a slice one element. -/
abbrev elemsDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable {α : Type} {N E w : Nat} (wf : GatherDims.WF ⟨1, ![N]⟩ ⟨2, ![E, 1]⟩ ⟨1, ![E]⟩ [] [0] [] [0] [] 1 ![1])

/-- THE ELEMENT GATHER READ AT e: the operand at idx[e, 0], read signed and clamped into [0, N - 1]. -/
theorem gather_apply (hN : 0 < N) (x : (⟨1, ![N]⟩ : Shape).Idx → α) (idx : IVec ⟨2, ![E, 1]⟩ w) (e : Fin E) :
    Host.gather (elemsDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (elemsDims N E wf).start (ix1 e) idx 0 + (elemsDims N E wf).batchCoord (ix1 e) 0
      + (elemsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N E wf).startIndexMap from List.mem_singleton.mpr rfl)]
  have hsi : (elemsDims N E wf).siIdx (ix1 e) ⟨List.idxOf (0 : Fin 1) (elemsDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end Idealize.ShloMosaic.GatherElems

end
-- ==== Proof.RefConv1.lean ====
/-
  The two graph-convolution layers of the reference on the first graph, read as mathematics.

  Let g be the graph the edge list denotes on 100000 nodes: an edge's destination is its index read signed, its
  source the node a row lookup through its source index lands on (counted from the end when negative, then clamped).
  With deg r = #{e | dst e = r} + 1 and dinv r = (deg r)^(-1/2), one layer sends features a to
    max (Σ_{e : dst e = r} (dinv (src e) · dinv r) · a(src e, k) + (dinv r · dinv r) · a(r, k) + b k) 0,
  and the result proved here is two such layers, each after a plain matrix product with its weights (g.convR).

  The layer is computed by scatter-additions and lookups: the degree is a scatter-add of ones through the
  destination index counted from the end when negative; the two weights of an edge are lookups of dinv through its
  source and destination indices; the message is the looked-up source row times the weights; the messages are
  scatter-added through the destination index as it stands.  Every destination index is assumed nonnegative: the
  counted index is then the index itself, the degree counts exactly the edges into r, and the weight looked up
  through the destination of an edge into r is dinv r.

  Each scatter-add and lookup is first read at an index over arbitrary operands, then applied to the operands the
  layer feeds it; the layer itself is read at a coordinate pair (r, k).
-/
import proofs.«169936_j65317862637645_2_alg».proof.Proof.RefReadPatched
import proofs.«169936_j65317862637645_2_alg».proof.Proof.GraphSpec
import proofs.«169936_j65317862637645_2_alg».proof.Proof.LibScatterRows
import proofs.«169936_j65317862637645_2_alg».proof.Proof.LibScatterElems
import proofs.«169936_j65317862637645_2_alg».proof.Proof.LibGatherRows
import proofs.«169936_j65317862637645_2_alg».proof.Proof.LibGatherElems

noncomputable section

namespace Cert.RefConv1

open Cert.ReferenceIdeal Cert.ReferenceIdeal.Gen Cert.ReferenceIdeal.Read Idealize.ShloMosaic Idealize.ShloMosaic.ValueIdx Cert.Gcn

variable {x0 : (⟨S100000x128, .f32⟩ : BufTy).Contents (Elt Ideal)} {x1 : IVec S2x3200000 32}
  {x6 : (⟨S128x64, .f32⟩ : BufTy).Contents (Elt Ideal)} {x7 : (⟨S64, .f32⟩ : BufTy).Contents (Elt Ideal)}
  {x8 : (⟨S64x64, .f32⟩ : BufTy).Contents (Elt Ideal)} {x9 : (⟨S64, .f32⟩ : BufTy).Contents (Elt Ideal)}

/-- A nonnegative index is its own normal form. -/
theorem normIdx_of_nonneg (s : BitVec 32) (h : 0 ≤ s.toInt) : normIdx s = s := by
  unfold normIdx
  have h1 : IntOp.cmpi .slt s 0#32 = 0#1 := by
    unfold IntOp.cmpi
    have h2 : s.slt 0#32 = false := by
      rw [BitVec.slt_eq_decide]
      simpa using h
    simp [h2]
  rw [h1]
  rfl

/-- A nonnegative index that is a node's number, read as a row lookup reads it, is that node. -/
theorem clamp_of_eq (s : BitVec 32) (r : Fin 100000) (h : s.toInt = (r.val : ℤ)) :
    min (normIdx s).toInt.toNat (100000 - 1) = r.val := by
  rw [normIdx_of_nonneg s (by omega), h]
  have := r.isLt
  omega

/-- A vector as a one-row matrix, read at (0, k). -/
theorem asRow_apply {c : Nat} (b : (⟨1, ![c]⟩ : Shape).Idx → EReal) (k : Fin c) : asRow b (ix2 0 k) = b (ix1 k) := rfl

/-- An element scatter-add into an array that is zero at r reads there as the sum of the updates that land on r. -/
theorem scatterElems_zero {N E w : Nat} (wf : ScatterDims.WF ⟨1, ![N]⟩ ⟨2, ![E, 1]⟩ ⟨1, ![E]⟩ [] [0] [0] 1)
    (z : (⟨1, ![N]⟩ : Shape).Idx → EReal) (idx : IVec ⟨2, ![E, 1]⟩ w) (upd : (⟨1, ![E]⟩ : Shape).Idx → EReal)
    (r : Fin N) (hz : z (ix1 r) = 0) :
    Ideal.hostScatterAdd (ScatterElems.elemsDims N E wf) z idx upd (ix1 r)
      = ∑ e ∈ Finset.univ.filter (fun e : Fin E => (idx (ix2 e ⟨0, Nat.one_pos⟩)).toInt = (r.val : ℤ)), upd (ix1 e) := by
  rw [ScatterElems.hostScatterAdd_apply, hz, zero_add]

/-- A row scatter-add into an array that is zero at (r, k) reads there as the sum of column k of the rows that land on r. -/
theorem scatterRows_zero {N C E w : Nat} (wf : ScatterDims.WF ⟨2, ![N, C]⟩ ⟨2, ![E, 1]⟩ ⟨2, ![E, C]⟩ [1] [0] [0] 1)
    (z : (⟨2, ![N, C]⟩ : Shape).Idx → EReal) (idx : IVec ⟨2, ![E, 1]⟩ w) (upd : (⟨2, ![E, C]⟩ : Shape).Idx → EReal)
    (r : Fin N) (k : Fin C) (hz : z (ix2 r k) = 0) :
    Ideal.hostScatterAdd (ScatterRows.rowsDims N C E wf) z idx upd (ix2 r k)
      = ∑ e ∈ Finset.univ.filter (fun e : Fin E => (idx (ix2 e ⟨0, Nat.one_pos⟩)).toInt = (r.val : ℤ)), upd (ix2 e k) := by
  rw [ScatterRows.hostScatterAdd_apply, hz, zero_add]

/-- A sum over the indices selected by one test is the sum over those selected by an equivalent test of equal terms. -/
theorem sum_filter_congr {E : Nat} {p q : Fin E → Prop} [DecidablePred p] [DecidablePred q] (f g : Fin E → EReal)
    (hpq : ∀ e, p e ↔ q e) (hfg : ∀ e, q e → f e = g e) :
    ∑ e ∈ Finset.univ.filter p, f e = ∑ e ∈ Finset.univ.filter q, g e := by
  have hs : Finset.univ.filter p = Finset.univ.filter q := Finset.filter_congr fun e _ => hpq e
  rw [hs]
  exact Finset.sum_congr rfl fun e he => hfg e (Finset.mem_filter.mp he).2

/-- The element scatter-add of the program, over any operands, into an array that is zero at r. -/
theorem scatterElemsAt (z : FVec Ideal S100000 .f32) (idx : IVec S3200000x1 32) (upd : FVec Ideal S3200000 .f32)
    (r : Fin 100000) (hz : z (ix1 r) = 0) :
    Host.scatterAdd (F := Ideal) (φ := .f32) scatter_S100000_S3200000x1_S3200000_n_0_0_1 z idx upd (ix1 r)
      = ∑ e ∈ Finset.univ.filter (fun e : Fin 3200000 => (idx (ix2 e ⟨0, Nat.one_pos⟩)).toInt = (r.val : ℤ)),
          upd (ix1 e) := by
  have hrec : scatter_S100000_S3200000x1_S3200000_n_0_0_1
      = ScatterElems.elemsDims 100000 3200000 Cert.ReferenceIdeal.Facts₀.scatter_S100000_S3200000x1_S3200000_n_0_0_1_wf := rfl
  unfold Host.scatterAdd
  rw [Ideal.hostScatterAdd_def, hrec, scatterElems_zero _ _ _ _ r hz]

/-- The row scatter-add of the program, over any operands, into an array that is zero at (r, k). -/
theorem scatterRowsAt (z : FVec Ideal S100000x64 .f32) (idx : IVec S3200000x1 32) (upd : FVec Ideal S3200000x64 .f32)
    (r : Fin 100000) (k : Fin 64) (hz : z (ix2 r k) = 0) :
    Host.scatterAdd (F := Ideal) (φ := .f32) scatter_S100000x64_S3200000x1_S3200000x64_1_0_0_1 z idx upd (ix2 r k)
      = ∑ e ∈ Finset.univ.filter (fun e : Fin 3200000 => (idx (ix2 e ⟨0, Nat.one_pos⟩)).toInt = (r.val : ℤ)),
          upd (ix2 e k) := by
  have hrec : scatter_S100000x64_S3200000x1_S3200000x64_1_0_0_1
      = ScatterRows.rowsDims 100000 64 3200000 Cert.ReferenceIdeal.Facts₀.scatter_S100000x64_S3200000x1_S3200000x64_1_0_0_1_wf := rfl
  unfold Host.scatterAdd
  rw [Ideal.hostScatterAdd_def, hrec, scatterRows_zero _ _ _ _ r k hz]

/-- The element lookup of the program, over any operands: the element at the index, read signed and clamped. -/
theorem gatherElemsAt {α : Type} (x : S100000.Idx → α) (idx : IVec S3200000x1 32) (e : Fin 3200000) :
    Host.gather gather_S100000_S3200000x1_S3200000_n_0_n_n_0_1_1 x idx (ix1 e)
      = x (ix1 ⟨min (idx (ix2 e ⟨0, Nat.one_pos⟩)).toInt.toNat (100000 - 1), by omega⟩) := by
  have hrec : gather_S100000_S3200000x1_S3200000_n_0_n_n_0_1_1
      = GatherElems.elemsDims 100000 3200000 Cert.ReferenceIdeal.Facts₀.gather_S100000_S3200000x1_S3200000_n_0_n_n_0_1_1_wf := rfl
  rw [hrec, GatherElems.gather_apply _ (by omega)]

/-- The row lookup of the program, over any operands: column k of the row at the index, read signed and clamped. -/
theorem gatherRowsAt {α : Type} (x : S100000x64.Idx → α) (idx : IVec S3200000x1 32) (e : Fin 3200000) (k : Fin 64) :
    Host.gather gather_S100000x64_S3200000x1_S3200000x64_1_0_n_n_0_1_164 x idx (ix2 e k)
      = x (ix2 ⟨min (idx (ix2 e ⟨0, Nat.one_pos⟩)).toInt.toNat (100000 - 1), by omega⟩ k) := by
  have hrec : gather_S100000x64_S3200000x1_S3200000x64_1_0_n_n_0_1_164
      = GatherRows.rowsDims 100000 64 3200000 Cert.ReferenceIdeal.Facts₀.gather_S100000x64_S3200000x1_S3200000x64_1_0_n_n_0_1_164_wf := rfl
  rw [hrec, GatherRows.gather_apply _ (by omega)]

/-- A lookup whose clamped index is a known node reads that node's element. -/
theorem lookup_eq {α : Type} (x : S100000.Idx → α) (a b : Fin 100000) (h : a.val = b.val) : x (ix1 a) = x (ix1 b) := by
  rw [Fin.ext h]

/-- A row lookup whose clamped index is a known node reads that node's row. -/
theorem lookupRow_eq {α : Type} (x : S100000x64.Idx → α) (a b : Fin 100000) (k : Fin 64) (h : a.val = b.val) :
    x (ix2 a k) = x (ix2 b k) := by
  rw [Fin.ext h]

/-- The destination row of the edge list, flattened: entry e is the edge list at (1, e). -/
theorem dst_read (e : Fin 3200000) : (val_main_v3 (F := Ideal) x1) (ix1 e) = x1 (ix2 1 e) := by
  rw [val_main_v3_apply, val_main_v2_apply]
  congr 1
  funext a
  refine Fin.ext ?_
  match a with
  | ⟨0, _⟩ => rfl
  | ⟨1, _⟩ => exact Nat.mod_eq_of_lt e.isLt

/-- The source row of the edge list, flattened: entry e is the edge list at (0, e). -/
theorem src_read (e : Fin 3200000) : (val_main_v1 (F := Ideal) x1) (ix1 e) = x1 (ix2 0 e) := by
  rw [val_main_v1_apply, val_main_v0_apply]
  congr 1
  funext a
  refine Fin.ext ?_
  match a with
  | ⟨0, _⟩ => rfl
  | ⟨1, _⟩ => exact Nat.mod_eq_of_lt e.isLt

/-- The index column of the degree count: the destination, counted from the end when negative. -/
theorem degIdx1a (e : Fin 3200000) : (val_main_v11 (F := Ideal) x1) (ix2 e ⟨0, Nat.one_pos⟩) = normIdx (x1 (ix2 1 e)) := by
  have hi : idx_main_v11 (ix2 e ⟨0, Nat.one_pos⟩) = ix1 e := by funext a; match a with | ⟨0, _⟩ => rfl
  rw [val_main_v11_apply, hi, val_main_v10_apply, val_main_v7_apply, val_main_v9_apply, val_main_v6_apply, val_main_v8_apply, val_main_c_apply,
    val_main_c_0_apply, dst_read]
  rfl

/-- The index column of the first weight lookup: the source, counted from the end when negative. -/
theorem srcIdxA1a (e : Fin 3200000) : (val_main_v22 (F := Ideal) x1) (ix2 e ⟨0, Nat.one_pos⟩) = normIdx (x1 (ix2 0 e)) := by
  have hi : idx_main_v22 (ix2 e ⟨0, Nat.one_pos⟩) = ix1 e := by funext a; match a with | ⟨0, _⟩ => rfl
  rw [val_main_v22_apply, hi, val_main_v21_apply, val_main_v18_apply, val_main_v20_apply, val_main_v17_apply, val_main_v19_apply, val_main_c_3_apply,
    val_main_c_4_apply, src_read]
  rfl

/-- The index column of the second weight lookup: the destination, counted from the end when negative. -/
theorem dstIdx1a (e : Fin 3200000) : (val_main_v29 (F := Ideal) x1) (ix2 e ⟨0, Nat.one_pos⟩) = normIdx (x1 (ix2 1 e)) := by
  have hi : idx_main_v29 (ix2 e ⟨0, Nat.one_pos⟩) = ix1 e := by funext a; match a with | ⟨0, _⟩ => rfl
  rw [val_main_v29_apply, hi, val_main_v28_apply, val_main_v25_apply, val_main_v27_apply, val_main_v24_apply, val_main_v26_apply, val_main_c_5_apply,
    val_main_c_6_apply, dst_read]
  rfl

/-- The index column of the row lookup: the source, counted from the end when negative. -/
theorem srcIdxB1a (e : Fin 3200000) : (val_main_v38 (F := Ideal) x1) (ix2 e ⟨0, Nat.one_pos⟩) = normIdx (x1 (ix2 0 e)) := by
  have hi : idx_main_v38 (ix2 e ⟨0, Nat.one_pos⟩) = ix1 e := by funext a; match a with | ⟨0, _⟩ => rfl
  rw [val_main_v38_apply, hi, val_main_v37_apply, val_main_v34_apply, val_main_v36_apply, val_main_v33_apply, val_main_v35_apply, val_main_c_7_apply,
    val_main_c_8_apply, src_read]
  rfl

/-- The index column of the message sum: the destination as it stands. -/
theorem rawIdx1a (e : Fin 3200000) : (val_main_v43 (F := Ideal) x1) (ix2 e ⟨0, Nat.one_pos⟩) = x1 (ix2 1 e) := by
  have hi : idx_main_v43 (ix2 e ⟨0, Nat.one_pos⟩) = ix1 e := by funext a; match a with | ⟨0, _⟩ => rfl
  rw [val_main_v43_apply, hi, dst_read]

/-- The degree count is the element scatter-add of ones into zeros through the counted destination column. -/
theorem degDef1a : (val_main_v13 (F := Ideal) x1) = Host.scatterAdd (F := Ideal) (φ := .f32) scatter_S100000_S3200000x1_S3200000_n_0_0_1 (val_main_v5 (F := Ideal)) (val_main_v11 (F := Ideal) x1) (val_main_v12 (F := Ideal)) := rfl

/-- The degree count starts from zero. -/
theorem degZero1a (r : Fin 100000) : (val_main_v5 (F := Ideal)) (ix1 r) = 0 := by
  rw [val_main_v5_apply, val_main_cst_apply, Ideal.ofBits_def, Ideal.ofBits_zero_f32]

/-- The degree count at r: one literal one per edge into r.  With every destination nonnegative the counted index is
    the destination itself, so the count is over the edges into r. -/
theorem degSum1a (hd : ∀ e : Fin 3200000, 0 ≤ (x1 (ix2 1 e)).toInt) (r : Fin 100000) :
    (val_main_v13 (F := Ideal) x1) (ix1 r) = ∑ _e ∈ (graphOf x1).into r, oneLit := by
  rw [degDef1a, scatterElemsAt _ _ _ r (degZero1a r)]
  unfold Graph.into
  refine sum_filter_congr _ _ (fun e => ?_) (fun e _ => ?_)
  · rw [degIdx1a, normIdx_of_nonneg _ (hd e)]
    exact Iff.rfl
  · rw [val_main_v12_apply, val_main_cst_1_apply, Ideal.ofBits_def]

/-- The normalising column: the degree count, one more for the self loop, to the power -1/2. -/
theorem dinv1a (hd : ∀ e : Fin 3200000, 0 ≤ (x1 (ix2 1 e)).toInt) (r : Fin 100000) :
    (val_main_v16 (F := Ideal) x1) (ix1 r) = (graphOf x1).dinv r := by
  rw [val_main_v16_apply, val_main_v15_apply, degSum1a hd r, val_main_v14_apply, val_main_cst_2_apply, Ideal.ofBits_def, Ideal.hostUnary_rsqrt_def,
    Ideal.addf_def]
  unfold Graph.dinv Graph.deg
  rfl

/-- The message sum is the row scatter-add of the weighted rows into zeros through the destination column. -/
theorem msgDef1a : (val_main_v44 (F := Ideal) x0 x1 x6) = Host.scatterAdd (F := Ideal) (φ := .f32) scatter_S100000x64_S3200000x1_S3200000x64_1_0_0_1 (val_main_v42 (F := Ideal)) (val_main_v43 (F := Ideal) x1) (val_main_v41 (F := Ideal) x0 x1 x6) := rfl

/-- The message sum starts from zero. -/
theorem msgZero1a (r : Fin 100000) (k : Fin 64) : (val_main_v42 (F := Ideal)) (ix2 r k) = 0 := by
  rw [val_main_v42_apply, val_main_cst_9_apply, Ideal.ofBits_def, Ideal.ofBits_zero_f32]

/-- The first weight lookup is an element lookup in the normalising column through the source column. -/
theorem wSrcDef1a : (val_main_v23 (F := Ideal) x1) = Host.gather gather_S100000_S3200000x1_S3200000_n_0_n_n_0_1_1 (val_main_v16 (F := Ideal) x1) (val_main_v22 (F := Ideal) x1) := rfl

/-- The second weight lookup is an element lookup in the normalising column through the destination column. -/
theorem wDstDef1a : (val_main_v30 (F := Ideal) x1) = Host.gather gather_S100000_S3200000x1_S3200000_n_0_n_n_0_1_1 (val_main_v16 (F := Ideal) x1) (val_main_v29 (F := Ideal) x1) := rfl

/-- The row lookup is a row lookup in the features through the source column. -/
theorem rowDef1a : (val_main_v39 (F := Ideal) x0 x1 x6) = Host.gather gather_S100000x64_S3200000x1_S3200000x64_1_0_n_n_0_1_164 (val_main_v4 (F := Ideal) x0 x6) (val_main_v38 (F := Ideal) x1) := rfl

/-- The first weight of edge e is the normalising factor of its source node. -/
theorem wSrc1a (hd : ∀ e : Fin 3200000, 0 ≤ (x1 (ix2 1 e)).toInt) (e : Fin 3200000) :
    (val_main_v23 (F := Ideal) x1) (ix1 e) = (graphOf x1).dinv ((graphOf x1).src e) := by
  rw [wSrcDef1a, gatherElemsAt]
  refine (lookup_eq _ _ ((graphOf x1).src e) ?_).trans (dinv1a hd _)
  show min ((val_main_v22 (F := Ideal) x1) (ix2 e ⟨0, Nat.one_pos⟩)).toInt.toNat (100000 - 1) = ((graphOf x1).src e).val
  rw [srcIdxA1a]
  rfl

/-- The second weight of an edge into r is the normalising factor of r. -/
theorem wDst1a (hd : ∀ e : Fin 3200000, 0 ≤ (x1 (ix2 1 e)).toInt) (e : Fin 3200000) (r : Fin 100000)
    (hde : (x1 (ix2 1 e)).toInt = (r.val : ℤ)) : (val_main_v30 (F := Ideal) x1) (ix1 e) = (graphOf x1).dinv r := by
  rw [wDstDef1a, gatherElemsAt]
  refine (lookup_eq _ _ r ?_).trans (dinv1a hd r)
  show min ((val_main_v29 (F := Ideal) x1) (ix2 e ⟨0, Nat.one_pos⟩)).toInt.toNat (100000 - 1) = r.val
  rw [dstIdx1a]
  exact clamp_of_eq _ r hde

/-- The looked-up row of edge e is its source node's row of the features. -/
theorem rowSrc1a (e : Fin 3200000) (k : Fin 64) :
    (val_main_v39 (F := Ideal) x0 x1 x6) (ix2 e k) = (val_main_v4 (F := Ideal) x0 x6) (ix2 ((graphOf x1).src e) k) := by
  rw [rowDef1a, gatherRowsAt]
  refine lookupRow_eq _ _ ((graphOf x1).src e) k ?_
  show min ((val_main_v38 (F := Ideal) x1) (ix2 e ⟨0, Nat.one_pos⟩)).toInt.toNat (100000 - 1) = ((graphOf x1).src e).val
  rw [srcIdxB1a]
  rfl

/-- The message sum at (r, k): over the edges into r, the two looked-up weights times the looked-up row's entry. -/
theorem msg1a (hd : ∀ e : Fin 3200000, 0 ≤ (x1 (ix2 1 e)).toInt) (r : Fin 100000) (k : Fin 64) :
    (val_main_v44 (F := Ideal) x0 x1 x6) (ix2 r k) = ∑ e ∈ (graphOf x1).into r,
      ((graphOf x1).dinv ((graphOf x1).src e) * (graphOf x1).dinv r) * (val_main_v4 (F := Ideal) x0 x6) (ix2 ((graphOf x1).src e) k) := by
  rw [msgDef1a, scatterRowsAt _ _ _ r k (msgZero1a r k)]
  unfold Graph.into
  refine sum_filter_congr _ _ (fun e => ?_) (fun e he => ?_)
  · rw [rawIdx1a]
    exact Iff.rfl
  · have hi : idx_main_v32 (idx_main_v40 (ix2 e k)) = ix1 e := by funext a; match a with | ⟨0, _⟩ => rfl
    rw [val_main_v41_apply, val_main_v40_apply, val_main_v32_apply, hi, val_main_v31_apply, wSrc1a hd e, wDst1a hd e r he, rowSrc1a e k,
      Ideal.mulf_def, Ideal.mulf_def]

/-- ONE LAYER AS THE PROGRAM COMPUTES IT, at (r, k): the message sum, the self loop, the bias, the positive part. -/
theorem layer1a (hd : ∀ e : Fin 3200000, 0 ≤ (x1 (ix2 1 e)).toInt) (r : Fin 100000) (k : Fin 64) :
    (val_main_v53 (F := Ideal) x0 x1 x6 x7) (ix2 r k) = (graphOf x1).layerR (val_main_v4 (F := Ideal) x0 x6) (asRow x7) (ix2 r k) := by
  have i46 : idx_main_v46 (idx_main_v47 (ix2 r k)) = ix1 r := by funext a; match a with | ⟨0, _⟩ => rfl
  have i50 : idx_main_v50 (idx_main_v51 (ix2 r k)) = ix1 k := by funext a; match a with | ⟨0, _⟩ => rfl
  rw [Graph.layerR_apply, asRow_apply, val_main_v53_apply, val_main_v52_apply, val_main_v49_apply, msg1a hd r k, val_main_v48_apply, val_main_v47_apply,
    val_main_v46_apply, i46, val_main_v45_apply, dinv1a hd r, val_main_v51_apply, val_main_v50_apply, i50, val_main_call0_v0_apply, val_main_call0_cst_apply,
    Ideal.ofBits_def, Ideal.ofBits_zero_f32, Ideal.maximumf_def, Ideal.addf_def, Ideal.addf_def, Ideal.mulf_def,
    Ideal.mulf_def]

/-- The index column of the degree count: the destination, counted from the end when negative. -/
theorem degIdx1b (e : Fin 3200000) : (val_main_v61 (F := Ideal) x1) (ix2 e ⟨0, Nat.one_pos⟩) = normIdx (x1 (ix2 1 e)) := by
  have hi : idx_main_v61 (ix2 e ⟨0, Nat.one_pos⟩) = ix1 e := by funext a; match a with | ⟨0, _⟩ => rfl
  rw [val_main_v61_apply, hi, val_main_v60_apply, val_main_v57_apply, val_main_v59_apply, val_main_v56_apply, val_main_v58_apply, val_main_c_11_apply,
    val_main_c_12_apply, dst_read]
  rfl

/-- The index column of the first weight lookup: the source, counted from the end when negative. -/
theorem srcIdxA1b (e : Fin 3200000) : (val_main_v72 (F := Ideal) x1) (ix2 e ⟨0, Nat.one_pos⟩) = normIdx (x1 (ix2 0 e)) := by
  have hi : idx_main_v72 (ix2 e ⟨0, Nat.one_pos⟩) = ix1 e := by funext a; match a with | ⟨0, _⟩ => rfl
  rw [val_main_v72_apply, hi, val_main_v71_apply, val_main_v68_apply, val_main_v70_apply, val_main_v67_apply, val_main_v69_apply, val_main_c_15_apply,
    val_main_c_16_apply, src_read]
  rfl

/-- The index column of the second weight lookup: the destination, counted from the end when negative. -/
theorem dstIdx1b (e : Fin 3200000) : (val_main_v79 (F := Ideal) x1) (ix2 e ⟨0, Nat.one_pos⟩) = normIdx (x1 (ix2 1 e)) := by
  have hi : idx_main_v79 (ix2 e ⟨0, Nat.one_pos⟩) = ix1 e := by funext a; match a with | ⟨0, _⟩ => rfl
  rw [val_main_v79_apply, hi, val_main_v78_apply, val_main_v75_apply, val_main_v77_apply, val_main_v74_apply, val_main_v76_apply, val_main_c_17_apply,
    val_main_c_18_apply, dst_read]
  rfl

/-- The index column of the row lookup: the source, counted from the end when negative. -/
theorem srcIdxB1b (e : Fin 3200000) : (val_main_v88 (F := Ideal) x1) (ix2 e ⟨0, Nat.one_pos⟩) = normIdx (x1 (ix2 0 e)) := by
  have hi : idx_main_v88 (ix2 e ⟨0, Nat.one_pos⟩) = ix1 e := by funext a; match a with | ⟨0, _⟩ => rfl
  rw [val_main_v88_apply, hi, val_main_v87_apply, val_main_v84_apply, val_main_v86_apply, val_main_v83_apply, val_main_v85_apply, val_main_c_19_apply,
    val_main_c_20_apply, src_read]
  rfl

/-- The index column of the message sum: the destination as it stands. -/
theorem rawIdx1b (e : Fin 3200000) : (val_main_v93 (F := Ideal) x1) (ix2 e ⟨0, Nat.one_pos⟩) = x1 (ix2 1 e) := by
  have hi : idx_main_v93 (ix2 e ⟨0, Nat.one_pos⟩) = ix1 e := by funext a; match a with | ⟨0, _⟩ => rfl
  rw [val_main_v93_apply, hi, dst_read]

/-- The degree count is the element scatter-add of ones into zeros through the counted destination column. -/
theorem degDef1b : (val_main_v63 (F := Ideal) x1) = Host.scatterAdd (F := Ideal) (φ := .f32) scatter_S100000_S3200000x1_S3200000_n_0_0_1 (val_main_v55 (F := Ideal)) (val_main_v61 (F := Ideal) x1) (val_main_v62 (F := Ideal)) := rfl

/-- The degree count starts from zero. -/
theorem degZero1b (r : Fin 100000) : (val_main_v55 (F := Ideal)) (ix1 r) = 0 := by
  rw [val_main_v55_apply, val_main_cst_10_apply, Ideal.ofBits_def, Ideal.ofBits_zero_f32]

/-- The degree count at r: one literal one per edge into r.  With every destination nonnegative the counted index is
    the destination itself, so the count is over the edges into r. -/
theorem degSum1b (hd : ∀ e : Fin 3200000, 0 ≤ (x1 (ix2 1 e)).toInt) (r : Fin 100000) :
    (val_main_v63 (F := Ideal) x1) (ix1 r) = ∑ _e ∈ (graphOf x1).into r, oneLit := by
  rw [degDef1b, scatterElemsAt _ _ _ r (degZero1b r)]
  unfold Graph.into
  refine sum_filter_congr _ _ (fun e => ?_) (fun e _ => ?_)
  · rw [degIdx1b, normIdx_of_nonneg _ (hd e)]
    exact Iff.rfl
  · rw [val_main_v62_apply, val_main_cst_13_apply, Ideal.ofBits_def]

/-- The normalising column: the degree count, one more for the self loop, to the power -1/2. -/
theorem dinv1b (hd : ∀ e : Fin 3200000, 0 ≤ (x1 (ix2 1 e)).toInt) (r : Fin 100000) :
    (val_main_v66 (F := Ideal) x1) (ix1 r) = (graphOf x1).dinv r := by
  rw [val_main_v66_apply, val_main_v65_apply, degSum1b hd r, val_main_v64_apply, val_main_cst_14_apply, Ideal.ofBits_def, Ideal.hostUnary_rsqrt_def,
    Ideal.addf_def]
  unfold Graph.dinv Graph.deg
  rfl

/-- The message sum is the row scatter-add of the weighted rows into zeros through the destination column. -/
theorem msgDef1b : (val_main_v94 (F := Ideal) x0 x1 x6 x7 x8) = Host.scatterAdd (F := Ideal) (φ := .f32) scatter_S100000x64_S3200000x1_S3200000x64_1_0_0_1 (val_main_v92 (F := Ideal)) (val_main_v93 (F := Ideal) x1) (val_main_v91 (F := Ideal) x0 x1 x6 x7 x8) := rfl

/-- The message sum starts from zero. -/
theorem msgZero1b (r : Fin 100000) (k : Fin 64) : (val_main_v92 (F := Ideal)) (ix2 r k) = 0 := by
  rw [val_main_v92_apply, val_main_cst_21_apply, Ideal.ofBits_def, Ideal.ofBits_zero_f32]

/-- The first weight lookup is an element lookup in the normalising column through the source column. -/
theorem wSrcDef1b : (val_main_v73 (F := Ideal) x1) = Host.gather gather_S100000_S3200000x1_S3200000_n_0_n_n_0_1_1 (val_main_v66 (F := Ideal) x1) (val_main_v72 (F := Ideal) x1) := rfl

/-- The second weight lookup is an element lookup in the normalising column through the destination column. -/
theorem wDstDef1b : (val_main_v80 (F := Ideal) x1) = Host.gather gather_S100000_S3200000x1_S3200000_n_0_n_n_0_1_1 (val_main_v66 (F := Ideal) x1) (val_main_v79 (F := Ideal) x1) := rfl

/-- The row lookup is a row lookup in the features through the source column. -/
theorem rowDef1b : (val_main_v89 (F := Ideal) x0 x1 x6 x7 x8) = Host.gather gather_S100000x64_S3200000x1_S3200000x64_1_0_n_n_0_1_164 (val_main_v54 (F := Ideal) x0 x1 x6 x7 x8) (val_main_v88 (F := Ideal) x1) := rfl

/-- The first weight of edge e is the normalising factor of its source node. -/
theorem wSrc1b (hd : ∀ e : Fin 3200000, 0 ≤ (x1 (ix2 1 e)).toInt) (e : Fin 3200000) :
    (val_main_v73 (F := Ideal) x1) (ix1 e) = (graphOf x1).dinv ((graphOf x1).src e) := by
  rw [wSrcDef1b, gatherElemsAt]
  refine (lookup_eq _ _ ((graphOf x1).src e) ?_).trans (dinv1b hd _)
  show min ((val_main_v72 (F := Ideal) x1) (ix2 e ⟨0, Nat.one_pos⟩)).toInt.toNat (100000 - 1) = ((graphOf x1).src e).val
  rw [srcIdxA1b]
  rfl

/-- The second weight of an edge into r is the normalising factor of r. -/
theorem wDst1b (hd : ∀ e : Fin 3200000, 0 ≤ (x1 (ix2 1 e)).toInt) (e : Fin 3200000) (r : Fin 100000)
    (hde : (x1 (ix2 1 e)).toInt = (r.val : ℤ)) : (val_main_v80 (F := Ideal) x1) (ix1 e) = (graphOf x1).dinv r := by
  rw [wDstDef1b, gatherElemsAt]
  refine (lookup_eq _ _ r ?_).trans (dinv1b hd r)
  show min ((val_main_v79 (F := Ideal) x1) (ix2 e ⟨0, Nat.one_pos⟩)).toInt.toNat (100000 - 1) = r.val
  rw [dstIdx1b]
  exact clamp_of_eq _ r hde

/-- The looked-up row of edge e is its source node's row of the features. -/
theorem rowSrc1b (e : Fin 3200000) (k : Fin 64) :
    (val_main_v89 (F := Ideal) x0 x1 x6 x7 x8) (ix2 e k) = (val_main_v54 (F := Ideal) x0 x1 x6 x7 x8) (ix2 ((graphOf x1).src e) k) := by
  rw [rowDef1b, gatherRowsAt]
  refine lookupRow_eq _ _ ((graphOf x1).src e) k ?_
  show min ((val_main_v88 (F := Ideal) x1) (ix2 e ⟨0, Nat.one_pos⟩)).toInt.toNat (100000 - 1) = ((graphOf x1).src e).val
  rw [srcIdxB1b]
  rfl

/-- The message sum at (r, k): over the edges into r, the two looked-up weights times the looked-up row's entry. -/
theorem msg1b (hd : ∀ e : Fin 3200000, 0 ≤ (x1 (ix2 1 e)).toInt) (r : Fin 100000) (k : Fin 64) :
    (val_main_v94 (F := Ideal) x0 x1 x6 x7 x8) (ix2 r k) = ∑ e ∈ (graphOf x1).into r,
      ((graphOf x1).dinv ((graphOf x1).src e) * (graphOf x1).dinv r) * (val_main_v54 (F := Ideal) x0 x1 x6 x7 x8) (ix2 ((graphOf x1).src e) k) := by
  rw [msgDef1b, scatterRowsAt _ _ _ r k (msgZero1b r k)]
  unfold Graph.into
  refine sum_filter_congr _ _ (fun e => ?_) (fun e he => ?_)
  · rw [rawIdx1b]
    exact Iff.rfl
  · have hi : idx_main_v82 (idx_main_v90 (ix2 e k)) = ix1 e := by funext a; match a with | ⟨0, _⟩ => rfl
    rw [val_main_v91_apply, val_main_v90_apply, val_main_v82_apply, hi, val_main_v81_apply, wSrc1b hd e, wDst1b hd e r he, rowSrc1b e k,
      Ideal.mulf_def, Ideal.mulf_def]

/-- ONE LAYER AS THE PROGRAM COMPUTES IT, at (r, k): the message sum, the self loop, the bias, the positive part. -/
theorem layer1b (hd : ∀ e : Fin 3200000, 0 ≤ (x1 (ix2 1 e)).toInt) (r : Fin 100000) (k : Fin 64) :
    (val_main_v103 (F := Ideal) x0 x1 x6 x7 x8 x9) (ix2 r k) = (graphOf x1).layerR (val_main_v54 (F := Ideal) x0 x1 x6 x7 x8) (asRow x9) (ix2 r k) := by
  have i46 : idx_main_v96 (idx_main_v97 (ix2 r k)) = ix1 r := by funext a; match a with | ⟨0, _⟩ => rfl
  have i50 : idx_main_v100 (idx_main_v101 (ix2 r k)) = ix1 k := by funext a; match a with | ⟨0, _⟩ => rfl
  rw [Graph.layerR_apply, asRow_apply, val_main_v103_apply, val_main_v102_apply, val_main_v99_apply, msg1b hd r k, val_main_v98_apply, val_main_v97_apply,
    val_main_v96_apply, i46, val_main_v95_apply, dinv1b hd r, val_main_v101_apply, val_main_v100_apply, i50, val_main_call1_v0_apply, val_main_call1_cst_apply,
    Ideal.ofBits_def, Ideal.ofBits_zero_f32, Ideal.maximumf_def, Ideal.addf_def, Ideal.addf_def, Ideal.mulf_def,
    Ideal.mulf_def]

/-- The first product is the plain product of the features and the first weights. -/
theorem feat1 : (val_main_v4 (F := Ideal) x0 x6) = mm x0 x6 := by
  funext i
  obtain ⟨r, k, rfl⟩ : ∃ (r : Fin 100000) (k : Fin 64), i = ix2 r k := ⟨i 0, i 1, eq_ix2 i⟩
  rw [val_main_v4_apply, mm_apply]
  refine Finset.sum_congr rfl fun q _ => ?_
  have el : lidx_main_v4 (ix2 r k) q = ix2 r q := by funext a; match a with | ⟨0, _⟩ => rfl | ⟨1, _⟩ => rfl
  have er : ridx_main_v4 (ix2 r k) q = ix2 q k := by funext a; match a with | ⟨0, _⟩ => rfl | ⟨1, _⟩ => rfl
  rw [el, er]

/-- The second product is the plain product of the first layer's result and the second weights. -/
theorem feat2 : (val_main_v54 (F := Ideal) x0 x1 x6 x7 x8) = mm (val_main_v53 (F := Ideal) x0 x1 x6 x7) x8 := by
  funext i
  obtain ⟨r, k, rfl⟩ : ∃ (r : Fin 100000) (k : Fin 64), i = ix2 r k := ⟨i 0, i 1, eq_ix2 i⟩
  rw [val_main_v54_apply, mm_apply]
  refine Finset.sum_congr rfl fun q _ => ?_
  have el : lidx_main_v54 (ix2 r k) q = ix2 r q := by funext a; match a with | ⟨0, _⟩ => rfl | ⟨1, _⟩ => rfl
  have er : ridx_main_v54 (ix2 r k) q = ix2 q k := by funext a; match a with | ⟨0, _⟩ => rfl | ⟨1, _⟩ => rfl
  rw [el, er]

/-- THE TWO LAYERS: the program's second layer result is the graph's two-layer convolution, each edge's message
    weighted by the two endpoints' normalising factors. -/
theorem conv1 (hd : ∀ e : Fin 3200000, 0 ≤ (x1 (ix2 1 e)).toInt) :
    (val_main_v103 (F := Ideal) x0 x1 x6 x7 x8 x9) = (graphOf x1).convR x0 x6 (asRow x7) x8 (asRow x9) := by
  have h1 : (val_main_v53 (F := Ideal) x0 x1 x6 x7) = (graphOf x1).layerR (val_main_v4 (F := Ideal) x0 x6) (asRow x7) := by
    funext i
    obtain ⟨r, k, rfl⟩ : ∃ (r : Fin 100000) (k : Fin 64), i = ix2 r k := ⟨i 0, i 1, eq_ix2 i⟩
    exact layer1a hd r k
  have h2 : (val_main_v103 (F := Ideal) x0 x1 x6 x7 x8 x9) = (graphOf x1).layerR (val_main_v54 (F := Ideal) x0 x1 x6 x7 x8) (asRow x9) := by
    funext i
    obtain ⟨r, k, rfl⟩ : ∃ (r : Fin 100000) (k : Fin 64), i = ix2 r k := ⟨i 0, i 1, eq_ix2 i⟩
    exact layer1b hd r k
  unfold Graph.convR
  rw [h2, feat2, h1, feat1]

end Cert.RefConv1

end
-- ==== Proof.RefConv2.lean ====
/-
  The two graph-convolution layers of the reference on the second graph, read as mathematics.

  Let g be the graph the edge list denotes on 100000 nodes: an edge's destination is its index read signed, its
  source the node a row lookup through its source index lands on (counted from the end when negative, then clamped).
  With deg r = #{e | dst e = r} + 1 and dinv r = (deg r)^(-1/2), one layer sends features a to
    max (Σ_{e : dst e = r} (dinv (src e) · dinv r) · a(src e, k) + (dinv r · dinv r) · a(r, k) + b k) 0,
  and the result proved here is two such layers, each after a plain matrix product with its weights (g.convR).

  The layer is computed by scatter-additions and lookups: the degree is a scatter-add of ones through the
  destination index counted from the end when negative; the two weights of an edge are lookups of dinv through its
  source and destination indices; the message is the looked-up source row times the weights; the messages are
  scatter-added through the destination index as it stands.  Every destination index is assumed nonnegative: the
  counted index is then the index itself, the degree counts exactly the edges into r, and the weight looked up
  through the destination of an edge into r is dinv r.

  Each scatter-add and lookup is first read at an index over arbitrary operands, then applied to the operands the
  layer feeds it; the layer itself is read at a coordinate pair (r, k).
-/
import proofs.«169936_j65317862637645_2_alg».proof.Proof.RefReadPatched
import proofs.«169936_j65317862637645_2_alg».proof.Proof.GraphSpec
import proofs.«169936_j65317862637645_2_alg».proof.Proof.LibScatterRows
import proofs.«169936_j65317862637645_2_alg».proof.Proof.LibScatterElems
import proofs.«169936_j65317862637645_2_alg».proof.Proof.LibGatherRows
import proofs.«169936_j65317862637645_2_alg».proof.Proof.LibGatherElems

noncomputable section

namespace Cert.RefConv2

open Cert.ReferenceIdeal Cert.ReferenceIdeal.Gen Cert.ReferenceIdeal.Read Idealize.ShloMosaic Idealize.ShloMosaic.ValueIdx Cert.Gcn

variable {x3 : (⟨S100000x128, .f32⟩ : BufTy).Contents (Elt Ideal)} {x4 : IVec S2x3200000 32}
  {x6 : (⟨S128x64, .f32⟩ : BufTy).Contents (Elt Ideal)} {x7 : (⟨S64, .f32⟩ : BufTy).Contents (Elt Ideal)}
  {x8 : (⟨S64x64, .f32⟩ : BufTy).Contents (Elt Ideal)} {x9 : (⟨S64, .f32⟩ : BufTy).Contents (Elt Ideal)}

/-- A nonnegative index is its own normal form. -/
theorem normIdx_of_nonneg (s : BitVec 32) (h : 0 ≤ s.toInt) : normIdx s = s := by
  unfold normIdx
  have h1 : IntOp.cmpi .slt s 0#32 = 0#1 := by
    unfold IntOp.cmpi
    have h2 : s.slt 0#32 = false := by
      rw [BitVec.slt_eq_decide]
      simpa using h
    simp [h2]
  rw [h1]
  rfl

/-- A nonnegative index that is a node's number, read as a row lookup reads it, is that node. -/
theorem clamp_of_eq (s : BitVec 32) (r : Fin 100000) (h : s.toInt = (r.val : ℤ)) :
    min (normIdx s).toInt.toNat (100000 - 1) = r.val := by
  rw [normIdx_of_nonneg s (by omega), h]
  have := r.isLt
  omega

/-- A vector as a one-row matrix, read at (0, k). -/
theorem asRow_apply {c : Nat} (b : (⟨1, ![c]⟩ : Shape).Idx → EReal) (k : Fin c) : asRow b (ix2 0 k) = b (ix1 k) := rfl

/-- An element scatter-add into an array that is zero at r reads there as the sum of the updates that land on r. -/
theorem scatterElems_zero {N E w : Nat} (wf : ScatterDims.WF ⟨1, ![N]⟩ ⟨2, ![E, 1]⟩ ⟨1, ![E]⟩ [] [0] [0] 1)
    (z : (⟨1, ![N]⟩ : Shape).Idx → EReal) (idx : IVec ⟨2, ![E, 1]⟩ w) (upd : (⟨1, ![E]⟩ : Shape).Idx → EReal)
    (r : Fin N) (hz : z (ix1 r) = 0) :
    Ideal.hostScatterAdd (ScatterElems.elemsDims N E wf) z idx upd (ix1 r)
      = ∑ e ∈ Finset.univ.filter (fun e : Fin E => (idx (ix2 e ⟨0, Nat.one_pos⟩)).toInt = (r.val : ℤ)), upd (ix1 e) := by
  rw [ScatterElems.hostScatterAdd_apply, hz, zero_add]

/-- A row scatter-add into an array that is zero at (r, k) reads there as the sum of column k of the rows that land on r. -/
theorem scatterRows_zero {N C E w : Nat} (wf : ScatterDims.WF ⟨2, ![N, C]⟩ ⟨2, ![E, 1]⟩ ⟨2, ![E, C]⟩ [1] [0] [0] 1)
    (z : (⟨2, ![N, C]⟩ : Shape).Idx → EReal) (idx : IVec ⟨2, ![E, 1]⟩ w) (upd : (⟨2, ![E, C]⟩ : Shape).Idx → EReal)
    (r : Fin N) (k : Fin C) (hz : z (ix2 r k) = 0) :
    Ideal.hostScatterAdd (ScatterRows.rowsDims N C E wf) z idx upd (ix2 r k)
      = ∑ e ∈ Finset.univ.filter (fun e : Fin E => (idx (ix2 e ⟨0, Nat.one_pos⟩)).toInt = (r.val : ℤ)), upd (ix2 e k) := by
  rw [ScatterRows.hostScatterAdd_apply, hz, zero_add]

/-- A sum over the indices selected by one test is the sum over those selected by an equivalent test of equal terms. -/
theorem sum_filter_congr {E : Nat} {p q : Fin E → Prop} [DecidablePred p] [DecidablePred q] (f g : Fin E → EReal)
    (hpq : ∀ e, p e ↔ q e) (hfg : ∀ e, q e → f e = g e) :
    ∑ e ∈ Finset.univ.filter p, f e = ∑ e ∈ Finset.univ.filter q, g e := by
  have hs : Finset.univ.filter p = Finset.univ.filter q := Finset.filter_congr fun e _ => hpq e
  rw [hs]
  exact Finset.sum_congr rfl fun e he => hfg e (Finset.mem_filter.mp he).2

/-- The element scatter-add of the program, over any operands, into an array that is zero at r. -/
theorem scatterElemsAt (z : FVec Ideal S100000 .f32) (idx : IVec S3200000x1 32) (upd : FVec Ideal S3200000 .f32)
    (r : Fin 100000) (hz : z (ix1 r) = 0) :
    Host.scatterAdd (F := Ideal) (φ := .f32) scatter_S100000_S3200000x1_S3200000_n_0_0_1 z idx upd (ix1 r)
      = ∑ e ∈ Finset.univ.filter (fun e : Fin 3200000 => (idx (ix2 e ⟨0, Nat.one_pos⟩)).toInt = (r.val : ℤ)),
          upd (ix1 e) := by
  have hrec : scatter_S100000_S3200000x1_S3200000_n_0_0_1
      = ScatterElems.elemsDims 100000 3200000 Cert.ReferenceIdeal.Facts₀.scatter_S100000_S3200000x1_S3200000_n_0_0_1_wf := rfl
  unfold Host.scatterAdd
  rw [Ideal.hostScatterAdd_def, hrec, scatterElems_zero _ _ _ _ r hz]

/-- The row scatter-add of the program, over any operands, into an array that is zero at (r, k). -/
theorem scatterRowsAt (z : FVec Ideal S100000x64 .f32) (idx : IVec S3200000x1 32) (upd : FVec Ideal S3200000x64 .f32)
    (r : Fin 100000) (k : Fin 64) (hz : z (ix2 r k) = 0) :
    Host.scatterAdd (F := Ideal) (φ := .f32) scatter_S100000x64_S3200000x1_S3200000x64_1_0_0_1 z idx upd (ix2 r k)
      = ∑ e ∈ Finset.univ.filter (fun e : Fin 3200000 => (idx (ix2 e ⟨0, Nat.one_pos⟩)).toInt = (r.val : ℤ)),
          upd (ix2 e k) := by
  have hrec : scatter_S100000x64_S3200000x1_S3200000x64_1_0_0_1
      = ScatterRows.rowsDims 100000 64 3200000 Cert.ReferenceIdeal.Facts₀.scatter_S100000x64_S3200000x1_S3200000x64_1_0_0_1_wf := rfl
  unfold Host.scatterAdd
  rw [Ideal.hostScatterAdd_def, hrec, scatterRows_zero _ _ _ _ r k hz]

/-- The element lookup of the program, over any operands: the element at the index, read signed and clamped. -/
theorem gatherElemsAt {α : Type} (x : S100000.Idx → α) (idx : IVec S3200000x1 32) (e : Fin 3200000) :
    Host.gather gather_S100000_S3200000x1_S3200000_n_0_n_n_0_1_1 x idx (ix1 e)
      = x (ix1 ⟨min (idx (ix2 e ⟨0, Nat.one_pos⟩)).toInt.toNat (100000 - 1), by omega⟩) := by
  have hrec : gather_S100000_S3200000x1_S3200000_n_0_n_n_0_1_1
      = GatherElems.elemsDims 100000 3200000 Cert.ReferenceIdeal.Facts₀.gather_S100000_S3200000x1_S3200000_n_0_n_n_0_1_1_wf := rfl
  rw [hrec, GatherElems.gather_apply _ (by omega)]

/-- The row lookup of the program, over any operands: column k of the row at the index, read signed and clamped. -/
theorem gatherRowsAt {α : Type} (x : S100000x64.Idx → α) (idx : IVec S3200000x1 32) (e : Fin 3200000) (k : Fin 64) :
    Host.gather gather_S100000x64_S3200000x1_S3200000x64_1_0_n_n_0_1_164 x idx (ix2 e k)
      = x (ix2 ⟨min (idx (ix2 e ⟨0, Nat.one_pos⟩)).toInt.toNat (100000 - 1), by omega⟩ k) := by
  have hrec : gather_S100000x64_S3200000x1_S3200000x64_1_0_n_n_0_1_164
      = GatherRows.rowsDims 100000 64 3200000 Cert.ReferenceIdeal.Facts₀.gather_S100000x64_S3200000x1_S3200000x64_1_0_n_n_0_1_164_wf := rfl
  rw [hrec, GatherRows.gather_apply _ (by omega)]

/-- A lookup whose clamped index is a known node reads that node's element. -/
theorem lookup_eq {α : Type} (x : S100000.Idx → α) (a b : Fin 100000) (h : a.val = b.val) : x (ix1 a) = x (ix1 b) := by
  rw [Fin.ext h]

/-- A row lookup whose clamped index is a known node reads that node's row. -/
theorem lookupRow_eq {α : Type} (x : S100000x64.Idx → α) (a b : Fin 100000) (k : Fin 64) (h : a.val = b.val) :
    x (ix2 a k) = x (ix2 b k) := by
  rw [Fin.ext h]

/-- The destination row of the edge list, flattened: entry e is the edge list at (1, e). -/
theorem dst_read (e : Fin 3200000) : (val_main_v119 (F := Ideal) x4) (ix1 e) = x4 (ix2 1 e) := by
  rw [val_main_v119_apply, val_main_v118_apply]
  congr 1
  funext a
  refine Fin.ext ?_
  match a with
  | ⟨0, _⟩ => rfl
  | ⟨1, _⟩ => exact Nat.mod_eq_of_lt e.isLt

/-- The source row of the edge list, flattened: entry e is the edge list at (0, e). -/
theorem src_read (e : Fin 3200000) : (val_main_v117 (F := Ideal) x4) (ix1 e) = x4 (ix2 0 e) := by
  rw [val_main_v117_apply, val_main_v116_apply]
  congr 1
  funext a
  refine Fin.ext ?_
  match a with
  | ⟨0, _⟩ => rfl
  | ⟨1, _⟩ => exact Nat.mod_eq_of_lt e.isLt

/-- The index column of the degree count: the destination, counted from the end when negative. -/
theorem degIdx2a (e : Fin 3200000) : (val_main_v127 (F := Ideal) x4) (ix2 e ⟨0, Nat.one_pos⟩) = normIdx (x4 (ix2 1 e)) := by
  have hi : idx_main_v127 (ix2 e ⟨0, Nat.one_pos⟩) = ix1 e := by funext a; match a with | ⟨0, _⟩ => rfl
  rw [val_main_v127_apply, hi, val_main_v126_apply, val_main_v123_apply, val_main_v125_apply, val_main_v122_apply, val_main_v124_apply, val_main_c_27_apply,
    val_main_c_28_apply, dst_read]
  rfl

/-- The index column of the first weight lookup: the source, counted from the end when negative. -/
theorem srcIdxA2a (e : Fin 3200000) : (val_main_v138 (F := Ideal) x4) (ix2 e ⟨0, Nat.one_pos⟩) = normIdx (x4 (ix2 0 e)) := by
  have hi : idx_main_v138 (ix2 e ⟨0, Nat.one_pos⟩) = ix1 e := by funext a; match a with | ⟨0, _⟩ => rfl
  rw [val_main_v138_apply, hi, val_main_v137_apply, val_main_v134_apply, val_main_v136_apply, val_main_v133_apply, val_main_v135_apply, val_main_c_31_apply,
    val_main_c_32_apply, src_read]
  rfl

/-- The index column of the second weight lookup: the destination, counted from the end when negative. -/
theorem dstIdx2a (e : Fin 3200000) : (val_main_v145 (F := Ideal) x4) (ix2 e ⟨0, Nat.one_pos⟩) = normIdx (x4 (ix2 1 e)) := by
  have hi : idx_main_v145 (ix2 e ⟨0, Nat.one_pos⟩) = ix1 e := by funext a; match a with | ⟨0, _⟩ => rfl
  rw [val_main_v145_apply, hi, val_main_v144_apply, val_main_v141_apply, val_main_v143_apply, val_main_v140_apply, val_main_v142_apply, val_main_c_33_apply,
    val_main_c_34_apply, dst_read]
  rfl

/-- The index column of the row lookup: the source, counted from the end when negative. -/
theorem srcIdxB2a (e : Fin 3200000) : (val_main_v154 (F := Ideal) x4) (ix2 e ⟨0, Nat.one_pos⟩) = normIdx (x4 (ix2 0 e)) := by
  have hi : idx_main_v154 (ix2 e ⟨0, Nat.one_pos⟩) = ix1 e := by funext a; match a with | ⟨0, _⟩ => rfl
  rw [val_main_v154_apply, hi, val_main_v153_apply, val_main_v150_apply, val_main_v152_apply, val_main_v149_apply, val_main_v151_apply, val_main_c_35_apply,
    val_main_c_36_apply, src_read]
  rfl

/-- The index column of the message sum: the destination as it stands. -/
theorem rawIdx2a (e : Fin 3200000) : (val_main_v159 (F := Ideal) x4) (ix2 e ⟨0, Nat.one_pos⟩) = x4 (ix2 1 e) := by
  have hi : idx_main_v159 (ix2 e ⟨0, Nat.one_pos⟩) = ix1 e := by funext a; match a with | ⟨0, _⟩ => rfl
  rw [val_main_v159_apply, hi, dst_read]

/-- The degree count is the element scatter-add of ones into zeros through the counted destination column. -/
theorem degDef2a : (val_main_v129 (F := Ideal) x4) = Host.scatterAdd (F := Ideal) (φ := .f32) scatter_S100000_S3200000x1_S3200000_n_0_0_1 (val_main_v121 (F := Ideal)) (val_main_v127 (F := Ideal) x4) (val_main_v128 (F := Ideal)) := rfl

/-- The degree count starts from zero. -/
theorem degZero2a (r : Fin 100000) : (val_main_v121 (F := Ideal)) (ix1 r) = 0 := by
  rw [val_main_v121_apply, val_main_cst_26_apply, Ideal.ofBits_def, Ideal.ofBits_zero_f32]

/-- The degree count at r: one literal one per edge into r.  With every destination nonnegative the counted index is
    the destination itself, so the count is over the edges into r. -/
theorem degSum2a (hd : ∀ e : Fin 3200000, 0 ≤ (x4 (ix2 1 e)).toInt) (r : Fin 100000) :
    (val_main_v129 (F := Ideal) x4) (ix1 r) = ∑ _e ∈ (graphOf x4).into r, oneLit := by
  rw [degDef2a, scatterElemsAt _ _ _ r (degZero2a r)]
  unfold Graph.into
  refine sum_filter_congr _ _ (fun e => ?_) (fun e _ => ?_)
  · rw [degIdx2a, normIdx_of_nonneg _ (hd e)]
    exact Iff.rfl
  · rw [val_main_v128_apply, val_main_cst_29_apply, Ideal.ofBits_def]

/-- The normalising column: the degree count, one more for the self loop, to the power -1/2. -/
theorem dinv2a (hd : ∀ e : Fin 3200000, 0 ≤ (x4 (ix2 1 e)).toInt) (r : Fin 100000) :
    (val_main_v132 (F := Ideal) x4) (ix1 r) = (graphOf x4).dinv r := by
  rw [val_main_v132_apply, val_main_v131_apply, degSum2a hd r, val_main_v130_apply, val_main_cst_30_apply, Ideal.ofBits_def, Ideal.hostUnary_rsqrt_def,
    Ideal.addf_def]
  unfold Graph.dinv Graph.deg
  rfl

/-- The message sum is the row scatter-add of the weighted rows into zeros through the destination column. -/
theorem msgDef2a : (val_main_v160 (F := Ideal) x3 x4 x6) = Host.scatterAdd (F := Ideal) (φ := .f32) scatter_S100000x64_S3200000x1_S3200000x64_1_0_0_1 (val_main_v158 (F := Ideal)) (val_main_v159 (F := Ideal) x4) (val_main_v157 (F := Ideal) x3 x4 x6) := rfl

/-- The message sum starts from zero. -/
theorem msgZero2a (r : Fin 100000) (k : Fin 64) : (val_main_v158 (F := Ideal)) (ix2 r k) = 0 := by
  rw [val_main_v158_apply, val_main_cst_37_apply, Ideal.ofBits_def, Ideal.ofBits_zero_f32]

/-- The first weight lookup is an element lookup in the normalising column through the source column. -/
theorem wSrcDef2a : (val_main_v139 (F := Ideal) x4) = Host.gather gather_S100000_S3200000x1_S3200000_n_0_n_n_0_1_1 (val_main_v132 (F := Ideal) x4) (val_main_v138 (F := Ideal) x4) := rfl

/-- The second weight lookup is an element lookup in the normalising column through the destination column. -/
theorem wDstDef2a : (val_main_v146 (F := Ideal) x4) = Host.gather gather_S100000_S3200000x1_S3200000_n_0_n_n_0_1_1 (val_main_v132 (F := Ideal) x4) (val_main_v145 (F := Ideal) x4) := rfl

/-- The row lookup is a row lookup in the features through the source column. -/
theorem rowDef2a : (val_main_v155 (F := Ideal) x3 x4 x6) = Host.gather gather_S100000x64_S3200000x1_S3200000x64_1_0_n_n_0_1_164 (val_main_v120 (F := Ideal) x3 x6) (val_main_v154 (F := Ideal) x4) := rfl

/-- The first weight of edge e is the normalising factor of its source node. -/
theorem wSrc2a (hd : ∀ e : Fin 3200000, 0 ≤ (x4 (ix2 1 e)).toInt) (e : Fin 3200000) :
    (val_main_v139 (F := Ideal) x4) (ix1 e) = (graphOf x4).dinv ((graphOf x4).src e) := by
  rw [wSrcDef2a, gatherElemsAt]
  refine (lookup_eq _ _ ((graphOf x4).src e) ?_).trans (dinv2a hd _)
  show min ((val_main_v138 (F := Ideal) x4) (ix2 e ⟨0, Nat.one_pos⟩)).toInt.toNat (100000 - 1) = ((graphOf x4).src e).val
  rw [srcIdxA2a]
  rfl

/-- The second weight of an edge into r is the normalising factor of r. -/
theorem wDst2a (hd : ∀ e : Fin 3200000, 0 ≤ (x4 (ix2 1 e)).toInt) (e : Fin 3200000) (r : Fin 100000)
    (hde : (x4 (ix2 1 e)).toInt = (r.val : ℤ)) : (val_main_v146 (F := Ideal) x4) (ix1 e) = (graphOf x4).dinv r := by
  rw [wDstDef2a, gatherElemsAt]
  refine (lookup_eq _ _ r ?_).trans (dinv2a hd r)
  show min ((val_main_v145 (F := Ideal) x4) (ix2 e ⟨0, Nat.one_pos⟩)).toInt.toNat (100000 - 1) = r.val
  rw [dstIdx2a]
  exact clamp_of_eq _ r hde

/-- The looked-up row of edge e is its source node's row of the features. -/
theorem rowSrc2a (e : Fin 3200000) (k : Fin 64) :
    (val_main_v155 (F := Ideal) x3 x4 x6) (ix2 e k) = (val_main_v120 (F := Ideal) x3 x6) (ix2 ((graphOf x4).src e) k) := by
  rw [rowDef2a, gatherRowsAt]
  refine lookupRow_eq _ _ ((graphOf x4).src e) k ?_
  show min ((val_main_v154 (F := Ideal) x4) (ix2 e ⟨0, Nat.one_pos⟩)).toInt.toNat (100000 - 1) = ((graphOf x4).src e).val
  rw [srcIdxB2a]
  rfl

/-- The message sum at (r, k): over the edges into r, the two looked-up weights times the looked-up row's entry. -/
theorem msg2a (hd : ∀ e : Fin 3200000, 0 ≤ (x4 (ix2 1 e)).toInt) (r : Fin 100000) (k : Fin 64) :
    (val_main_v160 (F := Ideal) x3 x4 x6) (ix2 r k) = ∑ e ∈ (graphOf x4).into r,
      ((graphOf x4).dinv ((graphOf x4).src e) * (graphOf x4).dinv r) * (val_main_v120 (F := Ideal) x3 x6) (ix2 ((graphOf x4).src e) k) := by
  rw [msgDef2a, scatterRowsAt _ _ _ r k (msgZero2a r k)]
  unfold Graph.into
  refine sum_filter_congr _ _ (fun e => ?_) (fun e he => ?_)
  · rw [rawIdx2a]
    exact Iff.rfl
  · have hi : idx_main_v148 (idx_main_v156 (ix2 e k)) = ix1 e := by funext a; match a with | ⟨0, _⟩ => rfl
    rw [val_main_v157_apply, val_main_v156_apply, val_main_v148_apply, hi, val_main_v147_apply, wSrc2a hd e, wDst2a hd e r he, rowSrc2a e k,
      Ideal.mulf_def, Ideal.mulf_def]

/-- ONE LAYER AS THE PROGRAM COMPUTES IT, at (r, k): the message sum, the self loop, the bias, the positive part. -/
theorem layer2a (hd : ∀ e : Fin 3200000, 0 ≤ (x4 (ix2 1 e)).toInt) (r : Fin 100000) (k : Fin 64) :
    (val_main_v169 (F := Ideal) x3 x4 x6 x7) (ix2 r k) = (graphOf x4).layerR (val_main_v120 (F := Ideal) x3 x6) (asRow x7) (ix2 r k) := by
  have i46 : idx_main_v162 (idx_main_v163 (ix2 r k)) = ix1 r := by funext a; match a with | ⟨0, _⟩ => rfl
  have i50 : idx_main_v166 (idx_main_v167 (ix2 r k)) = ix1 k := by funext a; match a with | ⟨0, _⟩ => rfl
  rw [Graph.layerR_apply, asRow_apply, val_main_v169_apply, val_main_v168_apply, val_main_v165_apply, msg2a hd r k, val_main_v164_apply, val_main_v163_apply,
    val_main_v162_apply, i46, val_main_v161_apply, dinv2a hd r, val_main_v167_apply, val_main_v166_apply, i50, val_main_call2_v0_apply, val_main_call2_cst_apply,
    Ideal.ofBits_def, Ideal.ofBits_zero_f32, Ideal.maximumf_def, Ideal.addf_def, Ideal.addf_def, Ideal.mulf_def,
    Ideal.mulf_def]

/-- The index column of the degree count: the destination, counted from the end when negative. -/
theorem degIdx2b (e : Fin 3200000) : (val_main_v177 (F := Ideal) x4) (ix2 e ⟨0, Nat.one_pos⟩) = normIdx (x4 (ix2 1 e)) := by
  have hi : idx_main_v177 (ix2 e ⟨0, Nat.one_pos⟩) = ix1 e := by funext a; match a with | ⟨0, _⟩ => rfl
  rw [val_main_v177_apply, hi, val_main_v176_apply, val_main_v173_apply, val_main_v175_apply, val_main_v172_apply, val_main_v174_apply, val_main_c_39_apply,
    val_main_c_40_apply, dst_read]
  rfl

/-- The index column of the first weight lookup: the source, counted from the end when negative. -/
theorem srcIdxA2b (e : Fin 3200000) : (val_main_v188 (F := Ideal) x4) (ix2 e ⟨0, Nat.one_pos⟩) = normIdx (x4 (ix2 0 e)) := by
  have hi : idx_main_v188 (ix2 e ⟨0, Nat.one_pos⟩) = ix1 e := by funext a; match a with | ⟨0, _⟩ => rfl
  rw [val_main_v188_apply, hi, val_main_v187_apply, val_main_v184_apply, val_main_v186_apply, val_main_v183_apply, val_main_v185_apply, val_main_c_43_apply,
    val_main_c_44_apply, src_read]
  rfl

/-- The index column of the second weight lookup: the destination, counted from the end when negative. -/
theorem dstIdx2b (e : Fin 3200000) : (val_main_v195 (F := Ideal) x4) (ix2 e ⟨0, Nat.one_pos⟩) = normIdx (x4 (ix2 1 e)) := by
  have hi : idx_main_v195 (ix2 e ⟨0, Nat.one_pos⟩) = ix1 e := by funext a; match a with | ⟨0, _⟩ => rfl
  rw [val_main_v195_apply, hi, val_main_v194_apply, val_main_v191_apply, val_main_v193_apply, val_main_v190_apply, val_main_v192_apply, val_main_c_45_apply,
    val_main_c_46_apply, dst_read]
  rfl

/-- The index column of the row lookup: the source, counted from the end when negative. -/
theorem srcIdxB2b (e : Fin 3200000) : (val_main_v204 (F := Ideal) x4) (ix2 e ⟨0, Nat.one_pos⟩) = normIdx (x4 (ix2 0 e)) := by
  have hi : idx_main_v204 (ix2 e ⟨0, Nat.one_pos⟩) = ix1 e := by funext a; match a with | ⟨0, _⟩ => rfl
  rw [val_main_v204_apply, hi, val_main_v203_apply, val_main_v200_apply, val_main_v202_apply, val_main_v199_apply, val_main_v201_apply, val_main_c_47_apply,
    val_main_c_48_apply, src_read]
  rfl

/-- The index column of the message sum: the destination as it stands. -/
theorem rawIdx2b (e : Fin 3200000) : (val_main_v209 (F := Ideal) x4) (ix2 e ⟨0, Nat.one_pos⟩) = x4 (ix2 1 e) := by
  have hi : idx_main_v209 (ix2 e ⟨0, Nat.one_pos⟩) = ix1 e := by funext a; match a with | ⟨0, _⟩ => rfl
  rw [val_main_v209_apply, hi, dst_read]

/-- The degree count is the element scatter-add of ones into zeros through the counted destination column. -/
theorem degDef2b : (val_main_v179 (F := Ideal) x4) = Host.scatterAdd (F := Ideal) (φ := .f32) scatter_S100000_S3200000x1_S3200000_n_0_0_1 (val_main_v171 (F := Ideal)) (val_main_v177 (F := Ideal) x4) (val_main_v178 (F := Ideal)) := rfl

/-- The degree count starts from zero. -/
theorem degZero2b (r : Fin 100000) : (val_main_v171 (F := Ideal)) (ix1 r) = 0 := by
  rw [val_main_v171_apply, val_main_cst_38_apply, Ideal.ofBits_def, Ideal.ofBits_zero_f32]

/-- The degree count at r: one literal one per edge into r.  With every destination nonnegative the counted index is
    the destination itself, so the count is over the edges into r. -/
theorem degSum2b (hd : ∀ e : Fin 3200000, 0 ≤ (x4 (ix2 1 e)).toInt) (r : Fin 100000) :
    (val_main_v179 (F := Ideal) x4) (ix1 r) = ∑ _e ∈ (graphOf x4).into r, oneLit := by
  rw [degDef2b, scatterElemsAt _ _ _ r (degZero2b r)]
  unfold Graph.into
  refine sum_filter_congr _ _ (fun e => ?_) (fun e _ => ?_)
  · rw [degIdx2b, normIdx_of_nonneg _ (hd e)]
    exact Iff.rfl
  · rw [val_main_v178_apply, val_main_cst_41_apply, Ideal.ofBits_def]

/-- The normalising column: the degree count, one more for the self loop, to the power -1/2. -/
theorem dinv2b (hd : ∀ e : Fin 3200000, 0 ≤ (x4 (ix2 1 e)).toInt) (r : Fin 100000) :
    (val_main_v182 (F := Ideal) x4) (ix1 r) = (graphOf x4).dinv r := by
  rw [val_main_v182_apply, val_main_v181_apply, degSum2b hd r, val_main_v180_apply, val_main_cst_42_apply, Ideal.ofBits_def, Ideal.hostUnary_rsqrt_def,
    Ideal.addf_def]
  unfold Graph.dinv Graph.deg
  rfl

/-- The message sum is the row scatter-add of the weighted rows into zeros through the destination column. -/
theorem msgDef2b : (val_main_v210 (F := Ideal) x3 x4 x6 x7 x8) = Host.scatterAdd (F := Ideal) (φ := .f32) scatter_S100000x64_S3200000x1_S3200000x64_1_0_0_1 (val_main_v208 (F := Ideal)) (val_main_v209 (F := Ideal) x4) (val_main_v207 (F := Ideal) x3 x4 x6 x7 x8) := rfl

/-- The message sum starts from zero. -/
theorem msgZero2b (r : Fin 100000) (k : Fin 64) : (val_main_v208 (F := Ideal)) (ix2 r k) = 0 := by
  rw [val_main_v208_apply, val_main_cst_49_apply, Ideal.ofBits_def, Ideal.ofBits_zero_f32]

/-- The first weight lookup is an element lookup in the normalising column through the source column. -/
theorem wSrcDef2b : (val_main_v189 (F := Ideal) x4) = Host.gather gather_S100000_S3200000x1_S3200000_n_0_n_n_0_1_1 (val_main_v182 (F := Ideal) x4) (val_main_v188 (F := Ideal) x4) := rfl

/-- The second weight lookup is an element lookup in the normalising column through the destination column. -/
theorem wDstDef2b : (val_main_v196 (F := Ideal) x4) = Host.gather gather_S100000_S3200000x1_S3200000_n_0_n_n_0_1_1 (val_main_v182 (F := Ideal) x4) (val_main_v195 (F := Ideal) x4) := rfl

/-- The row lookup is a row lookup in the features through the source column. -/
theorem rowDef2b : (val_main_v205 (F := Ideal) x3 x4 x6 x7 x8) = Host.gather gather_S100000x64_S3200000x1_S3200000x64_1_0_n_n_0_1_164 (val_main_v170 (F := Ideal) x3 x4 x6 x7 x8) (val_main_v204 (F := Ideal) x4) := rfl

/-- The first weight of edge e is the normalising factor of its source node. -/
theorem wSrc2b (hd : ∀ e : Fin 3200000, 0 ≤ (x4 (ix2 1 e)).toInt) (e : Fin 3200000) :
    (val_main_v189 (F := Ideal) x4) (ix1 e) = (graphOf x4).dinv ((graphOf x4).src e) := by
  rw [wSrcDef2b, gatherElemsAt]
  refine (lookup_eq _ _ ((graphOf x4).src e) ?_).trans (dinv2b hd _)
  show min ((val_main_v188 (F := Ideal) x4) (ix2 e ⟨0, Nat.one_pos⟩)).toInt.toNat (100000 - 1) = ((graphOf x4).src e).val
  rw [srcIdxA2b]
  rfl

/-- The second weight of an edge into r is the normalising factor of r. -/
theorem wDst2b (hd : ∀ e : Fin 3200000, 0 ≤ (x4 (ix2 1 e)).toInt) (e : Fin 3200000) (r : Fin 100000)
    (hde : (x4 (ix2 1 e)).toInt = (r.val : ℤ)) : (val_main_v196 (F := Ideal) x4) (ix1 e) = (graphOf x4).dinv r := by
  rw [wDstDef2b, gatherElemsAt]
  refine (lookup_eq _ _ r ?_).trans (dinv2b hd r)
  show min ((val_main_v195 (F := Ideal) x4) (ix2 e ⟨0, Nat.one_pos⟩)).toInt.toNat (100000 - 1) = r.val
  rw [dstIdx2b]
  exact clamp_of_eq _ r hde

/-- The looked-up row of edge e is its source node's row of the features. -/
theorem rowSrc2b (e : Fin 3200000) (k : Fin 64) :
    (val_main_v205 (F := Ideal) x3 x4 x6 x7 x8) (ix2 e k) = (val_main_v170 (F := Ideal) x3 x4 x6 x7 x8) (ix2 ((graphOf x4).src e) k) := by
  rw [rowDef2b, gatherRowsAt]
  refine lookupRow_eq _ _ ((graphOf x4).src e) k ?_
  show min ((val_main_v204 (F := Ideal) x4) (ix2 e ⟨0, Nat.one_pos⟩)).toInt.toNat (100000 - 1) = ((graphOf x4).src e).val
  rw [srcIdxB2b]
  rfl

/-- The message sum at (r, k): over the edges into r, the two looked-up weights times the looked-up row's entry. -/
theorem msg2b (hd : ∀ e : Fin 3200000, 0 ≤ (x4 (ix2 1 e)).toInt) (r : Fin 100000) (k : Fin 64) :
    (val_main_v210 (F := Ideal) x3 x4 x6 x7 x8) (ix2 r k) = ∑ e ∈ (graphOf x4).into r,
      ((graphOf x4).dinv ((graphOf x4).src e) * (graphOf x4).dinv r) * (val_main_v170 (F := Ideal) x3 x4 x6 x7 x8) (ix2 ((graphOf x4).src e) k) := by
  rw [msgDef2b, scatterRowsAt _ _ _ r k (msgZero2b r k)]
  unfold Graph.into
  refine sum_filter_congr _ _ (fun e => ?_) (fun e he => ?_)
  · rw [rawIdx2b]
    exact Iff.rfl
  · have hi : idx_main_v198 (idx_main_v206 (ix2 e k)) = ix1 e := by funext a; match a with | ⟨0, _⟩ => rfl
    rw [val_main_v207_apply, val_main_v206_apply, val_main_v198_apply, hi, val_main_v197_apply, wSrc2b hd e, wDst2b hd e r he, rowSrc2b e k,
      Ideal.mulf_def, Ideal.mulf_def]

/-- ONE LAYER AS THE PROGRAM COMPUTES IT, at (r, k): the message sum, the self loop, the bias, the positive part. -/
theorem layer2b (hd : ∀ e : Fin 3200000, 0 ≤ (x4 (ix2 1 e)).toInt) (r : Fin 100000) (k : Fin 64) :
    (val_main_v219 (F := Ideal) x3 x4 x6 x7 x8 x9) (ix2 r k) = (graphOf x4).layerR (val_main_v170 (F := Ideal) x3 x4 x6 x7 x8) (asRow x9) (ix2 r k) := by
  have i46 : idx_main_v212 (idx_main_v213 (ix2 r k)) = ix1 r := by funext a; match a with | ⟨0, _⟩ => rfl
  have i50 : idx_main_v216 (idx_main_v217 (ix2 r k)) = ix1 k := by funext a; match a with | ⟨0, _⟩ => rfl
  rw [Graph.layerR_apply, asRow_apply, val_main_v219_apply, val_main_v218_apply, val_main_v215_apply, msg2b hd r k, val_main_v214_apply, val_main_v213_apply,
    val_main_v212_apply, i46, val_main_v211_apply, dinv2b hd r, val_main_v217_apply, val_main_v216_apply, i50, val_main_call3_v0_apply, val_main_call3_cst_apply,
    Ideal.ofBits_def, Ideal.ofBits_zero_f32, Ideal.maximumf_def, Ideal.addf_def, Ideal.addf_def, Ideal.mulf_def,
    Ideal.mulf_def]

/-- The first product is the plain product of the features and the first weights. -/
theorem feat1 : (val_main_v120 (F := Ideal) x3 x6) = mm x3 x6 := by
  funext i
  obtain ⟨r, k, rfl⟩ : ∃ (r : Fin 100000) (k : Fin 64), i = ix2 r k := ⟨i 0, i 1, eq_ix2 i⟩
  rw [val_main_v120_apply, mm_apply]
  refine Finset.sum_congr rfl fun q _ => ?_
  have el : lidx_main_v120 (ix2 r k) q = ix2 r q := by funext a; match a with | ⟨0, _⟩ => rfl | ⟨1, _⟩ => rfl
  have er : ridx_main_v120 (ix2 r k) q = ix2 q k := by funext a; match a with | ⟨0, _⟩ => rfl | ⟨1, _⟩ => rfl
  rw [el, er]

/-- The second product is the plain product of the first layer's result and the second weights. -/
theorem feat2 : (val_main_v170 (F := Ideal) x3 x4 x6 x7 x8) = mm (val_main_v169 (F := Ideal) x3 x4 x6 x7) x8 := by
  funext i
  obtain ⟨r, k, rfl⟩ : ∃ (r : Fin 100000) (k : Fin 64), i = ix2 r k := ⟨i 0, i 1, eq_ix2 i⟩
  rw [val_main_v170_apply, mm_apply]
  refine Finset.sum_congr rfl fun q _ => ?_
  have el : lidx_main_v170 (ix2 r k) q = ix2 r q := by funext a; match a with | ⟨0, _⟩ => rfl | ⟨1, _⟩ => rfl
  have er : ridx_main_v170 (ix2 r k) q = ix2 q k := by funext a; match a with | ⟨0, _⟩ => rfl | ⟨1, _⟩ => rfl
  rw [el, er]

/-- THE TWO LAYERS: the program's second layer result is the graph's two-layer convolution, each edge's message
    weighted by the two endpoints' normalising factors. -/
theorem conv2 (hd : ∀ e : Fin 3200000, 0 ≤ (x4 (ix2 1 e)).toInt) :
    (val_main_v219 (F := Ideal) x3 x4 x6 x7 x8 x9) = (graphOf x4).convR x3 x6 (asRow x7) x8 (asRow x9) := by
  have h1 : (val_main_v169 (F := Ideal) x3 x4 x6 x7) = (graphOf x4).layerR (val_main_v120 (F := Ideal) x3 x6) (asRow x7) := by
    funext i
    obtain ⟨r, k, rfl⟩ : ∃ (r : Fin 100000) (k : Fin 64), i = ix2 r k := ⟨i 0, i 1, eq_ix2 i⟩
    exact layer2a hd r k
  have h2 : (val_main_v219 (F := Ideal) x3 x4 x6 x7 x8 x9) = (graphOf x4).layerR (val_main_v170 (F := Ideal) x3 x4 x6 x7 x8) (asRow x9) := by
    funext i
    obtain ⟨r, k, rfl⟩ : ∃ (r : Fin 100000) (k : Fin 64), i = ix2 r k := ⟨i 0, i 1, eq_ix2 i⟩
    exact layer2b hd r k
  unfold Graph.convR
  rw [h2, feat2, h1, feat1]

end Cert.RefConv2

end
-- ==== Proof.RefHead.lean ====
/-
  The reference program's pooling and classifier head, read at an index.

  Each graph's node features (the second convolution layer's result; any [100000, 64] array serves here) are summed per
  graph of the batch by a scatter-add of rows through the batch vector, the node counts are a scatter-add of ones, and
  the mean embedding is their quotient, the count raised to at least one.  The classifier lays the two embeddings and
  their absolute difference side by side, multiplies by the first weight matrix, adds the bias, takes the maximum with
  zero, multiplies by the second weight column, adds its bias and applies the logistic function, which the program
  spells 1.0 / (1.0 + e^(-x)).  `head_ref` states the last stage as
  `asVec (score (hiddenCat (meanOf (pool …) (count …)) (meanOf (pool …) (count …)) W b) w' b')`
  of the two convolution stages, which are never opened.
-/
import proofs.«169936_j65317862637645_2_alg».proof.Proof.RefReadPatched
import proofs.«169936_j65317862637645_2_alg».proof.Proof.GraphSpec
import proofs.«169936_j65317862637645_2_alg».proof.Proof.LibScatterRows
import proofs.«169936_j65317862637645_2_alg».proof.Proof.LibScatterElems
import Idealize.ShloMosaic.Lib.Pipeline.Value
import Idealize.ShloMosaic.Lib.ValueIdx
import Idealize.ShloMosaic.PureOps.Ideal.Laws

noncomputable section

namespace Cert.RefHead

open Cert.ReferenceIdeal Cert.ReferenceIdeal.Gen Cert.ReferenceIdeal.Read Idealize.ShloMosaic Idealize.ShloMosaic.ValueIdx Cert.Gcn

/-- The float literal `1.0` is the real number one. -/
theorem oneLit_one : oneLit = 1 := by
  have h : ((8388608 : ℝ) * ((2 : ℝ) ^ 23)⁻¹ : ℝ) = 1 := by norm_num
  simp [oneLit, Ideal.ofBits, Ideal.ieee]
  rw [← EReal.coe_mul]
  exact_mod_cast h

/-- `1.0 / (1.0 + e^(-x))` is the logistic function of `x`. -/
theorem logistic_spelt (x : EReal) : Ideal.div oneLit (oneLit + Ideal.exp (-x)) = Ideal.logistic x := by
  rw [oneLit_one]; rfl

/-- A scatter-add of the rows of `h` into a zero `[1024, 64]` array through the batch vector is the per-graph sum of rows. -/
theorem pool_gen (bt : IVec S100000 32) (z : S1024x64.Idx → EReal) (idx : IVec S100000x1 32) (h : S100000x64.Idx → EReal)
    (hz : ∀ i, z i = 0) (hidx : ∀ e : Fin 100000, idx (ix2 e ⟨0, Nat.one_pos⟩) = bt (ix1 e)) (q : Fin 1024) (k : Fin 64) :
    Host.scatterAdd (F := Ideal) (φ := .f32) scatter_S1024x64_S100000x1_S100000x64_1_0_0_1 z idx h (ix2 q k)
      = pool (G := 1024) (batchOf bt) h (ix2 q k) := by
  have hd : scatter_S1024x64_S100000x1_S100000x64_1_0_0_1
      = ScatterRows.rowsDims 1024 64 100000 scatter_S1024x64_S100000x1_S100000x64_1_0_0_1_wf := rfl
  unfold Host.scatterAdd
  rw [Ideal.hostScatterAdd_def, hd, ScatterRows.hostScatterAdd_apply, pool_apply, hz, zero_add]
  refine Finset.sum_congr (Finset.filter_congr fun e _ => ?_) fun _ _ => rfl
  rw [hidx]; rfl

/-- A scatter-add of ones into a zero `[1024]` array through the batch vector counts the nodes of each graph. -/
theorem count_gen (bt : IVec S100000 32) (z : S1024.Idx → EReal) (idx : IVec S100000x1 32) (u : S100000.Idx → EReal)
    (hz : ∀ i, z i = 0) (hidx : ∀ e : Fin 100000, idx (ix2 e ⟨0, Nat.one_pos⟩) = bt (ix1 e)) (hu : ∀ i, u i = oneLit)
    (q : Fin 1024) :
    Host.scatterAdd (F := Ideal) (φ := .f32) scatter_S1024_S100000x1_S100000_n_0_0_1 z idx u (ix1 q)
      = count (G := 1024) (batchOf bt) (ix2 q 0) := by
  have hd : scatter_S1024_S100000x1_S100000_n_0_0_1
      = ScatterElems.elemsDims 1024 100000 scatter_S1024_S100000x1_S100000_n_0_0_1_wf := rfl
  unfold Host.scatterAdd
  rw [Ideal.hostScatterAdd_def, hd, ScatterElems.hostScatterAdd_apply, count_apply, hz, zero_add]
  refine Finset.sum_congr (Finset.filter_congr fun e _ => ?_) fun e _ => hu _
  rw [hidx]; rfl

/-- Three `[1024, 64]` arrays laid side by side, the third the absolute difference of the first two, read at `(r, k)`:
    the first for `k < 64`, the second for `64 ≤ k < 128`, the third from there on. -/
theorem cat_read (A B : S1024x64.Idx → EReal) (r : Fin 1024) (k : Fin 192) :
    concatenate S1024x192 1 [⟨S1024x64, A⟩, ⟨S1024x64, B⟩,
        ⟨S1024x64, fun i => FloatOps.absf (F := Ideal) (φ := .f32) (A i - B i)⟩]
        concatenates_S1024x64_S1024x64_S1024x64_S1024x192_d1 (ix2 r k)
      = cat3 (g := 1024) (c := 64) A B (ix2 r k) := by
  by_cases h1 : k.val < 64
  · have e : cat3 (g := 1024) (c := 64) A B (ix2 r k) = A (ix2 r ⟨k.val, h1⟩) := dif_pos h1
    rw [e]
    refine concatenate_apply_piece (t := S1024x192) 1 [⟨S1024x64, A⟩, ⟨S1024x64, B⟩,
        ⟨S1024x64, fun i => FloatOps.absf (F := Ideal) (φ := .f32) (A i - B i)⟩]
      concatenates_S1024x64_S1024x64_S1024x64_S1024x192_d1 (ix2 r k) 0 (by show 0 < 3; omega)
      S1024x64 A rfl rfl 0 rfl (ix2 r ⟨k.val, h1⟩) (fun b hb => ?_) ?_
    · match b, hb with
      | ⟨0, _⟩, _ => rfl
      | ⟨1, _⟩, hb => exact absurd rfl hb
    · exact Nat.zero_add _
  · by_cases h2 : k.val < 64 + 64
    · have e : cat3 (g := 1024) (c := 64) A B (ix2 r k) = B (ix2 r ⟨k.val - 64, by omega⟩) :=
        (dif_neg h1).trans (dif_pos h2)
      rw [e]
      refine concatenate_apply_piece (t := S1024x192) 1 [⟨S1024x64, A⟩, ⟨S1024x64, B⟩,
          ⟨S1024x64, fun i => FloatOps.absf (F := Ideal) (φ := .f32) (A i - B i)⟩]
        concatenates_S1024x64_S1024x64_S1024x64_S1024x192_d1 (ix2 r k) 1 (by show 1 < 3; omega)
        S1024x64 B rfl rfl 64 rfl (ix2 r ⟨k.val - 64, by omega⟩) (fun b hb => ?_) ?_
      · match b, hb with
        | ⟨0, _⟩, _ => rfl
        | ⟨1, _⟩, hb => exact absurd rfl hb
      · show 64 + (k.val - 64) = k.val
        omega
    · have hk : k.val < 192 := k.isLt
      have e : cat3 (g := 1024) (c := 64) A B (ix2 r k)
          = FloatOps.absf (F := Ideal) (φ := .f32) (A (ix2 r ⟨k.val - (64 + 64), by omega⟩) - B (ix2 r ⟨k.val - (64 + 64), by omega⟩)) :=
        (dif_neg h1).trans (dif_neg h2)
      rw [e]
      refine concatenate_apply_piece (t := S1024x192) 1 [⟨S1024x64, A⟩, ⟨S1024x64, B⟩,
          ⟨S1024x64, fun i => FloatOps.absf (F := Ideal) (φ := .f32) (A i - B i)⟩]
        concatenates_S1024x64_S1024x64_S1024x64_S1024x192_d1 (ix2 r k) 2 (by show 2 < 3; omega)
        S1024x64 (fun i => FloatOps.absf (F := Ideal) (φ := .f32) (A i - B i)) rfl rfl 128 rfl
        (ix2 r ⟨k.val - (64 + 64), by omega⟩) (fun b hb => ?_) ?_
      · match b, hb with
        | ⟨0, _⟩, _ => rfl
        | ⟨1, _⟩, hb => exact absurd rfl hb
      · show 128 + (k.val - (64 + 64)) = k.val
        omega

/-- The first graph's mean embedding: the pooled rows of the convolution's result over the node counts raised to at least one. -/
theorem emb1_eq (x0 : (⟨S100000x128, .f32⟩ : BufTy).Contents (Elt Ideal)) (x1 : (⟨S2x3200000, .i32⟩ : BufTy).Contents (Elt Ideal)) (x2 : (⟨S100000, .i32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v115 (F := Ideal) x0 x1 x2 x6 x7 x8 x9
      = meanOf (pool (G := 1024) (batchOf x2) (val_main_v103 (F := Ideal) x0 x1 x6 x7 x8 x9)) (count (batchOf x2)) := by
  funext i
  obtain ⟨r, k, rfl⟩ : ∃ (r : Fin 1024) (k : Fin 64), i = ix2 r k := ⟨i 0, i 1, eq_ix2 i⟩
  rw [val_main_v115_apply, Ideal.hostDivf_def, meanOf_apply, val_main_v114_apply, val_main_v113_apply, val_main_v112_apply,
    Ideal.maximumf_def, val_main_v111_apply, val_main_cst_25_apply, Ideal.ofBits_def]
  unfold val_main_v106 val_main_v110
  generalize val_main_v103 (F := Ideal) x0 x1 x6 x7 x8 x9 = h
  have hidx : ∀ e : Fin 100000, val_main_v105 (F := Ideal) x2 (ix2 e ⟨0, Nat.one_pos⟩) = x2 (ix1 e) := fun e => by
    rw [val_main_v105_apply]; exact congrArg x2 (funext fun a => match a with | ⟨0, _⟩ => rfl)
  have hidx' : ∀ e : Fin 100000, val_main_v109 (F := Ideal) x2 (ix2 e ⟨0, Nat.one_pos⟩) = x2 (ix1 e) := fun e => by
    rw [val_main_v109_apply]; exact congrArg x2 (funext fun a => match a with | ⟨0, _⟩ => rfl)
  have hz : ∀ i, val_main_v104 (F := Ideal) i = 0 := fun i => by
    rw [val_main_v104_apply, val_main_cst_22_apply, Ideal.ofBits_def, Ideal.ofBits_zero_f32]
  have hz' : ∀ i, val_main_v108 (F := Ideal) i = 0 := fun i => by
    rw [val_main_v108_apply, val_main_cst_24_apply, Ideal.ofBits_def, Ideal.ofBits_zero_f32]
  have hu : ∀ i, val_main_v107 (F := Ideal) i = oneLit := fun i => by
    rw [val_main_v107_apply, val_main_cst_23_apply, Ideal.ofBits_def]
  have ei : idx_main_v113 (idx_main_v114 (ix2 r k)) = ix1 r :=
    funext fun a => match a with | ⟨0, _⟩ => rfl
  rw [ei, pool_gen x2 _ _ h hz hidx r k, count_gen x2 _ _ _ hz' hidx' hu r]

/-- The second graph's mean embedding, the same way. -/
theorem emb2_eq (x3 : (⟨S100000x128, .f32⟩ : BufTy).Contents (Elt Ideal)) (x4 : (⟨S2x3200000, .i32⟩ : BufTy).Contents (Elt Ideal)) (x5 : (⟨S100000, .i32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v231 (F := Ideal) x3 x4 x5 x6 x7 x8 x9
      = meanOf (pool (G := 1024) (batchOf x5) (val_main_v219 (F := Ideal) x3 x4 x6 x7 x8 x9)) (count (batchOf x5)) := by
  funext i
  obtain ⟨r, k, rfl⟩ : ∃ (r : Fin 1024) (k : Fin 64), i = ix2 r k := ⟨i 0, i 1, eq_ix2 i⟩
  rw [val_main_v231_apply, Ideal.hostDivf_def, meanOf_apply, val_main_v230_apply, val_main_v229_apply, val_main_v228_apply,
    Ideal.maximumf_def, val_main_v227_apply, val_main_cst_53_apply, Ideal.ofBits_def]
  unfold val_main_v222 val_main_v226
  generalize val_main_v219 (F := Ideal) x3 x4 x6 x7 x8 x9 = h
  have hidx : ∀ e : Fin 100000, val_main_v221 (F := Ideal) x5 (ix2 e ⟨0, Nat.one_pos⟩) = x5 (ix1 e) := fun e => by
    rw [val_main_v221_apply]; exact congrArg x5 (funext fun a => match a with | ⟨0, _⟩ => rfl)
  have hidx' : ∀ e : Fin 100000, val_main_v225 (F := Ideal) x5 (ix2 e ⟨0, Nat.one_pos⟩) = x5 (ix1 e) := fun e => by
    rw [val_main_v225_apply]; exact congrArg x5 (funext fun a => match a with | ⟨0, _⟩ => rfl)
  have hz : ∀ i, val_main_v220 (F := Ideal) i = 0 := fun i => by
    rw [val_main_v220_apply, val_main_cst_50_apply, Ideal.ofBits_def, Ideal.ofBits_zero_f32]
  have hz' : ∀ i, val_main_v224 (F := Ideal) i = 0 := fun i => by
    rw [val_main_v224_apply, val_main_cst_52_apply, Ideal.ofBits_def, Ideal.ofBits_zero_f32]
  have hu : ∀ i, val_main_v223 (F := Ideal) i = oneLit := fun i => by
    rw [val_main_v223_apply, val_main_cst_51_apply, Ideal.ofBits_def]
  have ei : idx_main_v229 (idx_main_v230 (ix2 r k)) = ix1 r :=
    funext fun a => match a with | ⟨0, _⟩ => rfl
  rw [ei, pool_gen x5 _ _ h hz hidx r k, count_gen x5 _ _ _ hz' hidx' hu r]

/-- The hidden layer: one product of the three embeddings laid side by side with the first weight matrix, the bias, and
    the maximum with zero. -/
theorem hid_eq (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S100000x128, .f32⟩ : BufTy).Contents (Elt Ideal)) (x4 : (⟨S2x3200000, .i32⟩ : BufTy).Contents (Elt Ideal)) (x5 : (⟨S100000, .i32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S192x64, .f32⟩ : BufTy).Contents (Elt Ideal)) (x11 : (⟨S64, .f32⟩ : BufTy).Contents (Elt Ideal)) :
    val_main_v239 (F := Ideal) x0 x1 x2 x3 x4 x5 x6 x7 x8 x9 x10 x11
      = hiddenCat (c := 64) (val_main_v115 (F := Ideal) x0 x1 x2 x6 x7 x8 x9) (val_main_v231 (F := Ideal) x3 x4 x5 x6 x7 x8 x9) x10 (asRow x11) := by
  funext i
  obtain ⟨r, k, rfl⟩ : ∃ (r : Fin 1024) (k : Fin 64), i = ix2 r k := ⟨i 0, i 1, eq_ix2 i⟩
  rw [val_main_v239_apply, val_main_v238_apply, val_main_v235_apply, val_main_v237_apply, val_main_v236_apply,
    val_main_call4_v0_apply, val_main_call4_cst_apply, Ideal.maximumf_def, Ideal.addf_def, Ideal.ofBits_def,
    Ideal.ofBits_zero_f32]
  have e233 : val_main_v233 (F := Ideal) x0 x1 x2 x3 x4 x5 x6 x7 x8 x9
      = fun i => FloatOps.absf (F := Ideal) (φ := .f32) ((val_main_v115 (F := Ideal) x0 x1 x2 x6 x7 x8 x9) i - (val_main_v231 (F := Ideal) x3 x4 x5 x6 x7 x8 x9) i) := by
    funext i; rw [val_main_v233_apply, val_main_v232_apply, Ideal.hostAbsf_def, Ideal.subf_def]
  unfold val_main_v234
  rw [e233]
  generalize val_main_v115 (F := Ideal) x0 x1 x2 x6 x7 x8 x9 = U
  generalize val_main_v231 (F := Ideal) x3 x4 x5 x6 x7 x8 x9 = V
  have el : ∀ q : Fin 192, lidx_main_v235 (ix2 r k) q = ix2 r q := fun q =>
    funext fun a => match a with | ⟨0, _⟩ => rfl | ⟨1, _⟩ => rfl
  have er : ∀ q : Fin 192, ridx_main_v235 (ix2 r k) q = ix2 q k := fun q =>
    funext fun a => match a with | ⟨0, _⟩ => rfl | ⟨1, _⟩ => rfl
  have eb : idx_main_v236 (idx_main_v237 (ix2 r k)) = ix1 k := funext fun a => match a with | ⟨0, _⟩ => rfl
  simp only [el, er, eb, cat_read]
  rfl

/-- The output: one more product and a bias, then the logistic function spelt as negate, exponential, `1.0 +`, `1.0 ÷`,
    and the `[1024, 1]` column read as a vector. -/
theorem out_eq (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S100000x128, .f32⟩ : BufTy).Contents (Elt Ideal)) (x4 : (⟨S2x3200000, .i32⟩ : BufTy).Contents (Elt Ideal)) (x5 : (⟨S100000, .i32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S192x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) :
    val_main_v250 (F := Ideal) x0 x1 x2 x3 x4 x5 x6 x7 x8 x9 x10 x11 x12 x13
      = asVec (score (val_main_v239 (F := Ideal) x0 x1 x2 x3 x4 x5 x6 x7 x8 x9 x10 x11) x12 (asRow x13)) := by
  funext i
  obtain ⟨r, rfl⟩ : ∃ r : Fin 1024, i = ix1 r := ⟨i 0, eq_ix1 i⟩
  rw [val_main_v250_apply, val_main_v249_apply, val_main_v248_apply, val_main_cst_55_apply, val_main_v247_apply,
    val_main_v246_apply, val_main_cst_54_apply, val_main_v245_apply, val_main_v244_apply, val_main_v243_apply,
    val_main_v240_apply, val_main_v242_apply, val_main_v241_apply]
  simp only [Ideal.hostDivf_def, Ideal.addf_def, Ideal.hostUnary_exp_def, Ideal.hostNegf_def, Ideal.negf_def, Ideal.ofBits_def]
  generalize val_main_v239 (F := Ideal) x0 x1 x2 x3 x4 x5 x6 x7 x8 x9 x10 x11 = z
  have e0 : idx_main_v250 (ix1 r) = ix2 r ⟨0, Nat.one_pos⟩ :=
    funext fun a => match a with | ⟨0, _⟩ => Fin.ext (Nat.div_one _) | ⟨1, _⟩ => rfl
  rw [e0]
  have el : ∀ q : Fin 64, lidx_main_v240 (ix2 r ⟨0, Nat.one_pos⟩) q = ix2 r q := fun q =>
    funext fun a => match a with | ⟨0, _⟩ => rfl | ⟨1, _⟩ => rfl
  have er : ∀ q : Fin 64, ridx_main_v240 (ix2 r ⟨0, Nat.one_pos⟩) q = ix2 q ⟨0, Nat.one_pos⟩ := fun q =>
    funext fun a => match a with | ⟨0, _⟩ => rfl | ⟨1, _⟩ => rfl
  have eb : idx_main_v241 (idx_main_v242 (ix2 r ⟨0, Nat.one_pos⟩)) = ix1 ⟨0, Nat.one_pos⟩ :=
    funext fun a => match a with | ⟨0, _⟩ => rfl
  simp only [el, er, eb]
  exact logistic_spelt _

/-- THE REFERENCE'S POOLING AND CLASSIFIER HEAD, relative to the two convolutions' results: the final stage is the
    classifier's score of the hidden layer of the two graphs' mean embeddings. -/
theorem head_ref (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S100000x128, .f32⟩ : BufTy).Contents (Elt Ideal)) (x4 : (⟨S2x3200000, .i32⟩ : BufTy).Contents (Elt Ideal)) (x5 : (⟨S100000, .i32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S192x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) :
    val_main_v250 (F := Ideal) x0 x1 x2 x3 x4 x5 x6 x7 x8 x9 x10 x11 x12 x13
      = asVec (score (hiddenCat (c := 64)
          (meanOf (pool (G := 1024) (batchOf x2) (val_main_v103 (F := Ideal) x0 x1 x6 x7 x8 x9)) (count (batchOf x2)))
          (meanOf (pool (G := 1024) (batchOf x5) (val_main_v219 (F := Ideal) x3 x4 x6 x7 x8 x9)) (count (batchOf x5)))
          x10 (asRow x11)) x12 (asRow x13)) := by
  rw [out_eq, hid_eq, emb1_eq, emb2_eq]

end Cert.RefHead

end
-- ==== Proof.LibSymNorm.lean ====
/-
  Scaling a finite sum of extended reals by a finite nonnegative factor, and the separability of a symmetric
  normalisation of graph messages.

  On the extended reals multiplication does not distribute over addition in general (an infinite term of each sign
  may meet), but it does when the factor is a finite nonnegative number: such a factor keeps every infinity where it
  is, or sends everything to zero.  So a message sum whose every term carries the factor d r — the weight of the
  receiving node r — is the sum without that factor, scaled by d r once afterwards; and a self-message a r · (d r · d r)
  joins the sum as a r · d r before the scaling.  The values a may be any extended reals.
-/
import Mathlib.Data.EReal.Operations
import Mathlib.Data.EReal.Inv
import Mathlib.Algebra.BigOperators.Group.Finset.Basic

noncomputable section

namespace Idealize.ShloMosaic.SymNorm

open scoped BigOperators

/-- A finite nonnegative factor distributes over a finite sum of extended reals. -/
theorem sum_mul_of_nonneg_of_ne_top {ι : Type*} (s : Finset ι) (f : ι → EReal) {c : EReal} (hc : 0 ≤ c)
    (hc' : c ≠ ⊤) : (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top hc hc', ih]

/-- The messages into node r, each weighted by the product of its sender's and r's weights, together with r's message
    to itself, are the messages weighted by their senders' weights alone, plus r's own weighted value, all scaled by
    r's weight once. -/
theorem messages_separable {ι κ : Type*} (s : Finset ι) (src : ι → κ) (a d : κ → EReal) (r : κ) (h0 : 0 ≤ d r)
    (ht : d r ≠ ⊤) :
    (∑ e ∈ s, a (src e) * (d (src e) * d r)) + a r * (d r * d r)
      = ((∑ e ∈ s, a (src e) * d (src e)) + a r * d r) * d r := by
  rw [EReal.right_distrib_of_nonneg_of_ne_top h0 ht, sum_mul_of_nonneg_of_ne_top _ _ h0 ht]
  refine congrArg₂ (· + ·) (Finset.sum_congr rfl fun e _ => ?_) ?_
  · exact (mul_assoc (a (src e)) (d (src e)) (d r)).symm
  · exact (mul_assoc (a r) (d r) (d r)).symm

end Idealize.ShloMosaic.SymNorm

end
-- ==== Proof.LayerLaw.lean ====
/-
  The algebra between the two arrangements of the graph convolution and of the classifier's hidden layer.

  The degree of a node is a positive natural number, so its inverse square root `d r` is a finite nonnegative real.
  Such a factor distributes over a sum of extended reals whatever the summands are, hence
  `d r · (Σ_e d(src e) · a(src e, k) + d r · a(r, k)) = Σ_e (d(src e) · d r) · a(src e, k) + (d r · d r) · a(r, k)`:
  one layer computed on pre-scaled rows is the layer computed with per-edge weights.  The hidden layer through one
  product with a `3c`-row weight matrix is the sum of three products with its `c`-row blocks, because a sum over
  `3c` columns splits into three sums over `c` columns.
-/
import proofs.«169936_j65317862637645_2_alg».proof.Proof.GraphSpec
import proofs.«169936_j65317862637645_2_alg».proof.Proof.LibSymNorm
import Idealize.ShloMosaic.Lib.IdealHost
import Mathlib.Algebra.BigOperators.Fin

noncomputable section

namespace Cert.Gcn

open Idealize.ShloMosaic Idealize.ShloMosaic.ValueIdx
open scoped BigOperators

/-- The word `0x3F800000` denotes the real number one. -/
theorem oneLit_eq : oneLit = 1 := Ideal.ofBits_one_f32

namespace Graph

variable {N E : Nat} (g : Graph N E)

/-- The degree is the number of incoming edges plus one, a positive natural number. -/
theorem deg_eq (r : Fin N) : g.deg r = ((((g.into r).card + 1 : ℕ) : ℝ) : EReal) := by
  unfold deg
  rw [oneLit_eq, Finset.sum_const, EReal.nsmul_eq_mul, mul_one, Nat.cast_add, Nat.cast_one, EReal.coe_add,
    EReal.coe_one, EReal.coe_natCast]

/-- The inverse square root of the degree, as a real number. -/
theorem dinv_eq (r : Fin N) :
    g.dinv r = (((Real.sqrt (((g.into r).card + 1 : ℕ) : ℝ))⁻¹ : ℝ) : EReal) := by
  unfold dinv
  rw [deg_eq, Ideal.rsqrt_coe]
  have hpos : (0 : ℝ) < (((g.into r).card + 1 : ℕ) : ℝ) := by positivity
  rw [if_neg (not_lt.mpr hpos.le), if_neg hpos.ne']

theorem dinv_nonneg (r : Fin N) : 0 ≤ g.dinv r := by
  rw [dinv_eq]
  exact EReal.coe_nonneg.mpr (inv_nonneg.mpr (Real.sqrt_nonneg _))

theorem dinv_ne_top (r : Fin N) : g.dinv r ≠ ⊤ := by
  rw [dinv_eq]
  exact EReal.coe_ne_top _

end Graph

namespace Graph

variable {N E : Nat}

/-- The two arrangements of one layer agree: the receiving node's weight is a finite nonnegative real, so it
    distributes over the sum of the incoming messages and the node's own message. -/
theorem layerK_eq_layerR {c : Nat} (g : Graph N E) (a : Mat N c) (b : Mat 1 c) : g.layerK a b = g.layerR a b := by
  funext i
  obtain ⟨r, k, rfl⟩ : ∃ r k, i = ix2 r k := ⟨i 0, i 1, eq_ix2 i⟩
  have h0 := g.dinv_nonneg r
  have ht := g.dinv_ne_top r
  show max (g.dinv r * ((∑ e ∈ g.into r, g.dinv (g.src e) * a (ix2 (g.src e) k)) + g.dinv r * a (ix2 r k))
      + b (ix2 0 k)) 0
    = max (((∑ e ∈ g.into r, (g.dinv (g.src e) * g.dinv r) * a (ix2 (g.src e) k))
      + (g.dinv r * g.dinv r) * a (ix2 r k)) + b (ix2 0 k)) 0
  rw [EReal.left_distrib_of_nonneg_of_ne_top h0 ht, mul_comm (g.dinv r) (∑ e ∈ g.into r, _),
    SymNorm.sum_mul_of_nonneg_of_ne_top _ _ h0 ht, ← mul_assoc]
  refine congrArg (fun t => max (t + g.dinv r * g.dinv r * a (ix2 r k) + b (ix2 0 k)) 0)
    (Finset.sum_congr rfl fun e _ => ?_)
  exact mul_right_comm _ _ _

/-- Two layers agree in the two arrangements. -/
theorem convK_eq_convR {f c : Nat} (g : Graph N E) (x : Mat N f) (W1 : Mat f c) (b1 : Mat 1 c) (W2 : Mat c c)
    (b2 : Mat 1 c) : g.convK x W1 b1 W2 b2 = g.convR x W1 b1 W2 b2 := by
  unfold convK convR
  rw [layerK_eq_layerR, layerK_eq_layerR]

end Graph

theorem rowBlock_apply {t c h : Nat} (o : Nat) (ho : o + c ≤ t) (w : Mat t h) (p : Fin c) (k : Fin h) :
    rowBlock o ho w (ix2 p k) = w (ix2 ⟨o + p.val, by have := p.isLt; omega⟩ k) := rfl

/-- Columns `[0, c)` of the side-by-side array are the first embedding. -/
theorem cat3_left {g c : Nat} (u v : Mat g c) (r : Fin g) (p : Fin c) :
    cat3 u v (ix2 r (Fin.castAdd c (Fin.castAdd c p))) = u (ix2 r p) := by
  have h : ((ix2 r (Fin.castAdd c (Fin.castAdd c p)) : (⟨2, ![g, c + c + c]⟩ : Shape).Idx) 1).val < c := p.isLt
  unfold cat3
  rw [dif_pos h]
  rfl

/-- Columns `[c, 2c)` are the second embedding. -/
theorem cat3_mid {g c : Nat} (u v : Mat g c) (r : Fin g) (p : Fin c) :
    cat3 u v (ix2 r (Fin.castAdd c (Fin.natAdd c p))) = v (ix2 r p) := by
  have h : ¬ ((ix2 r (Fin.castAdd c (Fin.natAdd c p)) : (⟨2, ![g, c + c + c]⟩ : Shape).Idx) 1).val < c := by
    show ¬ c + p.val < c
    omega
  have h2 : ((ix2 r (Fin.castAdd c (Fin.natAdd c p)) : (⟨2, ![g, c + c + c]⟩ : Shape).Idx) 1).val < c + c := by
    show c + p.val < c + c
    have := p.isLt
    omega
  unfold cat3
  rw [dif_neg h, dif_pos h2]
  refine congrArg (fun q => v (ix2 r q)) (Fin.ext ?_)
  show c + p.val - c = p.val
  omega

/-- Columns `[2c, 3c)` are the absolute difference of the two embeddings. -/
theorem cat3_right {g c : Nat} (u v : Mat g c) (r : Fin g) (p : Fin c) :
    cat3 u v (ix2 r (Fin.natAdd (c + c) p))
      = FloatOps.absf (F := Ideal) (φ := .f32) (u (ix2 r p) - v (ix2 r p)) := by
  have h : ¬ ((ix2 r (Fin.natAdd (c + c) p) : (⟨2, ![g, c + c + c]⟩ : Shape).Idx) 1).val < c := by
    show ¬ c + c + p.val < c
    omega
  have h2 : ¬ ((ix2 r (Fin.natAdd (c + c) p) : (⟨2, ![g, c + c + c]⟩ : Shape).Idx) 1).val < c + c := by
    show ¬ c + c + p.val < c + c
    omega
  have hq : (⟨c + c + p.val - (c + c), by have := p.isLt; omega⟩ : Fin c) = p := Fin.ext (by show c + c + p.val - (c + c) = p.val; omega)
  unfold cat3
  rw [dif_neg h, dif_neg h2]
  show FloatOps.absf (F := Ideal) (φ := .f32) (u (ix2 r ⟨c + c + p.val - (c + c), _⟩) - v (ix2 r ⟨c + c + p.val - (c + c), _⟩)) = _
  rw [hq]

/-- The hidden layer through one product with the whole weight matrix is the hidden layer on the matrix's three row
    blocks: the sum over `3c` columns splits into three sums over `c` columns. -/
theorem hiddenCat_eq {g c h : Nat} (u v : Mat g c) (w : Mat (c + c + c) h) (b : Mat 1 h) :
    hiddenCat u v w b
      = hidden u v (rowBlock 0 (by omega) w) (rowBlock c (by omega) w) (rowBlock (c + c) (by omega) w) b := by
  funext i
  obtain ⟨r, k, rfl⟩ : ∃ r k, i = ix2 r k := ⟨i 0, i 1, eq_ix2 i⟩
  rw [hidden_apply]
  show max ((∑ q : Fin (c + c + c), cat3 u v (ix2 r q) * w (ix2 q k)) + b (ix2 0 k)) 0 = _
  rw [Fin.sum_univ_add, Fin.sum_univ_add]
  have hA : ∀ p : Fin c, w (ix2 (Fin.castAdd c (Fin.castAdd c p)) k) = rowBlock 0 (by omega) w (ix2 p k) := by
    intro p
    rw [rowBlock_apply]
    exact congrArg (fun q => w (ix2 q k)) (Fin.ext (Nat.zero_add p.val).symm)
  have hB : ∀ p : Fin c, w (ix2 (Fin.castAdd c (Fin.natAdd c p)) k) = rowBlock c (by omega) w (ix2 p k) :=
    fun p => rfl
  have hC : ∀ p : Fin c, w (ix2 (Fin.natAdd (c + c) p) k) = rowBlock (c + c) (by omega) w (ix2 p k) :=
    fun p => rfl
  simp only [cat3_left, cat3_mid, cat3_right, hA, hB, hC]

/-- The two programs' results agree. -/
theorem outK_eq_outR {N E G f c : Nat} (g1 g2 : Graph N E) (bt1 bt2 : Fin N → ℤ) (x1 x2 : Mat N f) (W1 : Mat f c)
    (b1 : Mat 1 c) (W2 : Mat c c) (b2 : Mat 1 c) (fw : Mat (c + c + c) c) (fb : Mat 1 c) (w2 : Mat c 1)
    (fb2 : Mat 1 1) :
    outK (G := G) g1 g2 bt1 bt2 x1 x2 W1 b1 W2 b2 fw fb w2 fb2
      = outR (G := G) g1 g2 bt1 bt2 x1 x2 W1 b1 W2 b2 fw fb w2 fb2 := by
  unfold outK outR head
  rw [Graph.convK_eq_convR, Graph.convK_eq_convR, hiddenCat_eq]

end Cert.Gcn

end
-- ==== Proof.PreDecode.lean ====
/-
  The precondition read back: beyond finiteness of the float inputs it says that every entry of row 1 of each edge
  list — every destination index — is nonnegative as a signed word.  The printed predicate is a conjunction of
  `all`-reductions; its last two conjuncts are the comparisons `dst ≥ 0` of the two edge lists, entry by entry.
-/
import proofs.«169936_j65317862637645_2_alg».proof.Defs
import proofs.«169936_j65317862637645_2_alg».proof.Proof.Gen.Pre_finite_inputs
import Idealize.ShloMosaic.Lib.ReduceAll
import Idealize.ShloMosaic.Lib.Affine
import Idealize.ShloMosaic.Lib.ValueIdx
import Idealize.ShloMosaic.Lib.Pipeline.Value

set_option maxRecDepth 16384

noncomputable section

namespace Cert.PreDecode

open Idealize.ShloMosaic Idealize.ShloMosaic.ValueIdx Idealize.SL.Sem
open Cert.Pre_finite_inputs Cert.Pre_finite_inputs.Facts

instance : Subsingleton S_.Idx := ⟨fun a b => funext fun d => d.elim0⟩

/-- A signed word that compares `≥ 0` is nonnegative. -/
theorem nonneg_of_sge (w : BitVec 32) (h : IntOp.cmpi .sge w (0#32) = 1#1) : 0 ≤ w.toInt := by
  unfold IntOp.cmpi at h
  have hb : (0#32 : BitVec 32).sle w = true := by
    cases hs : (0#32 : BitVec 32).sle w with
    | true => rfl
    | false => rw [hs] at h; exact absurd h (by show ¬ BitVec.ofBool false = 1#1; decide)
  have h0 : (0#32 : BitVec 32).toInt = 0 := by decide
  simp only [BitVec.sle, decide_eq_true_eq, h0] at hb
  exact hb

/-- Row 1 of an edge list, as the predicate slices it, read at an entry. -/
theorem row1_apply (ei : IVec S2x3200000 32) (e : Fin 3200000) :
    shapeCast S3200000 (extractStridedSlice S1x3200000 ![1, 0] ei slices_S2x3200000_S1x3200000_1_0) shapeCasts_S1x3200000_S3200000 (ix1 e)
      = ei (ix2 1 e) := by
  rw [shapeCast_apply _ shapeCasts_S1x3200000_S3200000 (ix1 e) (ix2 0 e) (by
    rw [Shape.rowMajor_val_two, Shape.rowMajor_val_one]; show 0 * 3200000 + e.val = e.val; omega)]
  exact extractStridedSlice_apply ![1, 0] ei slices_S2x3200000_S1x3200000_1_0 (ix2 0 e) (ix2 1 e) (fun a => match a with
    | ⟨0, _⟩ => by show (1 : Nat) = 1 + 0; rfl
    | ⟨1, _⟩ => by show e.val = 0 + e.val; omega)

/-- One `all (row 1 ≥ 0)` conjunct gives every destination index nonnegative. -/
theorem row1_nonneg (ei : IVec S2x3200000 32) (init : IVec S_ 1)
    (h : Host.reduce IntOp.andi
        (cmpi .sge (shapeCast S3200000 (extractStridedSlice S1x3200000 ![1, 0] ei slices_S2x3200000_S1x3200000_1_0) shapeCasts_S1x3200000_S3200000)
          (broadcastInDim S3200000 ![] bcast_S_S3200000 (constantI S_ 32 0#32)))
        init reducesTo_S3200000_S_d0 h_S_ ix0 = 1#1) (e : Fin 3200000) : 0 ≤ (ei (ix2 1 e)).toInt := by
  have h1 := Host.reduce_andi_all _ _ reducesTo_S3200000_S_d0 h_S_ ix0 h (ix1 e)
  have h2 : IntOp.cmpi .sge (shapeCast S3200000 (extractStridedSlice S1x3200000 ![1, 0] ei slices_S2x3200000_S1x3200000_1_0) shapeCasts_S1x3200000_S3200000 (ix1 e)) (0#32) = 1#1 := h1
  rw [row1_apply] at h2
  exact nonneg_of_sge _ h2

/-- THE PRECONDITION'S TWO INDEX CONJUNCTS: every destination index of both edge lists is nonnegative. -/
theorem dst_nonneg (m : (ℓ : Loc Cert.KernelIdeal.nD Cert.KernelIdeal.τ Cert.KernelIdeal.sig) → Buf (Elt Ideal) ℓ)
    (h : Cert.Pre_KernelIdeal m) (c : Dev Cert.KernelIdeal.nD) :
    (∀ e : Fin 3200000, 0 ≤ (m ((c.tc : Thread Cert.KernelIdeal.nD Cert.KernelIdeal.τ).loc Cert.KernelIdeal.main_arg1) (ix2 1 e)).toInt)
    ∧ (∀ e : Fin 3200000, 0 ≤ (m ((c.tc : Thread Cert.KernelIdeal.nD Cert.KernelIdeal.τ).loc Cert.KernelIdeal.main_arg4) (ix2 1 e)).toInt) := by
  have e0 := congrFun (h c) ix0
  unfold Cert.Pre_finite_inputs.fn Cert.Pre_finite_inputs.fn_part1 Cert.Pre_finite_inputs.fn_part2 Cert.Pre_finite_inputs.fn_part3 at e0
  dsimp only at e0
  obtain ⟨e1, e2⟩ := IntOp.andi_eq_one.mp e0
  obtain ⟨-, e3⟩ := IntOp.andi_eq_one.mp e1
  exact ⟨fun e => row1_nonneg _ _ e3 e, fun e => row1_nonneg _ _ e2 e⟩

end Cert.PreDecode

end
-- ==== Proof.lean ====
/-
  The certificate: a two-layer graph convolution on two graphs, mean-pooled and scored by a small classifier, computed
  by seven kernels among host gathers and scatters, against the same network written with array operations.

  The three frames are the generated ones (the reference's is its run with the result dropped).  The idealization
  changes nothing that needs a proof.  For the equivalence over the extended reals both programs' results are read as
  mathematics over the graph data (GraphSpec): the first program's result buffer is `outK` of its arguments (the run
  walked boundary by boundary), the reference's is `outR` (its stages read at an index), and `outK = outR` because the
  symmetric normalisation factor of a node — a finite nonnegative real — distributes over the sum of its neighbours'
  messages, and a product with three matrices laid side by side is the sum of the three products.  The precondition's
  index conjuncts (every destination index nonnegative) are what make the reference's degree count, taken through
  wrapped indices, the count of the edges into each node.
-/
import proofs.«169936_j65317862637645_2_alg».proof.Defs
import proofs.«169936_j65317862637645_2_alg».proof.Proof.Gen.Kernel
import proofs.«169936_j65317862637645_2_alg».proof.Proof.Gen.Kernel.Frame
import proofs.«169936_j65317862637645_2_alg».proof.Proof.Gen.KernelIdeal
import proofs.«169936_j65317862637645_2_alg».proof.Proof.Gen.KernelIdeal.Frame
import proofs.«169936_j65317862637645_2_alg».proof.Proof.Gen.ReferenceIdeal
import proofs.«169936_j65317862637645_2_alg».proof.Proof.Gen.Pre_finite_inputs
import proofs.«169936_j65317862637645_2_alg».proof.Proof.KernelRun
import proofs.«169936_j65317862637645_2_alg».proof.Proof.KernelValue2
import proofs.«169936_j65317862637645_2_alg».proof.Proof.RefRunPatched
import proofs.«169936_j65317862637645_2_alg».proof.Proof.RefReadPatched
import proofs.«169936_j65317862637645_2_alg».proof.Proof.RefConv1
import proofs.«169936_j65317862637645_2_alg».proof.Proof.RefConv2
import proofs.«169936_j65317862637645_2_alg».proof.Proof.RefHead
import proofs.«169936_j65317862637645_2_alg».proof.Proof.LayerLaw
import proofs.«169936_j65317862637645_2_alg».proof.Proof.PreDecode
import Idealize.ShloMosaic.Adequacy
import Idealize.ShloMosaic.Init

noncomputable section

namespace Cert.Proof

open Idealize.ShloMosaic Idealize.ShloMosaic.TcCoe Idealize.SL.Sem Cert.Gcn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- No rewrite of the idealization needs a proof. -/
theorem preserves : Cert.preserves_Kernel_KernelIdeal := trivial

/-- Both runs end, the kernel program's result buffer and the reference's at one function of the shared arguments. -/
theorem algebraic : Cert.algebraic_KernelIdeal_ReferenceIdeal := by
  intro m g m' g' hpre hagree
  refine ⟨fun c => outK (G := 1024) (graphOf (m ((c.tc : Thread Cert.KernelIdeal.nD Cert.KernelIdeal.τ).loc Cert.KernelIdeal.main_arg1))) (graphOf (m ((c.tc : Thread Cert.KernelIdeal.nD Cert.KernelIdeal.τ).loc Cert.KernelIdeal.main_arg4))) (batchOf (m ((c.tc : Thread Cert.KernelIdeal.nD Cert.KernelIdeal.τ).loc Cert.KernelIdeal.main_arg2))) (batchOf (m ((c.tc : Thread Cert.KernelIdeal.nD Cert.KernelIdeal.τ).loc Cert.KernelIdeal.main_arg5)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (asRow (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (asRow (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (asRow (m ((c.tc : Thread Cert.KernelIdeal.nD Cert.KernelIdeal.τ).loc Cert.KernelIdeal.main_arg11))) (m ((c.tc : Thread Cert.KernelIdeal.nD Cert.KernelIdeal.τ).loc Cert.KernelIdeal.main_arg12)) (asRow (m ((c.tc : Thread Cert.KernelIdeal.nD Cert.KernelIdeal.τ).loc Cert.KernelIdeal.main_arg13))), ?_, ?_⟩
  · exact (θ_run (Cert.KernelIdeal.defs (F := Ideal)) _ _).mono
      (fun r h c => ⟨(h c).1.trans (Cert.KernelIdeal.Gen.result_at_end m g c), (h c).2⟩)
      (Cert.KernelIdeal.Gen.run_result (F := Ideal) m g)
  · refine (θ_run (Cert.ReferenceIdeal.defs (F := Ideal)) _ _).mono (fun r h c => ⟨(h c).1.trans ?_, (h c).2⟩)
      (Cert.ReferenceIdeal.Value.run (F := Ideal) m' g')
    obtain ⟨a0, a1, a2, a3, a4, a5, a6, a7, a8, a9, a10, a11, a12, a13⟩ := hagree c
    obtain ⟨hd1, hd2⟩ := Cert.PreDecode.dst_nonneg m hpre c
    rw [Cert.ReferenceIdeal.Read.val_main_v250_eq, a0, a1, a2, a3, a4, a5, a6, a7, a8, a9, a10, a11, a12, a13,
      Cert.RefHead.head_ref, Cert.RefConv1.conv1 hd1, Cert.RefConv2.conv2 hd2]
    exact (outK_eq_outR _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
